-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel

variable [Facts]

def fn {F : FTy → Type} [FloatOps F] (main_arg0 : FVec F S4096x64 .f32) (main_arg1 : FVec F S4096x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4096x64 : Shape := ⟨2, ![4096, 64]⟩
abbrev S8192x64 : Shape := ⟨2, ![8192, 64]⟩
abbrev S_ : Shape := ⟨0, ![]⟩
abbrev S64 : Shape := ⟨1, ![64]⟩
abbrev S1x1 : Shape := ⟨2, ![1, 1]⟩
abbrev S8x8x128 : Shape := ⟨3, ![8, 8, 128]⟩
abbrev S1024x64 : Shape := ⟨2, ![1024, 64]⟩
abbrev S1x8x128 : Shape := ⟨3, ![1, 8, 128]⟩
abbrev S8x128 : Shape := ⟨2, ![8, 128]⟩
abbrev S1024 : Shape := ⟨1, ![1024]⟩
abbrev S1024x1 : Shape := ⟨2, ![1024, 1]⟩
abbrev S64x1024 : Shape := ⟨2, ![64, 1024]⟩
abbrev S1024x1024 : Shape := ⟨2, ![1024, 1024]⟩
abbrev S1x1024 : Shape := ⟨2, ![1, 1024]⟩
abbrev S1 : Shape := ⟨1, ![1]⟩
abbrev S8x1x1 : Shape := ⟨3, ![8, 1, 1]⟩
abbrev S8 : Shape := ⟨1, ![8]⟩

abbrev nBuf : Space → Nat
  | .hbm => 56
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S8x8x128, .f32⟩
  | .hbm, ⟨26, _⟩ => ⟨S8x8x128, .f32⟩
  | .hbm, ⟨27, _⟩ => ⟨S8x8x128, .f32⟩
  | .hbm, ⟨28, _⟩ => ⟨S8x1x1, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S8x1x1, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S8x1x1, .f32⟩
  | .hbm, ⟨37, _⟩ => ⟨S8, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S1x1, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_cst_7 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_9 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_cst_11 : Ref sig .tc := ⟨.hbm, 40, rfl⟩
abbrev main_v24 : Ref sig .tc := ⟨.hbm, 41, rfl⟩
abbrev main_cst_12 : Ref sig .tc := ⟨.hbm, 42, rfl⟩
abbrev main_v25 : Ref sig .tc := ⟨.hbm, 43, rfl⟩
abbrev main_cst_13 : Ref sig .tc := ⟨.hbm, 44, rfl⟩
abbrev main_v26 : Ref sig .tc := ⟨.hbm, 45, rfl⟩
abbrev main_cst_14 : Ref sig .tc := ⟨.hbm, 46, rfl⟩
abbrev main_v27 : Ref sig .tc := ⟨.hbm, 47, rfl⟩
abbrev main_cst_15 : Ref sig .tc := ⟨.hbm, 48, rfl⟩
abbrev main_v28 : Ref sig .tc := ⟨.hbm, 49, rfl⟩
abbrev main_cst_16 : Ref sig .tc := ⟨.hbm, 50, rfl⟩
abbrev main_v29 : Ref sig .tc := ⟨.hbm, 51, rfl⟩
abbrev main_v30 : Ref sig .tc := ⟨.hbm, 52, rfl⟩
abbrev main_cst_17 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S4096x64_S4096x64_S8192x64_d0 : Shape.Concatenates [S4096x64, S4096x64] S8192x64 0
  reducesTo_S8192x64_S_d0_1 : S8192x64.ReducesTo [0, 1] S_
  h_S_ : 0 < S_.numel
  reducesTo_S8192x64_S64_d0 : S8192x64.ReducesTo [0] S64
  reducesTo_S64_S_d0 : S64.ReducesTo [0] S_
  shapeCasts_S_S1x1 : S_.ShapeCasts S1x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S8x8x128.size a
  hwx0_5 : ∀ i : grid0.Coords, EltTy.bits .f32 = 32 ∨ (Rect.block (s := S8x8x128) S1x8x128.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v13) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond3 i == 1#1) | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S4096x4096 : Shape := ⟨2, ![4096, 4096]⟩

abbrev nBuf : Space → Nat
  | .hbm => 278
  | .vmem => 0
  | .smem => 0
  | _ => 0

abbrev hbmTy0_0 (i : Nat) : BufTy := match i % 128 with
  | 0 => ⟨S4096x64, .f32⟩
  | 1 => ⟨S4096x64, .f32⟩
  | 2 => ⟨S8192x64, .f32⟩
  | 3 => ⟨S8192x64, .f32⟩
  | 4 => ⟨S_, .f32⟩
  | 5 => ⟨S8192, .f32⟩
  | 6 => ⟨S8192x1, .f32⟩
  | 7 => ⟨S8192x64, .f32⟩
  | 8 => ⟨S_, .f32⟩
  | 9 => ⟨S8192, .f32⟩
  | 10 => ⟨S8192x1, .f32⟩
  | 11 => ⟨S1x8192, .f32⟩
  | 12 => ⟨S8192x8192, .f32⟩
  | 13 => ⟨S8192x8192, .f32⟩
  | 14 => ⟨S8192x8192, .f32⟩
  | 15 => ⟨S64x8192, .f32⟩
  | 16 => ⟨S8192x8192, .f32⟩
  | 17 => ⟨S_, .f32⟩
  | 18 => ⟨S8192x8192, .f32⟩
  | 19 => ⟨S8192x8192, .f32⟩
  | 20 => ⟨S8192x8192, .f32⟩
  | 21 => ⟨S_, .f32⟩
  | 22 => ⟨S8192x8192, .f32⟩
  | 23 => ⟨S8192x8192, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S4096x4096, .f32⟩
  | 53 => ⟨S4096x4096, .f32⟩
  | 54 => ⟨S4096x4096, .f32⟩
  | 55 => ⟨S4096x4096, .f32⟩
  | 56 => ⟨S4096x4096, .f32⟩
  | 57 => ⟨S4096x4096, .f32⟩
  | 58 => ⟨S4096x4096, .f32⟩
  | 59 => ⟨S_, .f32⟩
  | 60 => ⟨S_, .f32⟩
  | 61 => ⟨S_, .f32⟩
  | 62 => ⟨S_, .f32⟩
  | 63 => ⟨S4096x4096, .f32⟩
  | 64 => ⟨S4096x4096, .f32⟩
  | 65 => ⟨S4096x4096, .f32⟩
  | 66 => ⟨S4096x4096, .f32⟩
  | 67 => ⟨S_, .f32⟩
  | 68 => ⟨S_, .f32⟩
  | 69 => ⟨S_, .f32⟩
  | 70 => ⟨S4096x4096, .f32⟩
  | 71 => ⟨S4096x4096, .f32⟩
  | 72 => ⟨S4096x4096, .f32⟩
  | 73 => ⟨S4096x4096, .f32⟩
  | 74 => ⟨S_, .f32⟩
  | 75 => ⟨S_, .f32⟩
  | 76 => ⟨S_, .f32⟩
  | 77 => ⟨S4096x4096, .f32⟩
  | 78 => ⟨S4096x4096, .f32⟩
  | 79 => ⟨S4096x4096, .f32⟩
  | 80 => ⟨S4096x4096, .f32⟩
  | 81 => ⟨S_, .f32⟩
  | 82 => ⟨S_, .f32⟩
  | 83 => ⟨S_, .f32⟩
  | 84 => ⟨S4096x4096, .f32⟩
  | 85 => ⟨S4096x4096, .f32⟩
  | 86 => ⟨S4096x4096, .f32⟩
  | 87 => ⟨S4096x4096, .f32⟩
  | 88 => ⟨S_, .f32⟩
  | 89 => ⟨S_, .f32⟩
  | 90 => ⟨S_, .f32⟩
  | 91 => ⟨S4096x4096, .f32⟩
  | 92 => ⟨S4096x4096, .f32⟩
  | 93 => ⟨S4096x4096, .f32⟩
  | 94 => ⟨S4096x4096, .f32⟩
  | 95 => ⟨S_, .f32⟩
  | 96 => ⟨S_, .f32⟩
  | 97 => ⟨S_, .f32⟩
  | 98 => ⟨S4096x4096, .f32⟩
  | 99 => ⟨S4096x4096, .f32⟩
  | 100 => ⟨S4096x4096, .f32⟩
  | 101 => ⟨S4096x4096, .f32⟩
  | 102 => ⟨S_, .f32⟩
  | 103 => ⟨S_, .f32⟩
  | 104 => ⟨S_, .f32⟩
  | 105 => ⟨S4096x4096, .f32⟩
  | 106 => ⟨S4096x4096, .f32⟩
  | 107 => ⟨S4096x4096, .f32⟩
  | 108 => ⟨S4096x4096, .f32⟩
  | 109 => ⟨S_, .f32⟩
  | 110 => ⟨S_, .f32⟩
  | 111 => ⟨S_, .f32⟩
  | 112 => ⟨S4096x4096, .f32⟩
  | 113 => ⟨S4096x4096, .f32⟩
  | 114 => ⟨S4096x4096, .f32⟩
  | 115 => ⟨S4096x4096, .f32⟩
  | 116 => ⟨S_, .f32⟩
  | 117 => ⟨S_, .f32⟩
  | 118 => ⟨S_, .f32⟩
  | 119 => ⟨S4096x4096, .f32⟩
  | 120 => ⟨S4096x4096, .f32⟩
  | 121 => ⟨S4096x4096, .f32⟩
  | 122 => ⟨S4096x4096, .f32⟩
  | 123 => ⟨S_, .f32⟩
  | 124 => ⟨S_, .f32⟩
  | 125 => ⟨S_, .f32⟩
  | 126 => ⟨S_, .f32⟩
  | 127 => ⟨S_, .f32⟩
  | _ => ⟨S4096x64, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S_, .f32⟩
  | 5 => ⟨S_, .f32⟩
  | 6 => ⟨S_, .f32⟩
  | 7 => ⟨S_, .f32⟩
  | 8 => ⟨S4096x4096, .f32⟩
  | 9 => ⟨S4096x4096, .f32⟩
  | 10 => ⟨S4096x4096, .f32⟩
  | 11 => ⟨S4096x4096, .f32⟩
  | 12 => ⟨S_, .f32⟩
  | 13 => ⟨S_, .f32⟩
  | 14 => ⟨S_, .f32⟩
  | 15 => ⟨S4096x4096, .f32⟩
  | 16 => ⟨S4096x4096, .f32⟩
  | 17 => ⟨S4096x4096, .f32⟩
  | 18 => ⟨S4096x4096, .f32⟩
  | 19 => ⟨S_, .f32⟩
  | 20 => ⟨S_, .f32⟩
  | 21 => ⟨S_, .f32⟩
  | 22 => ⟨S4096x4096, .f32⟩
  | 23 => ⟨S4096x4096, .f32⟩
  | 24 => ⟨S4096x4096, .f32⟩
  | 25 => ⟨S4096x4096, .f32⟩
  | 26 => ⟨S_, .f32⟩
  | 27 => ⟨S_, .f32⟩
  | 28 => ⟨S_, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S_, .f32⟩
  | 35 => ⟨S_, .f32⟩
  | 36 => ⟨S4096x4096, .f32⟩
  | 37 => ⟨S4096x4096, .f32⟩
  | 38 => ⟨S4096x4096, .f32⟩
  | 39 => ⟨S4096x4096, .f32⟩
  | 40 => ⟨S_, .f32⟩
  | 41 => ⟨S_, .f32⟩
  | 42 => ⟨S_, .f32⟩
  | 43 => ⟨S4096x4096, .f32⟩
  | 44 => ⟨S4096x4096, .f32⟩
  | 45 => ⟨S4096x4096, .f32⟩
  | 46 => ⟨S4096x4096, .f32⟩
  | 47 => ⟨S_, .f32⟩
  | 48 => ⟨S_, .f32⟩
  | 49 => ⟨S_, .f32⟩
  | 50 => ⟨S4096x4096, .f32⟩
  | 51 => ⟨S4096x4096, .f32⟩
  | 52 => ⟨S4096x4096, .f32⟩
  | 53 => ⟨S4096x4096, .f32⟩
  | 54 => ⟨S_, .f32⟩
  | 55 => ⟨S_, .f32⟩
  | 56 => ⟨S_, .f32⟩
  | 57 => ⟨S4096x4096, .f32⟩
  | 58 => ⟨S4096x4096, .f32⟩
  | 59 => ⟨S4096x4096, .f32⟩
  | 60 => ⟨S4096x4096, .f32⟩
  | 61 => ⟨S_, .f32⟩
  | 62 => ⟨S_, .f32⟩
  | 63 => ⟨S_, .f32⟩
  | 64 => ⟨S4096x4096, .f32⟩
  | 65 => ⟨S4096x4096, .f32⟩
  | 66 => ⟨S4096x4096, .f32⟩
  | 67 => ⟨S4096x4096, .f32⟩
  | 68 => ⟨S_, .f32⟩
  | 69 => ⟨S_, .f32⟩
  | 70 => ⟨S_, .f32⟩
  | 71 => ⟨S_, .f32⟩
  | 72 => ⟨S_, .f32⟩
  | 73 => ⟨S4096x4096, .f32⟩
  | 74 => ⟨S4096x4096, .f32⟩
  | 75 => ⟨S4096x4096, .f32⟩
  | 76 => ⟨S4096x4096, .f32⟩
  | 77 => ⟨S_, .f32⟩
  | 78 => ⟨S_, .f32⟩
  | 79 => ⟨S_, .f32⟩
  | 80 => ⟨S_, .f32⟩
  | 81 => ⟨S4096x4096, .f32⟩
  | 82 => ⟨S4096x4096, .f32⟩
  | 83 => ⟨S4096x4096, .f32⟩
  | 84 => ⟨S4096x4096, .f32⟩
  | 85 => ⟨S_, .f32⟩
  | 86 => ⟨S_, .f32⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S_, .f32⟩
  | 93 => ⟨S_, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S_, .f32⟩
  | 100 => ⟨S_, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S_, .f32⟩
  | 107 => ⟨S_, .f32⟩
  | 108 => ⟨S_, .f32⟩
  | 109 => ⟨S4096x4096, .f32⟩
  | 110 => ⟨S4096x4096, .f32⟩
  | 111 => ⟨S4096x4096, .f32⟩
  | 112 => ⟨S4096x4096, .f32⟩
  | 113 => ⟨S_, .f32⟩
  | 114 => ⟨S_, .f32⟩
  | 115 => ⟨S_, .f32⟩
  | 116 => ⟨S4096x4096, .f32⟩
  | 117 => ⟨S4096x4096, .f32⟩
  | 118 => ⟨S4096x4096, .f32⟩
  | 119 => ⟨S4096x4096, .f32⟩
  | 120 => ⟨S_, .f32⟩
  | 121 => ⟨S_, .f32⟩
  | 122 => ⟨S_, .f32⟩
  | 123 => ⟨S4096x4096, .f32⟩
  | 124 => ⟨S4096x4096, .f32⟩
  | 125 => ⟨S4096x4096, .f32⟩
  | 126 => ⟨S4096x4096, .f32⟩
  | 127 => ⟨S_, .f32⟩
  | _ => ⟨S4096x64, .f32⟩

abbrev hbmTy0_2 (i : Nat) : BufTy := match i % 128 with
  | 0 => ⟨S_, .f32⟩
  | 1 => ⟨S_, .f32⟩
  | 2 => ⟨S4096x4096, .f32⟩
  | 3 => ⟨S4096x4096, .f32⟩
  | 4 => ⟨S4096x4096, .f32⟩
  | 5 => ⟨S4096x4096, .f32⟩
  | 6 => ⟨S_, .f32⟩
  | 7 => ⟨S_, .f32⟩
  | 8 => ⟨S_, .f32⟩
  | 9 => ⟨S4096x4096, .f32⟩
  | 10 => ⟨S4096x4096, .f32⟩
  | 11 => ⟨S4096x4096, .f32⟩
  | 12 => ⟨S4096x4096, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_cst_12 : Ref sig .tc := ⟨.hbm, 42, rfl⟩
abbrev main_v27 : Ref sig .tc := ⟨.hbm, 43, rfl⟩
abbrev main_cst_13 : Ref sig .tc := ⟨.hbm, 44, rfl⟩
abbrev main_v28 : Ref sig .tc := ⟨.hbm, 45, rfl⟩
abbrev main_cst_14 : Ref sig .tc := ⟨.hbm, 46, rfl⟩
abbrev main_v29 : Ref sig .tc := ⟨.hbm, 47, rfl⟩
abbrev main_cst_15 : Ref sig .tc := ⟨.hbm, 48, rfl⟩
abbrev main_v30 : Ref sig .tc := ⟨.hbm, 49, rfl⟩
abbrev main_cst_16 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_17 : Ref sig .tc := ⟨.hbm, 59, rfl⟩
abbrev main_v39 : Ref sig .tc := ⟨.hbm, 60, rfl⟩
abbrev main_cst_18 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_19 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_20 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_21 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_22 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_23 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_24 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_25 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_26 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_27 : Ref sig .tc := ⟨.hbm, 123, rfl⟩
abbrev main_v93 : Ref sig .tc := ⟨.hbm, 124, rfl⟩
abbrev main_v94 : Ref sig .tc := ⟨.hbm, 125, rfl⟩
abbrev main_cst_28 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_29 : Ref sig .tc := ⟨.hbm, 132, rfl⟩
abbrev main_v100 : Ref sig .tc := ⟨.hbm, 133, rfl⟩
abbrev main_cst_30 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_31 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_32 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_33 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_34 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_35 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_36 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_37 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_38 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_39 : Ref sig .tc := ⟨.hbm, 196, rfl⟩
abbrev main_v154 : Ref sig .tc := ⟨.hbm, 197, rfl⟩
abbrev main_v155 : Ref sig .tc := ⟨.hbm, 198, rfl⟩
abbrev main_cst_40 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_41 : Ref sig .tc := ⟨.hbm, 205, rfl⟩
abbrev main_v161 : Ref sig .tc := ⟨.hbm, 206, rfl⟩
abbrev main_cst_42 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_43 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_44 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_45 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_46 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_47 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_cst_48 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_cst_49 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_cst_50 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_cst_51 : Ref sig .tc := ⟨.hbm, 269, rfl⟩
abbrev main_v215 : Ref sig .tc := ⟨.hbm, 270, rfl⟩
abbrev main_v216 : Ref sig .tc := ⟨.hbm, 271, rfl⟩
abbrev main_cst_52 : Ref sig .tc := ⟨.hbm, 272, rfl⟩
abbrev main_v217 : Ref sig .tc := ⟨.hbm, 273, rfl⟩
abbrev main_v218 : Ref sig .tc := ⟨.hbm, 274, rfl⟩
abbrev main_cst_53 : Ref sig .tc := ⟨.hbm, 275, rfl⟩
abbrev main_v219 : Ref sig .tc := ⟨.hbm, 276, rfl⟩
abbrev main_v220 : Ref sig .tc := ⟨.hbm, 277, rfl⟩

abbrev nD : Nat := 1
abbrev τ : Topo := Topo.v7x

variable {F : FTy → Type} [FloatOps F]

class Facts₀ : Prop where
  concatenates_S4096x64_S4096x64_S8192x64_d0 : Shape.Concatenates [S4096x64, S4096x64] S8192x64 0
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  slices_S8192x8192_S4096x4096_0_0 : S8192x8192.Slices ![0, 0] S4096x4096
  slices_S8192x8192_S4096x4096_4096_4096 : S8192x8192.Slices ![4096, 4096] S4096x4096
  slices_S8192x8192_S4096x4096_0_4096 : S8192x8192.Slices ![0, 4096] S4096x4096
  bcast_S_S4096x4096 : S_.BroadcastsInDim S4096x4096 (![] : Fin 0 → Fin S4096x4096.rank)
  reducesTo_S4096x4096_S_d0_1 : S4096x4096.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.RefFrame.lean ====
/-
  The reference program's frame: it runs to the end, faults nowhere and leaves its two argument arrays as it found
  them. This is its generated run with the result forgotten.
-/
import proofs.«152378_j46660524704258_2_alg».proof.Defs
import proofs.«152378_j46660524704258_2_alg».proof.Proof.Gen.ReferenceIdeal.Run
import proofs.«152378_j46660524704258_2_alg».proof.Proof.Gen.Pre_finite_inputs

noncomputable section

open Idealize.ShloMosaic Idealize.ShloMosaic.TcCoe Idealize.SL.Sem

namespace Cert.Proof.RefFrame

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RbfSpec.lean ====
/-
  The two programs' common mathematics, over the reals.

  The n = 8192 rows of the data (the 4096 source rows, then the 4096 target rows) are a real matrix X with 64 columns.
  The squared distance of rows p and q is written the way both programs compute it,
  max (|x_p|^2 + |x_q|^2 - 2 <x_p, x_q>) 0, and a radial kernel value is exp of minus that distance over a bandwidth.
  Both programs return  mean_xx + mean_yy - 2 mean_xy  of the kernel values over the source-source, target-target and
  source-target quadrants, each mean taken over 4096^2 = 16777216 pairs and carrying the factor ten of ten equal
  bandwidths.
  The reference (mmdRef) takes for its bandwidth the mean of all n^2 - n = 67100672 off-diagonal squared distances,
  floored at a small positive number b0, sums each quadrant over its 4096 x 4096 index pairs, divides MINUS the distance
  by the bandwidth, and adds the ten equal terms one by one.
  The other program (mmdKer) gets the sum of all squared distances from the identity
      sum_{p,q} |x_p - x_q|^2 = 2 n sum_p |x_p|^2 - 2 |sum_p x_p|^2        (2 n = 16384),
  multiplies the distance by minus one over the bandwidth, sums each quadrant as 1024 x 1024 blocks (eight block rows
  of eight blocks, a block counted for the quadrant it lies in, the target-source blocks left out), and multiplies by
  ten.
-/
import Mathlib

noncomputable section

namespace Cert.Proof.Rbf

open Finset BigOperators

/-- Row p's squared norm. -/
def sq (X : Fin 8192 → Fin 64 → ℝ) (p : Fin 8192) : ℝ := ∑ k, X p k * X p k

/-- The inner product of rows p and q. -/
def dot (X : Fin 8192 → Fin 64 → ℝ) (p q : Fin 8192) : ℝ := ∑ k, X p k * X q k

/-- The squared distance of rows p and q as both programs form it (the clamp at zero is vacuous over the reals). -/
def dist2 (X : Fin 8192 → Fin 64 → ℝ) (p q : Fin 8192) : ℝ := max (sq X p + sq X q - 2 * dot X p q) 0

/-- A source row, and a target row, among the 8192. -/
def lo (a : Fin 4096) : Fin 8192 := ⟨a.val, by omega⟩
def hi (a : Fin 4096) : Fin 8192 := ⟨a.val + 4096, by omega⟩

/-- Row r of block I. -/
def blk (I : Fin 8) (r : Fin 1024) : Fin 8192 := ⟨I.val * 1024 + r.val, by omega⟩

/-! ## The reference's form -/

/-- The bandwidth: the mean off-diagonal squared distance, floored at b0. -/
def bwRef (X : Fin 8192 → Fin 64 → ℝ) (b0 : ℝ) : ℝ := max ((∑ p, ∑ q, dist2 X p q) / 67100672 / 1) b0

/-- One bandwidth's kernel sum over a quadrant. -/
def quadRef (X : Fin 8192 → Fin 64 → ℝ) (bw : ℝ) (f g : Fin 4096 → Fin 8192) : ℝ :=
  ∑ a, ∑ b, Real.exp (-(dist2 X (f a) (g b)) / bw)

/-- Ten equal terms added one by one from zero. -/
def tenfold (s : ℝ) : ℝ := 0 + s + s + s + s + s + s + s + s + s + s

def mmdRef (X : Fin 8192 → Fin 64 → ℝ) (b0 : ℝ) : ℝ :=
  tenfold (quadRef X (bwRef X b0 * 1) lo lo) / 16777216 + tenfold (quadRef X (bwRef X b0 * 1) hi hi) / 16777216
    - 2 * (tenfold (quadRef X (bwRef X b0 * 1) lo hi) / 16777216)

/-! ## The blocked form -/

/-- The bandwidth from the closed form of the sum of all squared distances. -/
def bwKer (X : Fin 8192 → Fin 64 → ℝ) (b0 : ℝ) : ℝ :=
  max ((16384 * (∑ p, ∑ k, X p k * X p k) - 2 * ∑ k, (∑ p, X p k) * (∑ p, X p k)) / 67100672 / 1) b0

/-- One block's kernel sum, the distance multiplied by ninv. -/
def blockSum (X : Fin 8192 → Fin 64 → ℝ) (ninv : ℝ) (I J : Fin 8) : ℝ :=
  ∑ r : Fin 1024, ∑ c : Fin 1024, Real.exp (dist2 X (blk I r) (blk J c) * ninv)

/-- Block row I's share of a quadrant: the blocks (I, J) the quadrant's test sel selects. -/
def rowAcc (X : Fin 8192 → Fin 64 → ℝ) (ninv : ℝ) (sel : Fin 8 → Fin 8 → Prop) [∀ I J, Decidable (sel I J)] (I : Fin 8) : ℝ :=
  ∑ J : Fin 8, if sel I J then blockSum X ninv I J else 0

def selXX (I J : Fin 8) : Prop := I.val < 4 ∧ J.val < 4
def selYY (I J : Fin 8) : Prop := 4 ≤ I.val ∧ 4 ≤ J.val
def selXY (I J : Fin 8) : Prop := I.val < 4 ∧ 4 ≤ J.val
instance (I J : Fin 8) : Decidable (selXX I J) := by unfold selXX; infer_instance
instance (I J : Fin 8) : Decidable (selYY I J) := by unfold selYY; infer_instance
instance (I J : Fin 8) : Decidable (selXY I J) := by unfold selXY; infer_instance

def mmdKer (X : Fin 8192 → Fin 64 → ℝ) (b0 : ℝ) : ℝ :=
  10 * (∑ I, rowAcc X (-1 / bwKer X b0) selXX I) / 16777216 + 10 * (∑ I, rowAcc X (-1 / bwKer X b0) selYY I) / 16777216
    - 2 * (10 * (∑ I, rowAcc X (-1 / bwKer X b0) selXY I) / 16777216)

end Cert.Proof.Rbf

end
-- ==== Proof.RbfConsts.lean ====
/-
  The float constants the two programs spell, as the real numbers their binary patterns denote when a float is read as
  an exact extended real: 0, 1, -1, 2, 10, 16384 = 2 * 8192, 16777216 = 4096^2, 67100672 = 8192^2 - 8192, and the
  bandwidth floor b0 = 9223372 / 2^63 (the binary float nearest to 1e-12), which is positive.
-/
import Idealize.ShloMosaic.PureOps.Ideal

noncomputable section

namespace Cert.Proof.Rbf

open Idealize.ShloMosaic

/-- The bandwidth floor: the real number the pattern of the float nearest 1e-12 denotes. -/
def b0 : ℝ := 9223372 / 2 ^ 63

theorem b0_pos : 0 < b0 := by unfold b0; positivity

theorem ofBits_0 : Ideal.ofBits .f32 0x00000000#32 = ((0 : ℝ) : EReal) := by
  simp [Ideal.ofBits, Ideal.ieee]

theorem ofBits_1 : Ideal.ofBits .f32 0x3F800000#32 = ((1 : ℝ) : EReal) := by
  simp [Ideal.ofBits, Ideal.ieee, -EReal.coe_mul]; norm_num

theorem ofBits_neg1 : Ideal.ofBits .f32 0xBF800000#32 = ((-1 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_10 : Ideal.ofBits .f32 0x41200000#32 = ((10 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_16777216 : Ideal.ofBits .f32 0x4B800000#32 = ((16777216 : ℝ) : EReal) := by
  simp [Ideal.ofBits, Ideal.ieee, -EReal.coe_mul]; norm_num

theorem ofBits_67100672 : Ideal.ofBits .f32 0x4C7FF800#32 = ((67100672 : ℝ) : EReal) := by
  simp [Ideal.ofBits, Ideal.ieee, -EReal.coe_mul]; norm_num

theorem ofBits_b0 : Ideal.ofBits .f32 0x2B8CBCCC#32 = ((b0 : ℝ) : EReal) := by
  simp [Ideal.ofBits, Ideal.ieee, -EReal.coe_mul, b0]; norm_num

end Cert.Proof.Rbf

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product read at an index, at the ideal values.

  For the ordinary dimension numbers — an [A, K] matrix times a [K, B] matrix, the left operand's columns contracted with
  the right operand's rows, no batch axis — the host's `dot_general` is, at (p, e), the sum over k of L(p, k) · R(k, e):
  the same `Fin K`-indexed sum a `tpu.matmul` into the zero accumulator gives, so the two meet term by term.
-/
import Idealize.ShloMosaic.PureOps.Ideal.Laws
import Idealize.ShloMosaic.Lib.ValueIdx
import proofs.«152378_j46660524704258_2_alg».proof.Proof.LibPlainMatmul

noncomputable section

namespace Idealize.ShloMosaic.ValueIdx

open Idealize.ShloMosaic

/-- A plain [A, K] × [K, B] host `dot_general`, read at (p, e): Σ_k L(p, k) · R(k, e). -/
theorem dotGeneral_plain_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    Host.dotGeneral (DotDims.plain A K B) prec lhs rhs (ix2 p e)
      = ∑ k : Fin K, lhs (ix2 p k) * rhs (ix2 k e) := by
  show FloatOps.dotGeneral (DotDims.plain A K B) prec .single lhs rhs (ix2 p e) = _
  rw [Ideal.dotGeneral_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibTotalSum.lean ====
/-
  A host sum over every axis.

  A sum of a float array over all of its axes is printed as a host reduction by addition into the rank-0 shape, from an
  initial value that is the zero word. At the ideal values the host's float sum is the initial value plus the exact sum of
  the elements that reduce to each index; the rank-0 result has one index, every element reduces to it, and the zero word
  denotes 0: the result is the sum over all indices of the array.
-/
import Idealize.ShloMosaic.Lib.Pipeline.Value
import Idealize.ShloMosaic.PureOps.Ideal.Laws

noncomputable section

open scoped BigOperators

namespace Cert.LibTotalSum

open Idealize.ShloMosaic

/-- A host sum over every axis, from the zero word, is the sum over all indices. -/
theorem total_sum {s : Shape} {axes : List (Fin s.rank)} (x : FVec Ideal s .f32) (h' : s.ReducesTo axes ⟨0, ![]⟩)
    (hu : 0 < (⟨0, ![]⟩ : Shape).numel) (i : (⟨0, ![]⟩ : Shape).Idx) :
    Host.reduceAdd x (constant (F := Ideal) ⟨0, ![]⟩ .f32 0x00000000#32) h' hu i = ∑ j : s.Idx, x j := by
  simp only [Host.reduceAdd, Ideal.hostReduceAdd_def]
  refine (Ideal.hostReduceAdd_total h' (fun b => b.elim0) x _ i).trans ?_
  exact (congrArg (· + ∑ j : s.Idx, x j) Ideal.ofBits_zero_f32).trans (zero_add _)

end Cert.LibTotalSum

end
-- ==== Proof.RefValue1.lean ====
/-
  Host operations of the reference read at an index, at the exact-real instance, over the literal shapes of this
  program: 8192 rows of 64 reals, the 8192 x 8192 array of their pairwise squared distances, and its three
  4096 x 4096 blocks.

  Nothing here mentions the program: each lemma takes an arbitrary array of the right shape and says what one
  operation (or a short chain of layout operations) reads at an index given by coordinates.
  • a finite sum of reals, coerced to the extended reals, is the sum of the coerced terms; a real divided by a real
    that is not zero is the real quotient;
  • a row sum from the zero word is the sum over the 64 columns;
  • a vector made a column and spread over the columns reads entry p at (p, q); made a row and spread over the rows it
    reads entry q;
  • the product of an array with its own transpose reads at (p, q) the inner product of rows p and q;
  • a float word spread over a shape reads the extended real it denotes;
  • a 4096 x 4096 block cut at given offsets reads the source at the shifted coordinates;
  • the sum over all of a 4096 x 4096 array of exp(−entry / scalar), for real entries and a real scalar that is not
    zero, is the real double sum of Real.exp (−entry / scalar);
  • the sum over all of an 8192 x 8192 array is the double sum over its coordinates.
-/
import Mathlib
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«152378_j46660524704258_2_alg».proof.Proof.LibPlainDot
import proofs.«152378_j46660524704258_2_alg».proof.Proof.LibTotalSum

noncomputable section

namespace Cert.Proof.RefValue

open Idealize.ShloMosaic Idealize.ShloMosaic.ValueIdx
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- A row sum of an 8192 x 64 array from the zero word, at row p. -/
theorem rowsum_apply (x : FVec Ideal ⟨2, ![8192, 64]⟩ .f32)
    (h' : (⟨2, ![8192, 64]⟩ : Shape).ReducesTo [1] ⟨1, ![8192]⟩) (hu : 0 < (⟨0, ![]⟩ : Shape).numel) (p : Fin 8192) :
    Host.reduceAdd x (constant (F := Ideal) ⟨0, ![]⟩ .f32 0x00000000#32) h' hu (ix1 p) = ∑ k : Fin 64, x (ix2 p k) := by
  have h : (⟨2, ![8192, 64]⟩ : Shape).Reduces [1] ⟨1, ![8192]⟩ := by decide
  rw [hostReduceAdd_apply]
  refine (Ideal.hostReduceAdd_single h' h x _ (ix1 p)).trans ?_
  rw [constant_apply, Ideal.ofBits_zero_f32, zero_add]
  refine Finset.sum_congr rfl fun k _ => congrArg x ?_
  funext c
  match c with
  | ⟨0, _⟩ => exact Fin.ext rfl
  | ⟨1, _⟩ => exact Fin.ext rfl

/-- A vector made a column and the column spread over the columns of a square array: entry (p, q) is entry p. -/
theorem col_apply {α : Type} (r : (⟨1, ![8192]⟩ : Shape).Idx → α)
    (h1 : (⟨1, ![8192]⟩ : Shape).BroadcastsInDim ⟨2, ![8192, 1]⟩ ![0])
    (h2 : (⟨2, ![8192, 1]⟩ : Shape).BroadcastsInDim ⟨2, ![8192, 8192]⟩ ![0, 1]) (p q : Fin 8192) :
    broadcastInDim ⟨2, ![8192, 8192]⟩ ![0, 1] h2 (broadcastInDim ⟨2, ![8192, 1]⟩ ![0] h1 r) (ix2 p q) = r (ix1 p) := by
  rw [broadcastInDim_apply ![0, 1] h2 _ (ix2 p q) (ix2 p (0 : Fin 1)) (fun a => match a with | ⟨0, _⟩ => rfl | ⟨1, _⟩ => rfl)]
  rw [broadcastInDim_apply ![0] h1 _ (ix2 p (0 : Fin 1)) (ix1 p) (fun a => match a with | ⟨0, _⟩ => rfl)]

/-- The same column transposed to a row and the row spread over the rows: entry (p, q) is entry q. -/
theorem row_apply {α : Type} (r : (⟨1, ![8192]⟩ : Shape).Idx → α)
    (h1 : (⟨1, ![8192]⟩ : Shape).BroadcastsInDim ⟨2, ![8192, 1]⟩ ![0])
    (ht : (⟨2, ![8192, 1]⟩ : Shape).Transposes [1, 0] ⟨2, ![1, 8192]⟩)
    (h2 : (⟨2, ![1, 8192]⟩ : Shape).BroadcastsInDim ⟨2, ![8192, 8192]⟩ ![0, 1]) (p q : Fin 8192) :
    broadcastInDim ⟨2, ![8192, 8192]⟩ ![0, 1] h2
      (transpose ⟨2, ![1, 8192]⟩ [1, 0] (broadcastInDim ⟨2, ![8192, 1]⟩ ![0] h1 r) ht) (ix2 p q) = r (ix1 q) := by
  rw [broadcastInDim_apply ![0, 1] h2 _ (ix2 p q) (ix2 (0 : Fin 1) q) (fun a => match a with | ⟨0, _⟩ => rfl | ⟨1, _⟩ => rfl)]
  rw [transpose_ix2_apply]
  rw [broadcastInDim_apply ![0] h1 _ (ix2 q (0 : Fin 1)) (ix1 q) (fun a => match a with | ⟨0, _⟩ => rfl)]

/-- The product of an 8192 x 64 array with its own transpose, read at (p, q): the inner product of rows p and q. -/
theorem gram_apply (d : DotDims ⟨2, ![8192, 64]⟩ ⟨2, ![64, 8192]⟩ ⟨2, ![8192, 8192]⟩) (hd : d = DotDims.plain 8192 64 8192)
    (x : FVec Ideal ⟨2, ![8192, 64]⟩ .f32) (ht : (⟨2, ![8192, 64]⟩ : Shape).Transposes [1, 0] ⟨2, ![64, 8192]⟩)
    (p q : Fin 8192) :
    Host.dotGeneral d none x (transpose ⟨2, ![64, 8192]⟩ [1, 0] x ht) (ix2 p q) = ∑ k : Fin 64, x (ix2 p k) * x (ix2 q k) := by
  subst hd
  rw [dotGeneral_plain_apply]
  refine Finset.sum_congr rfl fun k _ => ?_
  rw [transpose_ix2_apply]

/-- A float word spread over a shape reads, everywhere, the extended real the word denotes. -/
theorem splat_apply {T : Shape} (b : BitVec 32) (h : (⟨0, ![]⟩ : Shape).BroadcastsInDim T ![]) (j : T.Idx) :
    broadcastInDim T ![] h (constant (F := Ideal) ⟨0, ![]⟩ .f32 b) j = Ideal.ofBits .f32 b := by
  rw [broadcastInDim_scalar_apply, constant_apply]

/-- A block of 4096 x 4096 cut from a square array of side 8192 at the offsets (o0, o1), read at (a, b). -/
theorem block_apply {α : Type} (o0 o1 : Nat) (x : (⟨2, ![8192, 8192]⟩ : Shape).Idx → α)
    (h : (⟨2, ![8192, 8192]⟩ : Shape).Slices ![o0, o1] ⟨2, ![4096, 4096]⟩) (a b : Fin 4096) (a' b' : Fin 8192)
    (ha : a'.val = o0 + a.val) (hb : b'.val = o1 + b.val) :
    extractStridedSlice ⟨2, ![4096, 4096]⟩ ![o0, o1] x h (ix2 a b) = x (ix2 a' b') :=
  extractStridedSlice_apply _ _ _ _ _ (fun ax => by
    match ax with
    | ⟨0, _⟩ => exact ha
    | ⟨1, _⟩ => exact hb)

/-- The sum over a 4096 x 4096 array of exp (−entry / scalar), entries and scalar real, the scalar not zero. -/
theorem quad_apply (sl : FVec Ideal ⟨2, ![4096, 4096]⟩ .f32) (bw : FVec Ideal ⟨0, ![]⟩ .f32)
    (D : Fin 4096 → Fin 4096 → ℝ) (w : ℝ) (hw : w ≠ 0)
    (hsl : ∀ a b, sl (ix2 a b) = ((D a b : ℝ) : EReal)) (hbw : bw ix0 = ((w : ℝ) : EReal))
    (hb : (⟨0, ![]⟩ : Shape).BroadcastsInDim ⟨2, ![4096, 4096]⟩ ![])
    (h' : (⟨2, ![4096, 4096]⟩ : Shape).ReducesTo [0, 1] ⟨0, ![]⟩) (hu : 0 < (⟨0, ![]⟩ : Shape).numel)
    (i : (⟨0, ![]⟩ : Shape).Idx) :
    Host.reduceAdd (Host.exp (Host.divf (Host.negf sl) (broadcastInDim ⟨2, ![4096, 4096]⟩ ![] hb bw)))
        (constant (F := Ideal) ⟨0, ![]⟩ .f32 0x00000000#32) h' hu i
      = ((∑ a, ∑ b, Real.exp (-(D a b) / w) : ℝ) : EReal) := by
  rw [Cert.LibTotalSum.total_sum, sum_idx2, coe_sum]
  refine Finset.sum_congr rfl fun a _ => ?_
  rw [coe_sum]
  refine Finset.sum_congr rfl fun b _ => ?_
  show Ideal.exp (Ideal.div (-(sl (ix2 a b))) (broadcastInDim ⟨2, ![4096, 4096]⟩ ![] hb bw (ix2 a b))) = _
  rw [broadcastInDim_scalar_apply, hsl, hbw, ← EReal.coe_neg, div_coe_coe _ _ hw, Ideal.exp_coe]

/-- The sum over all of an 8192 x 8192 array with real entries is the real double sum. -/
theorem total_apply (x : FVec Ideal ⟨2, ![8192, 8192]⟩ .f32) (D : Fin 8192 → Fin 8192 → ℝ)
    (hx : ∀ p q, x (ix2 p q) = ((D p q : ℝ) : EReal))
    (h' : (⟨2, ![8192, 8192]⟩ : Shape).ReducesTo [0, 1] ⟨0, ![]⟩) (hu : 0 < (⟨0, ![]⟩ : Shape).numel)
    (i : (⟨0, ![]⟩ : Shape).Idx) :
    Host.reduceAdd x (constant (F := Ideal) ⟨0, ![]⟩ .f32 0x00000000#32) h' hu i = ((∑ p, ∑ q, D p q : ℝ) : EReal) := by
  rw [Cert.LibTotalSum.total_sum, sum_idx2, coe_sum]
  refine Finset.sum_congr rfl fun p _ => ?_
  rw [coe_sum]
  exact Finset.sum_congr rfl fun q _ => hx p q

end Cert.Proof.RefValue

end
-- ==== Proof.RefValue.lean ====
/-
  The reference program's result, read at the exact-real instance, is the real number mmdRef of the data.

  The data X has 8192 rows of 64 reals: the first argument holds rows 0 … 4095, the second rows 4096 … 8191. The
  reference lays the two one after the other, forms the array of clamped squared distances
  max(|x_p|² + |x_q|² − 2⟨x_p, x_q⟩, 0) from the row sums of squares and the product of the data with its own transpose,
  takes for its bandwidth the sum of all of them divided by 67100672, then by 1, floored at b0, multiplies it by 1 ten
  times over, cuts the source-source, target-target and source-target blocks, sums exp(−distance / bandwidth) over each
  block once per bandwidth, adds the ten equal sums from zero, divides by 16777216, and returns the first plus the second
  minus twice the third. Each step is read at an index and lands on the real-number specification: (1) the laid-out
  data is X; (2) the row sums are sq; (3) the distance array is dist2; (4) the bandwidth is bwRef; (5) each of the ten
  is bwRef · 1; (6) the blocks are dist2 at (lo, lo), (hi, hi), (lo, hi); (7) a block's kernel sum is quadRef; (8) the
  assembly is mmdRef.
-/
import proofs.«152378_j46660524704258_2_alg».proof.Proof.Gen.ReferenceIdeal.Run
import proofs.«152378_j46660524704258_2_alg».proof.Proof.RbfSpec
import proofs.«152378_j46660524704258_2_alg».proof.Proof.RbfConsts
import proofs.«152378_j46660524704258_2_alg».proof.Proof.RefValue1

noncomputable section

namespace Cert.Proof.RefValue

open Idealize.ShloMosaic Idealize.ShloMosaic.ValueIdx
open scoped BigOperators

open Cert.ReferenceIdeal Cert.ReferenceIdeal.Value Cert.Proof.Rbf

/-- The coercion of the reals into the extended reals commutes with max. -/
theorem coe_max (x y : ℝ) : ((max x y : ℝ) : EReal) = max (x : EReal) (y : EReal) :=
  EReal.coe_strictMono.monotone.map_max

/-- The launch contents of the two arguments are the first and the second 4096 rows of X. -/
def Reads (X : Fin 8192 → Fin 64 → ℝ) (V0 : Valuation τ sig (Elt Ideal)) : Prop :=
  (∀ (a : Fin 4096) (k : Fin 64), V0 (Proc.devRef .tc main_arg0) (ix2 a k) = ((X (lo a) k : ℝ) : EReal)) ∧
  (∀ (a : Fin 4096) (k : Fin 64), V0 (Proc.devRef .tc main_arg1) (ix2 a k) = ((X (hi a) k : ℝ) : EReal))

/-- (1) The two arguments laid one after the other along the rows are X. -/
theorem v0_apply (X : Fin 8192 → Fin 64 → ℝ) (V0 : Valuation τ sig (Elt Ideal)) (hV : Reads X V0)
    (p : Fin 8192) (k : Fin 64) :
    res_main_v0 (F := Ideal) V0 (ix2 p k) = ((X p k : ℝ) : EReal) := by
  unfold res_main_v0
  by_cases hp : p.val < 4096
  · rw [concatenate_pair_apply_left (t := S8192x64) (s₁ := S4096x64) (s₂ := S4096x64) (0 : Fin 2) _ _ _ (ix2 p k) rfl
      (ix2 (⟨p.val, hp⟩ : Fin 4096) k) (fun b => match b with | ⟨0, _⟩ => rfl | ⟨1, _⟩ => rfl)]
    rw [hV.1]
    rfl
  · have hp' : p.val - 4096 < 4096 := by have := p.isLt; omega
    have hcoord : ∀ b : Fin S4096x64.rank, b.cast (rfl : S4096x64.rank = S8192x64.rank) ≠ (0 : Fin 2) →
        ((ix2 (⟨p.val - 4096, hp'⟩ : Fin 4096) k : S4096x64.Idx) b).val
          = ((ix2 p k : S8192x64.Idx) (b.cast (rfl : S4096x64.rank = S8192x64.rank))).val := by
      intro b hb
      have hlt : b.val < 2 := b.isLt
      have hne : b.val ≠ 0 := fun h => hb (Fin.ext h)
      have hb1 : b = ⟨1, by decide⟩ := Fin.ext (by show b.val = 1; omega)
      subst hb1
      rfl
    rw [concatenate_pair_apply_right (t := S8192x64) (s₁ := S4096x64) (s₂ := S4096x64) (0 : Fin 2) _ _ _ (ix2 p k) rfl rfl
      (ix2 (⟨p.val - 4096, hp'⟩ : Fin 4096) k) hcoord (by show p.val - 4096 + 4096 = p.val; omega)]
    rw [hV.2]
    have e : hi ⟨p.val - 4096, hp'⟩ = p := Fin.ext (by show p.val - 4096 + 4096 = p.val; omega)
    rw [e]

/-- (2) The row sums of the squares are the squared norms. -/
theorem rows_apply (X : Fin 8192 → Fin 64 → ℝ) (V0 : Valuation τ sig (Elt Ideal)) (hV : Reads X V0)
    (h' : S8192x64.ReducesTo [1] S8192) (hu : 0 < S_.numel) (p : Fin 8192) :
    Host.reduceAdd (mulf (res_main_v0 (F := Ideal) V0) (res_main_v0 V0)) (constant S_ .f32 0x00000000#32) h' hu (ix1 p)
      = ((Rbf.sq X p : ℝ) : EReal) := by
  rw [rowsum_apply]
  unfold Rbf.sq
  rw [coe_sum]
  refine Finset.sum_congr rfl fun k _ => ?_
  rw [mulf_apply, v0_apply X V0 hV, EReal.coe_mul]

/-- The product of the data with its own transpose holds the inner products of the rows. -/
theorem gram_v (X : Fin 8192 → Fin 64 → ℝ) (V0 : Valuation τ sig (Elt Ideal)) (hV : Reads X V0)
    (d : DotDims S8192x64 S64x8192 S8192x8192) (hd : d = DotDims.plain 8192 64 8192)
    (ht : S8192x64.Transposes [1, 0] S64x8192) (p q : Fin 8192) :
    Host.dotGeneral (F := Ideal) (φ₁ := .f32) (φ₂ := .f32) d none (res_main_v0 (F := Ideal) V0) (transpose S64x8192 [1, 0] (res_main_v0 (F := Ideal) V0) ht) (ix2 p q)
      = ((Rbf.dot X p q : ℝ) : EReal) := by
  rw [gram_apply d hd]
  unfold Rbf.dot
  rw [coe_sum]
  refine Finset.sum_congr rfl fun k _ => ?_
  rw [v0_apply X V0 hV, v0_apply X V0 hV, EReal.coe_mul]

/-- (3) The clamped array of squared distances. -/
theorem v17_apply (X : Fin 8192 → Fin 64 → ℝ) (V0 : Valuation τ sig (Elt Ideal)) (hV : Reads X V0) (p q : Fin 8192) :
    res_main_v17 (F := Ideal) V0 (ix2 p q) = ((dist2 X p q : ℝ) : EReal) := by
  unfold res_main_v17
  rw [maximumf_apply, subf_apply, addf_apply, mulf_apply, col_apply, row_apply, rows_apply X V0 hV _ _ p,
    rows_apply X V0 hV _ _ q, splat_apply, splat_apply,
    gram_v X V0 hV dot_S8192x64_S64x8192_S8192x8192_1_0_0_1_n_n rfl, ofBits_2, ofBits_0]
  unfold dist2
  rw [coe_max, EReal.coe_sub, EReal.coe_add, EReal.coe_mul]

/-- (4) The bandwidth. -/
theorem v21_apply (X : Fin 8192 → Fin 64 → ℝ) (V0 : Valuation τ sig (Elt Ideal)) (hV : Reads X V0) (i : S_.Idx) :
    res_main_v21 (F := Ideal) V0 i = ((bwRef X b0 : ℝ) : EReal) := by
  unfold res_main_v21
  rw [maximumf_apply, hostDivf_apply, hostDivf_apply, constant_apply, constant_apply, constant_apply,
    total_apply _ (dist2 X) (v17_apply X V0 hV), ofBits_67100672, ofBits_1, ofBits_b0,
    div_coe_coe _ (67100672 : ℝ) (by norm_num), div_coe_coe _ (1 : ℝ) (by norm_num), ← coe_max]
  rfl

/-- The bandwidth is positive. -/
theorem bw_pos (X : Fin 8192 → Fin 64 → ℝ) : 0 < bwRef X b0 * 1 := by
  have h : 0 < bwRef X b0 := lt_of_lt_of_le b0_pos (le_max_right _ _)
  exact mul_pos h one_pos

/-- (5) The bandwidth times one. -/
theorem v22_apply (X : Fin 8192 → Fin 64 → ℝ) (V0 : Valuation τ sig (Elt Ideal)) (hV : Reads X V0) (i : S_.Idx) :
    res_main_v22 (F := Ideal) V0 i = ((bwRef X b0 * 1 : ℝ) : EReal) := by
  unfold res_main_v22
  rw [mulf_apply, constant_apply, v21_apply X V0 hV, ofBits_1, ← EReal.coe_mul]

/-- The ten bandwidths are one term. -/
theorem v23_eq (V0 : Valuation τ sig (Elt Ideal)) : res_main_v23 (F := Ideal) V0 = res_main_v22 V0 := rfl
theorem v24_eq (V0 : Valuation τ sig (Elt Ideal)) : res_main_v24 (F := Ideal) V0 = res_main_v22 V0 := rfl
theorem v25_eq (V0 : Valuation τ sig (Elt Ideal)) : res_main_v25 (F := Ideal) V0 = res_main_v22 V0 := rfl
theorem v26_eq (V0 : Valuation τ sig (Elt Ideal)) : res_main_v26 (F := Ideal) V0 = res_main_v22 V0 := rfl
theorem v27_eq (V0 : Valuation τ sig (Elt Ideal)) : res_main_v27 (F := Ideal) V0 = res_main_v22 V0 := rfl
theorem v28_eq (V0 : Valuation τ sig (Elt Ideal)) : res_main_v28 (F := Ideal) V0 = res_main_v22 V0 := rfl
theorem v29_eq (V0 : Valuation τ sig (Elt Ideal)) : res_main_v29 (F := Ideal) V0 = res_main_v22 V0 := rfl
theorem v30_eq (V0 : Valuation τ sig (Elt Ideal)) : res_main_v30 (F := Ideal) V0 = res_main_v22 V0 := rfl
theorem v31_eq (V0 : Valuation τ sig (Elt Ideal)) : res_main_v31 (F := Ideal) V0 = res_main_v22 V0 := rfl

/-- (6) The three blocks: source-source, target-target, source-target. -/
theorem v32_apply (X : Fin 8192 → Fin 64 → ℝ) (V0 : Valuation τ sig (Elt Ideal)) (hV : Reads X V0) (a b : Fin 4096) :
    res_main_v32 (F := Ideal) V0 (ix2 a b) = ((dist2 X (lo a) (lo b) : ℝ) : EReal) := by
  unfold res_main_v32
  rw [block_apply 0 0 _ _ a b (lo a) (lo b) (Nat.zero_add _).symm (Nat.zero_add _).symm, v17_apply X V0 hV]

theorem v33_apply (X : Fin 8192 → Fin 64 → ℝ) (V0 : Valuation τ sig (Elt Ideal)) (hV : Reads X V0) (a b : Fin 4096) :
    res_main_v33 (F := Ideal) V0 (ix2 a b) = ((dist2 X (hi a) (hi b) : ℝ) : EReal) := by
  unfold res_main_v33
  rw [block_apply 4096 4096 _ _ a b (hi a) (hi b) (Nat.add_comm _ _) (Nat.add_comm _ _), v17_apply X V0 hV]

theorem v34_apply (X : Fin 8192 → Fin 64 → ℝ) (V0 : Valuation τ sig (Elt Ideal)) (hV : Reads X V0) (a b : Fin 4096) :
    res_main_v34 (F := Ideal) V0 (ix2 a b) = ((dist2 X (lo a) (hi b) : ℝ) : EReal) := by
  unfold res_main_v34
  rw [block_apply 0 4096 _ _ a b (lo a) (hi b) (Nat.zero_add _).symm (Nat.add_comm _ _), v17_apply X V0 hV]

/-- (7) One bandwidth's kernel sum over a block. -/
theorem quad_v (X : Fin 8192 → Fin 64 → ℝ) (V0 : Valuation τ sig (Elt Ideal)) (hV : Reads X V0)
    (sl : FVec Ideal S4096x4096 .f32) (f g : Fin 4096 → Fin 8192)
    (hsl : ∀ a b, sl (ix2 a b) = ((dist2 X (f a) (g b) : ℝ) : EReal))
    (hb : S_.BroadcastsInDim S4096x4096 ![]) (h' : S4096x4096.ReducesTo [0, 1] S_) (hu : 0 < S_.numel) (i : S_.Idx) :
    Host.reduceAdd (Host.exp (Host.divf (Host.negf sl) (broadcastInDim S4096x4096 ![] hb (res_main_v22 (F := Ideal) V0))))
        (constant S_ .f32 0x00000000#32) h' hu i
      = ((quadRef X (bwRef X b0 * 1) f g : ℝ) : EReal) :=
  quad_apply sl (res_main_v22 (F := Ideal) V0) (fun a b => dist2 X (f a) (g b)) (bwRef X b0 * 1) (bw_pos X).ne' hsl
    (v22_apply X V0 hV ix0) hb h' hu i

/-- Ten equal real terms added one by one from zero. -/
theorem coe_tenfold (s : ℝ) :
    ((0 : ℝ) : EReal) + (s : EReal) + (s : EReal) + (s : EReal) + (s : EReal) + (s : EReal) + (s : EReal) + (s : EReal)
      + (s : EReal) + (s : EReal) + (s : EReal) = ((tenfold s : ℝ) : EReal) := by
  unfold tenfold
  simp only [EReal.coe_add]

/-- (8) The reference's result, read at the exact-real instance, is the real number mmdRef of the data. -/
theorem ref_value (X : Fin 8192 → Fin 64 → ℝ) (V0 : Valuation τ sig (Elt Ideal))
    (h0 : ∀ (a : Fin 4096) (k : Fin 64), V0 (Proc.devRef .tc main_arg0) (ValueIdx.ix2 a k) = ((X (lo a) k : ℝ) : EReal))
    (h1 : ∀ (a : Fin 4096) (k : Fin 64), V0 (Proc.devRef .tc main_arg1) (ValueIdx.ix2 a k) = ((X (hi a) k : ℝ) : EReal)) :
    val5 (F := Ideal) V0 (Proc.devRef .tc main_v220) = fun _ => ((mmdRef X b0 : ℝ) : EReal) := by
  have hV : Reads X V0 := ⟨h0, h1⟩
  rw [val5_main_v220]
  funext i
  unfold res_main_v218
  rw [v23_eq, v24_eq, v25_eq, v26_eq, v27_eq, v28_eq, v29_eq, v30_eq, v31_eq]
  simp only [subf_apply, mulf_apply, addf_apply, hostDivf_apply, constant_apply]
  rw [quad_v X V0 hV (res_main_v32 V0) lo lo (v32_apply X V0 hV), quad_v X V0 hV (res_main_v33 V0) hi hi (v33_apply X V0 hV),
    quad_v X V0 hV (res_main_v34 V0) lo hi (v34_apply X V0 hV)]
  rw [ofBits_0, ofBits_2, ofBits_16777216, coe_tenfold, coe_tenfold, coe_tenfold,
    div_coe_coe _ (16777216 : ℝ) (by norm_num), div_coe_coe _ (16777216 : ℝ) (by norm_num),
    div_coe_coe _ (16777216 : ℝ) (by norm_num), ← EReal.coe_mul, ← EReal.coe_add, ← EReal.coe_sub]
  rfl

end Cert.Proof.RefValue

end
-- ==== Proof.RbfAlgebra.lean ====
/-
  The blocked form equals the reference's form, over the reals.

  (1) |x_p|^2 + |x_q|^2 - 2 <x_p, x_q> = sum_k (x_pk - x_qk)^2 >= 0, so the clamp at zero in the squared distance
      does nothing.
  (2) Summing over all p, q:  sum_{p,q} |x_p - x_q|^2 = 2 n sum_p |x_p|^2 - 2 sum_k (sum_p x_pk)^2  with 2 n = 16384,
      so the two bandwidths agree.
  (3) d * (-1 / b) = -d / (b * 1), and ten equal terms added one by one are ten times the term.
  (4) An index a < 4096 is a = I * 1024 + r with I < 4, r < 1024; the source row a is row r of block I and the target
      row a is row r of block I + 4.  Hence a quadrant's 4096 x 4096 double sum is the sum of its sixteen
      1024 x 1024 blocks, which is the sum over all 8 x 8 blocks of the blocks the quadrant's test selects.
-/
import proofs.«152378_j46660524704258_2_alg».proof.Proof.RbfSpec

noncomputable section

namespace Cert.Proof.Rbf

open Finset BigOperators

/-- The gap sq p + sq q - 2 dot p q is the sum of the squared coordinate differences. -/
theorem gap_eq_sum_sq (X : Fin 8192 → Fin 64 → ℝ) (p q : Fin 8192) :
    sq X p + sq X q - 2 * dot X p q = ∑ k, (X p k - X q k) ^ 2 := by
  unfold sq dot
  rw [Finset.mul_sum, ← Finset.sum_add_distrib, ← Finset.sum_sub_distrib]
  apply Finset.sum_congr rfl
  intro k _
  ring

/-- The clamp at zero does nothing. -/
theorem dist2_eq (X : Fin 8192 → Fin 64 → ℝ) (p q : Fin 8192) :
    dist2 X p q = sq X p + sq X q - 2 * dot X p q := by
  unfold dist2
  apply max_eq_left
  rw [gap_eq_sum_sq]
  exact Finset.sum_nonneg (fun k _ => pow_two_nonneg _)

/-- The sum of all inner products is the squared norm of the column sums. -/
theorem sum_dot (X : Fin 8192 → Fin 64 → ℝ) :
    ∑ p, ∑ q, dot X p q = ∑ k, (∑ p, X p k) * (∑ p, X p k) := by
  unfold dot
  calc ∑ p, ∑ q, ∑ k, X p k * X q k
      = ∑ p, ∑ k, ∑ q, X p k * X q k := by
        apply Finset.sum_congr rfl
        intro p _
        exact Finset.sum_comm
    _ = ∑ k, ∑ p, ∑ q, X p k * X q k := Finset.sum_comm
    _ = ∑ k, (∑ p, X p k) * (∑ p, X p k) := by
        apply Finset.sum_congr rfl
        intro k _
        exact (Finset.sum_mul_sum _ _ _ _).symm

/-- The sum of all squared distances in closed form. -/
theorem sum_dist2 (X : Fin 8192 → Fin 64 → ℝ) :
    ∑ p, ∑ q, dist2 X p q
      = 16384 * (∑ p, ∑ k, X p k * X p k) - 2 * ∑ k, (∑ p, X p k) * (∑ p, X p k) := by
  have h1 : ∑ p : Fin 8192, ∑ _q : Fin 8192, sq X p = 8192 * ∑ p, sq X p := by
    simp only [Finset.sum_const, Finset.card_univ, Fintype.card_fin, nsmul_eq_mul, Finset.mul_sum]
    norm_num
  have h2 : ∑ _p : Fin 8192, ∑ q : Fin 8192, sq X q = 8192 * ∑ q, sq X q := by
    simp only [Finset.sum_const, Finset.card_univ, Fintype.card_fin, nsmul_eq_mul]
    norm_num
  have h3 : ∑ p, ∑ q, 2 * dot X p q = 2 * ∑ p, ∑ q, dot X p q := by
    simp only [Finset.mul_sum]
  have h4 : ∑ p, ∑ k, X p k * X p k = ∑ p, sq X p := rfl
  simp only [dist2_eq, Finset.sum_sub_distrib, Finset.sum_add_distrib]
  rw [h1, h2, h3, sum_dot, h4]
  ring

theorem bwKer_eq_bwRef (X : Fin 8192 → Fin 64 → ℝ) (b0 : ℝ) : bwKer X b0 = bwRef X b0 := by
  unfold bwKer bwRef
  rw [sum_dist2]

theorem tenfold_eq (s : ℝ) : tenfold s = 10 * s := by
  unfold tenfold
  ring

/-- 4096 = 4 x 1024: the index a = I * 1024 + r. -/
def e4 : Fin 4 × Fin 1024 ≃ Fin 4096 where
  toFun x := ⟨x.1.val * 1024 + x.2.val, by omega⟩
  invFun a := (⟨a.val / 1024, by omega⟩, ⟨a.val % 1024, by omega⟩)
  left_inv := fun ⟨I, r⟩ =>
    Prod.ext (Fin.ext (by show (I.val * 1024 + r.val) / 1024 = I.val; omega))
      (Fin.ext (by show (I.val * 1024 + r.val) % 1024 = r.val; omega))
  right_inv := fun a => Fin.ext (by show a.val / 1024 * 1024 + a.val % 1024 = a.val; omega)

/-- A sum over 4096 indices as four blocks of 1024. -/
theorem sum_fin4096 (k : Fin 4096 → ℝ) :
    ∑ a, k a = ∑ I : Fin 4, ∑ r : Fin 1024, k ⟨I.val * 1024 + r.val, by omega⟩ := by
  rw [← Equiv.sum_comp e4 k, Fintype.sum_prod_type]
  rfl

/-- The first four of eight. -/
theorem sum_fin8_lt (f : Fin 8 → ℝ) :
    (∑ I : Fin 8, if I.val < 4 then f I else 0) = ∑ I : Fin 4, f ⟨I.val, by omega⟩ := by
  rw [Fin.sum_univ_eight, Fin.sum_univ_four]
  simp

/-- The last four of eight. -/
theorem sum_fin8_ge (f : Fin 8 → ℝ) :
    (∑ I : Fin 8, if 4 ≤ I.val then f I else 0) = ∑ I : Fin 4, f ⟨I.val + 4, by omega⟩ := by
  rw [Fin.sum_univ_eight, Fin.sum_univ_four]
  simp

/-- The source rows are blocks 0..3. -/
theorem sum_lo (h : Fin 8192 → ℝ) :
    ∑ a : Fin 4096, h (lo a) = ∑ I : Fin 8, if I.val < 4 then ∑ r : Fin 1024, h (blk I r) else 0 := by
  rw [sum_fin4096, sum_fin8_lt]
  rfl

/-- The target rows are blocks 4..7. -/
theorem sum_hi (h : Fin 8192 → ℝ) :
    ∑ a : Fin 4096, h (hi a) = ∑ I : Fin 8, if 4 ≤ I.val then ∑ r : Fin 1024, h (blk I r) else 0 := by
  rw [sum_fin4096, sum_fin8_ge]
  apply Finset.sum_congr rfl
  intro I _
  apply Finset.sum_congr rfl
  intro r _
  congr 1
  apply Fin.ext
  show I.val * 1024 + r.val + 4096 = (I.val + 4) * 1024 + r.val
  omega

/-- A test on the block row and a test on the block column combine into one test on the block. -/
theorem combine (P Q : Fin 8 → Prop) [DecidablePred P] [DecidablePred Q]
    (sel : Fin 8 → Fin 8 → Prop) [∀ I J, Decidable (sel I J)] (hsel : ∀ I J, sel I J ↔ (P I ∧ Q J))
    (G : Fin 8 → Fin 1024 → Fin 8 → Fin 1024 → ℝ) :
    (∑ I : Fin 8, if P I then
        ∑ r : Fin 1024, (∑ J : Fin 8, if Q J then ∑ c : Fin 1024, G I r J c else 0) else 0)
      = ∑ I : Fin 8, ∑ J : Fin 8, if sel I J then ∑ r, ∑ c, G I r J c else 0 := by
  apply Finset.sum_congr rfl
  intro I _
  by_cases hI : P I
  · rw [if_pos hI, Finset.sum_comm]
    apply Finset.sum_congr rfl
    intro J _
    by_cases hJ : Q J
    · rw [if_pos ((hsel I J).2 ⟨hI, hJ⟩)]
      apply Finset.sum_congr rfl
      intro r _
      rw [if_pos hJ]
    · rw [if_neg (fun h => hJ ((hsel I J).1 h).2)]
      apply Finset.sum_eq_zero
      intro r _
      rw [if_neg hJ]
  · rw [if_neg hI]
    symm
    apply Finset.sum_eq_zero
    intro J _
    rw [if_neg (fun h => hI ((hsel I J).1 h).1)]

/-- A quadrant's double sum, block by block. -/
theorem quad_sum (F : Fin 8192 → Fin 8192 → ℝ) (f g : Fin 4096 → Fin 8192)
    (P Q : Fin 8 → Prop) [DecidablePred P] [DecidablePred Q]
    (hf : ∀ h : Fin 8192 → ℝ,
      ∑ a, h (f a) = ∑ I : Fin 8, if P I then ∑ r : Fin 1024, h (blk I r) else 0)
    (hg : ∀ h : Fin 8192 → ℝ,
      ∑ a, h (g a) = ∑ I : Fin 8, if Q I then ∑ r : Fin 1024, h (blk I r) else 0)
    (sel : Fin 8 → Fin 8 → Prop) [∀ I J, Decidable (sel I J)] (hsel : ∀ I J, sel I J ↔ (P I ∧ Q J)) :
    ∑ a, ∑ b, F (f a) (g b)
      = ∑ I : Fin 8, ∑ J : Fin 8, if sel I J then ∑ r, ∑ c, F (blk I r) (blk J c) else 0 := by
  refine (hf (fun p => ∑ b, F p (g b))).trans ?_
  refine Eq.trans ?_ (combine P Q sel hsel (fun I r J c => F (blk I r) (blk J c)))
  apply Finset.sum_congr rfl
  intro I _
  by_cases hI : P I
  · rw [if_pos hI, if_pos hI]
    apply Finset.sum_congr rfl
    intro r _
    exact hg (fun q => F (blk I r) q)
  · rw [if_neg hI, if_neg hI]

/-- The blocked quadrant sum is the reference's quadrant sum. -/
theorem rowAcc_sum (X : Fin 8192 → Fin 64 → ℝ) (bw : ℝ) (f g : Fin 4096 → Fin 8192)
    (P Q : Fin 8 → Prop) [DecidablePred P] [DecidablePred Q]
    (hf : ∀ h : Fin 8192 → ℝ,
      ∑ a, h (f a) = ∑ I : Fin 8, if P I then ∑ r : Fin 1024, h (blk I r) else 0)
    (hg : ∀ h : Fin 8192 → ℝ,
      ∑ a, h (g a) = ∑ I : Fin 8, if Q I then ∑ r : Fin 1024, h (blk I r) else 0)
    (sel : Fin 8 → Fin 8 → Prop) [∀ I J, Decidable (sel I J)] (hsel : ∀ I J, sel I J ↔ (P I ∧ Q J)) :
    ∑ I, rowAcc X (-1 / bw) sel I = quadRef X (bw * 1) f g := by
  unfold rowAcc blockSum quadRef
  rw [← quad_sum (fun p q => Real.exp (dist2 X p q * (-1 / bw))) f g P Q hf hg sel hsel]
  apply Finset.sum_congr rfl
  intro a _
  apply Finset.sum_congr rfl
  intro b _
  congr 1
  rw [mul_one]
  ring

theorem mmdKer_eq_mmdRef (X : Fin 8192 → Fin 64 → ℝ) (b0 : ℝ) (hb0 : 0 < b0) :
    mmdKer X b0 = mmdRef X b0 := by
  unfold mmdKer mmdRef
  rw [bwKer_eq_bwRef]
  rw [rowAcc_sum X (bwRef X b0) lo lo (fun I => I.val < 4) (fun I => I.val < 4) sum_lo sum_lo selXX
      (fun _ _ => Iff.rfl)]
  rw [rowAcc_sum X (bwRef X b0) hi hi (fun I => 4 ≤ I.val) (fun I => 4 ≤ I.val) sum_hi sum_hi selYY
      (fun _ _ => Iff.rfl)]
  rw [rowAcc_sum X (bwRef X b0) lo hi (fun I => I.val < 4) (fun I => 4 ≤ I.val) sum_lo sum_hi selXY
      (fun _ _ => Iff.rfl)]
  rw [tenfold_eq, tenfold_eq, tenfold_eq]

end Cert.Proof.Rbf

end
-- ==== Proof.WConds.lean ====
/-
  The kernel body's three branch conditions, as functions of the grid point (i, j), 0 <= i, j < 8, point t = 8 i + j:
  the accumulators are cleared when j = 0; a block is computed and accumulated unless it lies in the target-source
  quadrant (i >= 4 and j < 4); the accumulators are written out when j = 7. Each is decided over the 64 points in
  closed form, and so is where the three output windows are idle (every point but j = 7).
-/
import proofs.«152378_j46660524704258_2_alg».proof.Proof.Gen.Kernel.Launch
import proofs.«152378_j46660524704258_2_alg».proof.Proof.Gen.Kernel.Skeleton
import proofs.«152378_j46660524704258_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulators are cleared at this point: j = 0. -/
abbrev condClear (i : grid0.Coords) : Prop := (Scalar.cmpi .ne (Scalar.extui (Scalar.cmpi .eq (BitVec.ofNat 32 (i 1).val) 0#32)) 0#32) = 1#1
theorem hcondClear : ∀ t : Fin cfg0.N, condClear (grid0.coords t) ↔ t.val % 8 = 0 :=
  (by decide +kernel : ∀ t : Fin grid0.N, condClear (grid0.coords t) ↔ t.val % 8 = 0)

/-- The block is computed at this point: i < 4 or j >= 4. -/
abbrev condBlock (i : grid0.Coords) : Prop := (Scalar.cmpi .ne (Scalar.extui (Scalar.ori (Scalar.cmpi .slt (BitVec.ofNat 32 (i 0).val) 4#32) (Scalar.cmpi .sge (BitVec.ofNat 32 (i 1).val) 4#32))) 0#32) = 1#1
theorem hcondBlock : ∀ t : Fin cfg0.N, condBlock (grid0.coords t) ↔ (t.val / 8 < 4 ∨ 4 ≤ t.val % 8) :=
  (by decide +kernel : ∀ t : Fin grid0.N, condBlock (grid0.coords t) ↔ (t.val / 8 < 4 ∨ 4 ≤ t.val % 8))

/-- The accumulators are written out at this point: j = 7. -/
abbrev condOut (i : grid0.Coords) : Prop := k0_cond3 i = 1#1
theorem hcondOut : ∀ t : Fin cfg0.N, condOut (grid0.coords t) ↔ t.val % 8 = 7 :=
  (by decide +kernel : ∀ t : Fin grid0.N, condOut (grid0.coords t) ↔ t.val % 8 = 7)

end Cert.Kernel.Hand

end
-- ==== Proof.WRuns.lean ====
/-
  The kernel body run once per control case. A grid point is in one of five cases of the three branch conditions
  (cleared / block computed / written out):
    A  j = 0, block computed        : the accumulators are cleared, then the block's sum is added;
    B  0 < j < 7, block computed    : the block's sum is added to what the point before left;
    C  j = 7                        : the same, and the accumulators are copied to the output blocks;
    D  j = 0, target-source block   : the accumulators are cleared only;
    E  0 < j < 4, target-source block : nothing is touched.
  Each run takes the buffers the case touches (the three input blocks where a block is computed, the accumulators, the
  output blocks in case C) and returns them, the stored-to buffers as the list of pieces written, last store first.
-/
import proofs.«152378_j46660524704258_2_alg».proof.Proof.WConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x1 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole)

set_option maxHeartbeats 1000000 in
/-- Case A: cleared, then accumulated. -/
noncomputable def runA (hc0 : condClear i) (hc1 : condBlock i) (hc2 : ¬condOut i)
    (x0 : Vec F S1x1 .f32) (x1 x2 : Vec F S1024x64 .f32) :
    Σ' (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__rbf_kernel_eq_skeleton]; unfold cc0__rbf_kernel_skel
    simp only [k0_part1_eq_skeleton]
    unfold owns
    iintro ⟨⟨%f0, %hf0, H0⟩, ⟨%f1, %hf1, H1⟩, ⟨%f2, %hf2, H2⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    isplitl [H9]; · iexists _; iexact H9
    iexists _; iexact H10

set_option maxHeartbeats 1000000 in
/-- Case B: accumulated onto what the point before left (xs0, xs1, xs2). -/
noncomputable def runB (hc0 : ¬condClear i) (hc1 : condBlock i) (hc2 : ¬condOut i)
    (x0 : Vec F S1x1 .f32) (x1 x2 : Vec F S1024x64 .f32) (xs0 xs1 xs2 : Vec F S8x128 .f32) :
    Σ' (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__rbf_kernel_eq_skeleton]; unfold cc0__rbf_kernel_skel
    simp only [k0_part1_eq_skeleton]
    unfold owns
    iintro ⟨⟨%f0, %hf0, H0⟩, ⟨%f1, %hf1, H1⟩, ⟨%f2, %hf2, H2⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg8.eq_unread hf8; obtain rfl := harg9.eq_unread hf9; obtain rfl := harg10.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    isplitl [H9]; · iexists _; iexact H9
    iexists _; iexact H10

set_option maxHeartbeats 1000000 in
/-- Case C: accumulated onto what the point before left, then copied to the three output blocks. -/
noncomputable def runC (hc0 : ¬condClear i) (hc1 : condBlock i) (hc2 : condOut i)
    (x0 : Vec F S1x1 .f32) (x1 x2 : Vec F S1024x64 .f32) (xs0 xs1 xs2 : Vec F S8x128 .f32) :
    Σ' (L5 : List (View.Piece (Elt F) S1x8x128 .f32)) (L6 : List (View.Piece (Elt F) S1x8x128 .f32)) (L7 : List (View.Piece (Elt F) S1x8x128 .f32)) (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__rbf_kernel_eq_skeleton]; unfold cc0__rbf_kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg8.eq_unread hf8; obtain rfl := harg9.eq_unread hf9; obtain rfl := harg10.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    isplitl [H8]; · iexists _; iexact H8
    isplitl [H9]; · iexists _; iexact H9
    iexists _; iexact H10

set_option maxHeartbeats 1000000 in
/-- Case D: cleared only. -/
noncomputable def runD (hc0 : condClear i) (hc1 : ¬condBlock i) (hc2 : ¬condOut i) :
    Σ' (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop((∃ d, owns (c : Thread nD τ) arg8 fullShare d) ∗ (∃ d, owns (c : Thread nD τ) arg9 fullShare d) ∗ (∃ d, owns (c : Thread nD τ) arg10 fullShare d)
            ∗ (iprop((∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__rbf_kernel_eq_skeleton]; unfold cc0__rbf_kernel_skel
    simp only [k0_part1_eq_skeleton]
    unfold owns
    iintro ⟨⟨%d8, %f8, -, H8⟩, ⟨%d9, %f9, -, H9⟩, ⟨%d10, %f10, -, H10⟩, Hk⟩
    sl_exec (disch := first | exact hc0 | exact hc1 | exact hc2)
    sl_step
    iapply Hk
    isplitl [H8]; · iexists _; iexact H8
    isplitl [H9]; · iexists _; iexact H9
    iexists _; iexact H10

set_option maxHeartbeats 1000000 in
/-- Case E: nothing is touched. -/
theorem runE (hc0 : ¬condClear i) (hc1 : ¬condBlock i) (hc2 : ¬condOut i) (E : Set ℕ) (K : PUnit → sProp 𝕄) :
    (K ⟨⟩ : sProp 𝕄) ⊢ wp frame (wpE (defs₀ (F := F)) Variants.none c none) E (cc0__rbf_kernel i arg2 harg2 arg3 harg3 arg4 harg4 arg5 harg5 arg6 harg6 arg7 harg7 arg8 harg8 arg9 harg9 arg10 harg10) K := by
  simp only [cc0__rbf_kernel_eq_skeleton]; unfold cc0__rbf_kernel_skel
  iintro Hk
  sl_exec (disch := first | exact hc0 | exact hc1 | exact hc2)
  sl_step
  iexact Hk

end Cert.Kernel.Hand

end
-- ==== Proof.WData.lean ====
/-
  What the accumulators and the output blocks hold after each grid point, and the pipeline's proof data.

  The region finds its arrays at the contents V the host operations before it left. A window's block at a point is
  read off its array there (iblk). Running the body's case at a point, over the point's input blocks and over what the
  point before left in the three accumulators, leaves the accumulators (and at j = 7 the output blocks) at the
  case's stored pieces read back; stAt is that recursion over the 64 points. The invariant between points holds the
  three accumulators at stAt's contents (at anything before the first point).
-/
import proofs.«152378_j46660524704258_2_alg».proof.Proof.WRuns
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the blocks -/

/-- Core c's buffers at launch, as a valuation; -/
abbrev V₀ (c : Dev nD) : Valuation τ sig (Elt F) := fun b => m (c, b)
/-- and when the region is entered: the host operations before it have run. -/
abbrev V (c : Dev nD) (b : Ref sig .tc) : Buf (Elt F) ((c : Thread nD τ).loc b) := StableHlo.after hostOps0 (V₀ m c) (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with at a point -/

abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
abbrev scM0 : Memref sig .tc .vmem S8x128 .f32 := Memref.whole cc0_scratch0
abbrev scM1 : Memref sig .tc .vmem S8x128 .f32 := Memref.whole cc0_scratch1
abbrev scM2 : Memref sig .tc .vmem S8x128 .f32 := Memref.whole cc0_scratch2
/-- Views through which an accumulator's and an output block's contents are stated. -/
abbrev VS : View sig .tc .vmem S8x128 .f32 := scM0.view
abbrev VO : View sig .tc .vmem S1x8x128 .f32 := (Memref.whole cc0_stg3_0 : Memref sig .tc .vmem S1x8x128 .f32).view

/-- A list of pieces read back over unspecified contents. -/
abbrev rdS (L : List (View.Piece (Elt F) S8x128 .f32)) : Vec F S8x128 .f32 := VS.read (Elt F) (VS.writes (Elt F) VS.junk L)
abbrev rdO (L : List (View.Piece (Elt F) S1x8x128 .f32)) : Vec F S1x8x128 .f32 := VO.read (Elt F) (VO.writes (Elt F) VO.junk L)

/-- The accumulators and output blocks after a point. -/
structure St (F : FTy → Type) [FloatOps F] where
  o3 : Vec F S1x8x128 .f32
  o4 : Vec F S1x8x128 .f32
  o5 : Vec F S1x8x128 .f32
  s0 : Vec F S8x128 .f32
  s1 : Vec F S8x128 .f32
  s2 : Vec F S8x128 .f32

variable (c : Dev nD) (i : grid0.Coords) (arg2 : Memref sig .tc .vmem S1x1 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole)

/-! ## Each case's stores cover the buffers they are stored into, and what the case leaves -/

section caseA
variable (hc0 : condClear i) (hc1 : condBlock i) (hc2 : ¬condOut i) (x0 : Vec F S1x1 .f32) (x1 x2 : Vec F S1024x64 .f32)
theorem coverA0 (y : S8x128.Idx) : ∃ pc ∈ (runA c i arg2 harg2 arg3 harg3 arg4 harg4 arg5 harg5 arg6 harg6 arg7 harg7 arg8 harg8 arg9 harg9 arg10 harg10 hc0 hc1 hc2 x0 x1 x2).1, y ∈ pc.1.set :=
  View.cover_of_tiledL _ S8x128.size (by sl_kernel_rfl) y
theorem coverA1 (y : S8x128.Idx) : ∃ pc ∈ (runA c i arg2 harg2 arg3 harg3 arg4 harg4 arg5 harg5 arg6 harg6 arg7 harg7 arg8 harg8 arg9 harg9 arg10 harg10 hc0 hc1 hc2 x0 x1 x2).2.1, y ∈ pc.1.set :=
  View.cover_of_tiledL _ S8x128.size (by sl_kernel_rfl) y
theorem coverA2 (y : S8x128.Idx) : ∃ pc ∈ (runA c i arg2 harg2 arg3 harg3 arg4 harg4 arg5 harg5 arg6 harg6 arg7 harg7 arg8 harg8 arg9 harg9 arg10 harg10 hc0 hc1 hc2 x0 x1 x2).2.2.1, y ∈ pc.1.set :=
  View.cover_of_tiledL _ S8x128.size (by sl_kernel_rfl) y
/-- What case A leaves: the accumulators at its stores read back. -/
def resA : St F :=
  ⟨(rdO []), (rdO []), (rdO []), rdS (runA c i arg2 harg2 arg3 harg3 arg4 harg4 arg5 harg5 arg6 harg6 arg7 harg7 arg8 harg8 arg9 harg9 arg10 harg10 hc0 hc1 hc2 x0 x1 x2).1, rdS (runA c i arg2 harg2 arg3 harg3 arg4 harg4 arg5 harg5 arg6 harg6 arg7 harg7 arg8 harg8 arg9 harg9 arg10 harg10 hc0 hc1 hc2 x0 x1 x2).2.1, rdS (runA c i arg2 harg2 arg3 harg3 arg4 harg4 arg5 harg5 arg6 harg6 arg7 harg7 arg8 harg8 arg9 harg9 arg10 harg10 hc0 hc1 hc2 x0 x1 x2).2.2.1⟩
end caseA

section caseB
variable (hc0 : ¬condClear i) (hc1 : condBlock i) (hc2 : ¬condOut i) (x0 : Vec F S1x1 .f32) (x1 x2 : Vec F S1024x64 .f32) (xs0 xs1 xs2 : Vec F S8x128 .f32)
theorem coverB0 (y : S8x128.Idx) : ∃ pc ∈ (runB c i arg2 harg2 arg3 harg3 arg4 harg4 arg5 harg5 arg6 harg6 arg7 harg7 arg8 harg8 arg9 harg9 arg10 harg10 hc0 hc1 hc2 x0 x1 x2 xs0 xs1 xs2).1, y ∈ pc.1.set :=
  View.cover_of_tiledL _ S8x128.size (by sl_kernel_rfl) y
theorem coverB1 (y : S8x128.Idx) : ∃ pc ∈ (runB c i arg2 harg2 arg3 harg3 arg4 harg4 arg5 harg5 arg6 harg6 arg7 harg7 arg8 harg8 arg9 harg9 arg10 harg10 hc0 hc1 hc2 x0 x1 x2 xs0 xs1 xs2).2.1, y ∈ pc.1.set :=
  View.cover_of_tiledL _ S8x128.size (by sl_kernel_rfl) y
theorem coverB2 (y : S8x128.Idx) : ∃ pc ∈ (runB c i arg2 harg2 arg3 harg3 arg4 harg4 arg5 harg5 arg6 harg6 arg7 harg7 arg8 harg8 arg9 harg9 arg10 harg10 hc0 hc1 hc2 x0 x1 x2 xs0 xs1 xs2).2.2.1, y ∈ pc.1.set :=
  View.cover_of_tiledL _ S8x128.size (by sl_kernel_rfl) y
/-- What case B leaves. -/
def resB : St F :=
  ⟨(rdO []), (rdO []), (rdO []), rdS (runB c i arg2 harg2 arg3 harg3 arg4 harg4 arg5 harg5 arg6 harg6 arg7 harg7 arg8 harg8 arg9 harg9 arg10 harg10 hc0 hc1 hc2 x0 x1 x2 xs0 xs1 xs2).1, rdS (runB c i arg2 harg2 arg3 harg3 arg4 harg4 arg5 harg5 arg6 harg6 arg7 harg7 arg8 harg8 arg9 harg9 arg10 harg10 hc0 hc1 hc2 x0 x1 x2 xs0 xs1 xs2).2.1, rdS (runB c i arg2 harg2 arg3 harg3 arg4 harg4 arg5 harg5 arg6 harg6 arg7 harg7 arg8 harg8 arg9 harg9 arg10 harg10 hc0 hc1 hc2 x0 x1 x2 xs0 xs1 xs2).2.2.1⟩
end caseB

section caseC
variable (hc0 : ¬condClear i) (hc1 : condBlock i) (hc2 : condOut i) (x0 : Vec F S1x1 .f32) (x1 x2 : Vec F S1024x64 .f32) (xs0 xs1 xs2 : Vec F S8x128 .f32)
theorem coverC5 (y : S1x8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).1, y ∈ pc.1.set :=
  View.cover_of_tiledL _ S1x8x128.size (by sl_kernel_rfl) y
theorem coverC6 (y : S1x8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.1, y ∈ pc.1.set :=
  View.cover_of_tiledL _ S1x8x128.size (by sl_kernel_rfl) y
theorem coverC7 (y : S1x8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.1, y ∈ pc.1.set :=
  View.cover_of_tiledL _ S1x8x128.size (by sl_kernel_rfl) y
theorem coverC0 (y : S8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.2.1, y ∈ pc.1.set :=
  View.cover_of_tiledL _ S8x128.size (by sl_kernel_rfl) y
theorem coverC1 (y : S8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.2.2.1, y ∈ pc.1.set :=
  View.cover_of_tiledL _ S8x128.size (by sl_kernel_rfl) y
theorem coverC2 (y : S8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.2.2.2.1, y ∈ pc.1.set :=
  View.cover_of_tiledL _ S8x128.size (by sl_kernel_rfl) y
/-- What case C leaves: the output blocks and the accumulators at its stores read back. -/
def resC : St F :=
  ⟨rdO (runC c i arg2 harg2 arg3 harg3 arg4 harg4 arg5 harg5 arg6 harg6 arg7 harg7 arg8 harg8 arg9 harg9 arg10 harg10 hc0 hc1 hc2 x0 x1 x2 xs0 xs1 xs2).1, rdO (runC c i arg2 harg2 arg3 harg3 arg4 harg4 arg5 harg5 arg6 harg6 arg7 harg7 arg8 harg8 arg9 harg9 arg10 harg10 hc0 hc1 hc2 x0 x1 x2 xs0 xs1 xs2).2.1, rdO (runC c i arg2 harg2 arg3 harg3 arg4 harg4 arg5 harg5 arg6 harg6 arg7 harg7 arg8 harg8 arg9 harg9 arg10 harg10 hc0 hc1 hc2 x0 x1 x2 xs0 xs1 xs2).2.2.1,
   rdS (runC c i arg2 harg2 arg3 harg3 arg4 harg4 arg5 harg5 arg6 harg6 arg7 harg7 arg8 harg8 arg9 harg9 arg10 harg10 hc0 hc1 hc2 x0 x1 x2 xs0 xs1 xs2).2.2.2.1, rdS (runC c i arg2 harg2 arg3 harg3 arg4 harg4 arg5 harg5 arg6 harg6 arg7 harg7 arg8 harg8 arg9 harg9 arg10 harg10 hc0 hc1 hc2 x0 x1 x2 xs0 xs1 xs2).2.2.2.2.1, rdS (runC c i arg2 harg2 arg3 harg3 arg4 harg4 arg5 harg5 arg6 harg6 arg7 harg7 arg8 harg8 arg9 harg9 arg10 harg10 hc0 hc1 hc2 x0 x1 x2 xs0 xs1 xs2).2.2.2.2.2.1⟩
end caseC

section caseD
variable (hc0 : condClear i) (hc1 : ¬condBlock i) (hc2 : ¬condOut i)
theorem coverD0 (y : S8x128.Idx) : ∃ pc ∈ (runD (F := F) c i arg2 harg2 arg3 harg3 arg4 harg4 arg5 harg5 arg6 harg6 arg7 harg7 arg8 harg8 arg9 harg9 arg10 harg10 hc0 hc1 hc2).1, y ∈ pc.1.set :=
  View.cover_of_tiledL _ S8x128.size (by sl_kernel_rfl) y
theorem coverD1 (y : S8x128.Idx) : ∃ pc ∈ (runD (F := F) c i arg2 harg2 arg3 harg3 arg4 harg4 arg5 harg5 arg6 harg6 arg7 harg7 arg8 harg8 arg9 harg9 arg10 harg10 hc0 hc1 hc2).2.1, y ∈ pc.1.set :=
  View.cover_of_tiledL _ S8x128.size (by sl_kernel_rfl) y
theorem coverD2 (y : S8x128.Idx) : ∃ pc ∈ (runD (F := F) c i arg2 harg2 arg3 harg3 arg4 harg4 arg5 harg5 arg6 harg6 arg7 harg7 arg8 harg8 arg9 harg9 arg10 harg10 hc0 hc1 hc2).2.2.1, y ∈ pc.1.set :=
  View.cover_of_tiledL _ S8x128.size (by sl_kernel_rfl) y
/-- What case D leaves. -/
def resD : St F :=
  ⟨(rdO []), (rdO []), (rdO []), rdS (runD (F := F) c i arg2 harg2 arg3 harg3 arg4 harg4 arg5 harg5 arg6 harg6 arg7 harg7 arg8 harg8 arg9 harg9 arg10 harg10 hc0 hc1 hc2).1, rdS (runD (F := F) c i arg2 harg2 arg3 harg3 arg4 harg4 arg5 harg5 arg6 harg6 arg7 harg7 arg8 harg8 arg9 harg9 arg10 harg10 hc0 hc1 hc2).2.1, rdS (runD (F := F) c i arg2 harg2 arg3 harg3 arg4 harg4 arg5 harg5 arg6 harg6 arg7 harg7 arg8 harg8 arg9 harg9 arg10 harg10 hc0 hc1 hc2).2.2.1⟩
end caseD

/-- What case E leaves: the accumulators as the point before left them. -/
def resE (o : St F) : St F := ⟨(rdO []), (rdO []), (rdO []), o.s0, o.s1, o.s2⟩

/-! ## Point by point -/

/-- THE ACCUMULATION: what the accumulators and output blocks hold after the body at position n — the case the
    closed forms select there, run at the point's memrefs and input blocks over what position n - 1 left. -/
def stAt (c : Dev nD) : (n : ℕ) → n < cfg0.N → St F
  | 0, hn => resA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM0 (Memref.isWhole_whole _) scM1 (Memref.isWhole_whole _) scM2 (Memref.isWhole_whole _) ((hcondClear ⟨0, hn⟩).mpr (Nat.zero_mod 8)) ((hcondBlock ⟨0, hn⟩).mpr (Or.inl (by show (0 : ℕ) / 8 < 4; decide))) (fun h => absurd ((hcondOut ⟨0, hn⟩).mp h) (by show ¬(0 : ℕ) % 8 = 7; decide)) (iblk m c 0 ⟨0, hn⟩) (iblk m c 1 ⟨0, hn⟩) (iblk m c 2 ⟨0, hn⟩)
  | n + 1, hn =>
    if h0 : (n + 1) % 8 = 0 then
      if h1 : (n + 1) / 8 < 4 ∨ 4 ≤ (n + 1) % 8 then
        resA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) ((hcondClear ⟨n + 1, hn⟩).mpr h0) ((hcondBlock ⟨n + 1, hn⟩).mpr h1) (fun h => absurd ((hcondOut ⟨n + 1, hn⟩).mp h) (by (try dsimp only); omega)) (iblk m c 0 ⟨n + 1, hn⟩) (iblk m c 1 ⟨n + 1, hn⟩) (iblk m c 2 ⟨n + 1, hn⟩)
      else
        resD c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) ((hcondClear ⟨n + 1, hn⟩).mpr h0) (fun h => h1 ((hcondBlock ⟨n + 1, hn⟩).mp h)) (fun h => absurd ((hcondOut ⟨n + 1, hn⟩).mp h) (by (try dsimp only); omega))
    else
      if h1 : (n + 1) / 8 < 4 ∨ 4 ≤ (n + 1) % 8 then
        if h2 : (n + 1) % 8 = 7 then
          resC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) (fun h => h0 ((hcondClear ⟨n + 1, hn⟩).mp h)) ((hcondBlock ⟨n + 1, hn⟩).mpr h1) ((hcondOut ⟨n + 1, hn⟩).mpr h2) (iblk m c 0 ⟨n + 1, hn⟩) (iblk m c 1 ⟨n + 1, hn⟩) (iblk m c 2 ⟨n + 1, hn⟩) (stAt c n (Nat.lt_of_succ_lt hn)).s0 (stAt c n (Nat.lt_of_succ_lt hn)).s1 (stAt c n (Nat.lt_of_succ_lt hn)).s2
        else
          resB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) (fun h => h0 ((hcondClear ⟨n + 1, hn⟩).mp h)) ((hcondBlock ⟨n + 1, hn⟩).mpr h1) (fun h => h2 ((hcondOut ⟨n + 1, hn⟩).mp h)) (iblk m c 0 ⟨n + 1, hn⟩) (iblk m c 1 ⟨n + 1, hn⟩) (iblk m c 2 ⟨n + 1, hn⟩) (stAt c n (Nat.lt_of_succ_lt hn)).s0 (stAt c n (Nat.lt_of_succ_lt hn)).s1 (stAt c n (Nat.lt_of_succ_lt hn)).s2
      else
        resE (stAt c n (Nat.lt_of_succ_lt hn))

/-- stAt at a point of case A. -/
theorem stAt_A (c : Dev nD) (t : Fin cfg0.N) (h0 : t.val % 8 = 0) (h1 : t.val / 8 < 4 ∨ 4 ≤ t.val % 8) (h2 : ¬t.val % 8 = 7) :
    stAt m c t.val t.isLt = resA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) ((hcondClear t).mpr h0) ((hcondBlock t).mpr h1) (fun h => h2 ((hcondOut t).mp h)) (iblk m c 0 t) (iblk m c 1 t) (iblk m c 2 t) := by
  obtain ⟨n, hn⟩ := t
  cases n with
  | zero => exact rfl
  | succ n => exact (dif_pos h0).trans ((dif_pos h1).trans rfl)

/-- stAt at a point of case D. -/
theorem stAt_D (c : Dev nD) (t : Fin cfg0.N) (h0 : t.val % 8 = 0) (h1 : ¬(t.val / 8 < 4 ∨ 4 ≤ t.val % 8)) (h2 : ¬t.val % 8 = 7) :
    stAt m c t.val t.isLt = resD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) ((hcondClear t).mpr h0) (fun h => h1 ((hcondBlock t).mp h)) (fun h => h2 ((hcondOut t).mp h)) := by
  obtain ⟨n, hn⟩ := t
  cases n with
  | zero => exact absurd (Or.inl (by show (0 : ℕ) / 8 < 4; decide)) h1
  | succ n => exact (dif_pos h0).trans ((dif_neg h1).trans rfl)

/-- stAt at a point of case B, over what the point before left. -/
theorem stAt_B (c : Dev nD) (t : Fin cfg0.N) (h0 : ¬t.val % 8 = 0) (h1 : t.val / 8 < 4 ∨ 4 ≤ t.val % 8) (h2 : ¬t.val % 8 = 7) :
    stAt m c t.val t.isLt = resB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((hcondClear t).mp h)) ((hcondBlock t).mpr h1) (fun h => h2 ((hcondOut t).mp h)) (iblk m c 0 t) (iblk m c 1 t) (iblk m c 2 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 := by
  obtain ⟨n, hn⟩ := t
  cases n with
  | zero => exact absurd (Nat.zero_mod 8) h0
  | succ n => exact (dif_neg h0).trans ((dif_pos h1).trans ((dif_neg h2).trans rfl))

/-- stAt at a point of case C, over what the point before left. -/
theorem stAt_C (c : Dev nD) (t : Fin cfg0.N) (h0 : ¬t.val % 8 = 0) (h1 : t.val / 8 < 4 ∨ 4 ≤ t.val % 8) (h2 : t.val % 8 = 7) :
    stAt m c t.val t.isLt = resC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((hcondClear t).mp h)) ((hcondBlock t).mpr h1) ((hcondOut t).mpr h2) (iblk m c 0 t) (iblk m c 1 t) (iblk m c 2 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 := by
  obtain ⟨n, hn⟩ := t
  cases n with
  | zero => exact absurd (Nat.zero_mod 8) h0
  | succ n => exact (dif_neg h0).trans ((dif_pos h1).trans ((dif_pos h2).trans rfl))

/-- stAt at a point of case E: what the point before left. -/
theorem stAt_E (c : Dev nD) (t : Fin cfg0.N) (h0 : ¬t.val % 8 = 0) (h1 : ¬(t.val / 8 < 4 ∨ 4 ≤ t.val % 8)) :
    stAt m c t.val t.isLt = resE (stAt m c (t.val - 1) (Nat.lt_of_le_of_lt (Nat.sub_le _ _) t.isLt)) := by
  obtain ⟨n, hn⟩ := t
  cases n with
  | zero => exact absurd (Nat.zero_mod 8) h0
  | succ n => exact (dif_neg h0).trans ((dif_neg h1).trans rfl)

/-! ## The invariant between points -/

/-- The three accumulators, each at some contents: what the region boundary hands the kernel. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

/-- Before position n: at the start the accumulators at anything; afterwards at what position n - 1 left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (stAt m c n hn).s0 ∗ owns (c : Thread nD τ) scM1 fullShare (stAt m c n hn).s1 ∗ owns (c : Thread nD τ) scM2 fullShare (stAt m c n hn).s2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (stAt m c n hn).s0 ∗ owns (c : Thread nD τ) scM1 fullShare (stAt m c n hn).s1 ∗ owns (c : Thread nD τ) scM2 fullShare (stAt m c n hn).s2) := rfl

theorem PhiS_pos (c : Dev nD) (n : ℕ) (h : n ≤ cfg0.N) (hz : n ≠ 0) :
    PhiS m c n h = iprop(owns (c : Thread nD τ) scM0 fullShare (stAt m c (n - 1) (by omega)).s0 ∗ owns (c : Thread nD τ) scM1 fullShare (stAt m c (n - 1) (by omega)).s1 ∗ owns (c : Thread nD τ) scM2 fullShare (stAt m c (n - 1) (by omega)).s2) := by
  cases n with
  | zero => exact absurd rfl hz
  | succ n => rfl

/-! ## The pipeline's proof data -/

/-- The proof data on core c: the arrays as the region finds them; after the body each input's buffer at its block, the
    outputs' at stAt; the invariant PhiS; nothing owed; the array both row windows read held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).o3
    | ⟨4, _⟩ => (stAt m c t.val t.isLt).o4
    | ⟨5, _⟩ => (stAt m c t.val t.isLt).o5
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stAt m c t.val t.isLt).o3 := by dsimp only [dats]
theorem after4 (c : Dev nD) (t : Fin cfg0.N) : (dats m 0 c).after 4 t = (stAt m c t.val t.isLt).o4 := by dsimp only [dats]
theorem after5 (c : Dev nD) (t : Fin cfg0.N) : (dats m 0 c).after 5 t = (stAt m c t.val t.isLt).o5 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.Kernel.Hand

end
-- ==== Proof.WBody.lean ====
/-
  The body obligation: at every grid point, from the invariant and each window's current staging buffer at what it
  then holds, the kernel body runs to the invariant of the next point and each buffer at what the proof data says the
  body leaves. The closed forms of the three branch conditions say which of the five cases the point is in, and that
  case's run applies. The three output windows are idle (nothing stored, not written back) at every point but j = 7.
-/
import proofs.«152378_j46660524704258_2_alg».proof.Proof.WData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the windows are idle -/

theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem idleOut3 : ∀ t : Fin cfg0.N, ¬t.val % 8 = 7 → cfg0.idle 3 (grid0.coords t) = true := by decide +kernel
theorem idleOut4 : ∀ t : Fin cfg0.N, ¬t.val % 8 = 7 → cfg0.idle 4 (grid0.coords t) = true := by decide +kernel
theorem idleOut5 : ∀ t : Fin cfg0.N, ¬t.val % 8 = 7 → cfg0.idle 5 (grid0.coords t) = true := by decide +kernel
theorem liveOut3 : ∀ t : Fin cfg0.N, t.val % 8 = 7 → cfg0.idle 3 (grid0.coords t) = false := by decide +kernel
theorem liveOut4 : ∀ t : Fin cfg0.N, t.val % 8 = 7 → cfg0.idle 4 (grid0.coords t) = false := by decide +kernel
theorem liveOut5 : ∀ t : Fin cfg0.N, t.val % 8 = 7 → cfg0.idle 5 (grid0.coords t) = false := by decide +kernel
theorem noFlush3 : ∀ t : Fin cfg0.N, ¬t.val % 8 = 7 → (cfg0.win 3).flush t = false := by decide +kernel
theorem noFlush4 : ∀ t : Fin cfg0.N, ¬t.val % 8 = 7 → (cfg0.win 4).flush t = false := by decide +kernel
theorem noFlush5 : ∀ t : Fin cfg0.N, ¬t.val % 8 = 7 → (cfg0.win 5).flush t = false := by decide +kernel

/-! ## The invariant's two ends -/

/-- Whatever the invariant holds, it holds the three accumulators at something. -/
theorem Phi_any (c : Dev nD) (n : ℕ) (h : n ≤ cfg0.N) :
    PhiS m c n h ⊢ iprop((∃ d, owns (c : Thread nD τ) scM0 fullShare d) ∗ (∃ d, owns (c : Thread nD τ) scM1 fullShare d) ∗ (∃ d, owns (c : Thread nD τ) scM2 fullShare d)) := by
  cases n with
  | zero => rw [PhiS_zero m c 0 h rfl, scoped_eq]
  | succ n =>
    rw [PhiS_succ]
    iintro ⟨H0, H1, H2⟩
    isplitl [H0]; · iexists _; iexact H0
    isplitl [H1]; · iexists _; iexact H1
    iexists _; iexact H2

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  have hN : t.val < 64 := lt_of_lt_of_eq t.isLt (show cfg0.N = 64 from N_0)
  by_cases h0 : t.val % 8 = 0
  · have h2 : ¬t.val % 8 = 7 := by omega
    rw [Dat.leavesExact_idle (dats m 0 c) 3 t (idleOut3 t h2) (noFlush3 t h2), Dat.leavesExact_idle (dats m 0 c) 4 t (idleOut4 t h2) (noFlush4 t h2), Dat.leavesExact_idle (dats m 0 c) 5 t (idleOut5 t h2) (noFlush5 t h2)]
    by_cases h1 : t.val / 8 < 4 ∨ 4 ≤ t.val % 8
    · -- case A
      rw [stAt_A m c t h0 h1 h2]
      unfold resA; (try dsimp only)
      iintro ⟨HΦ, Ho, ⟨%d0, H0⟩, ⟨%d1, H1⟩, ⟨%d2, H2⟩, H3, H4, H5⟩
      ihave HS := (Phi_any m c t.val (Nat.le_of_lt t.isLt)) $$ HΦ
      icases HS with ⟨HS0, HS1, HS2⟩
      iapply ((runA c (grid0.coords t) _ _ _ _ _ _ _ _ _ _ _ _ _ _ _ _ _ _ ((hcondClear t).mpr h0) ((hcondBlock t).mpr h1) (fun h => h2 ((hcondOut t).mp h)) (iblk m c 0 t) (iblk m c 1 t) (iblk m c 2 t)).2.2.2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2]
      · isplitl [HS0]
        · unfold owns; iexists _; isplitr; swap; · iexact HS0
          ipureintro; exact View.read_writes_of_cover _ _ _ _ _ (coverA0 c _ _ _ _ _ _ _ _ _ _ _ _ _ _ _ _ _ _ _ _ _ _ _ _ _)
        isplitl [HS1]
        · unfold owns; iexists _; isplitr; swap; · iexact HS1
          ipureintro; exact View.read_writes_of_cover _ _ _ _ _ (coverA1 c _ _ _ _ _ _ _ _ _ _ _ _ _ _ _ _ _ _ _ _ _ _ _ _ _)
        · unfold owns; iexists _; isplitr; swap; · iexact HS2
          ipureintro; exact View.read_writes_of_cover _ _ _ _ _ (coverA2 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexact H5
    · -- case D
      rw [stAt_D m c t h0 h1 h2]
      unfold resD; (try dsimp only)
      iintro ⟨HΦ, Ho, H0, H1, H2, H3, H4, H5⟩
      ihave HS := (Phi_any m c t.val (Nat.le_of_lt t.isLt)) $$ HΦ
      icases HS with ⟨HS0, HS1, HS2⟩
      iapply ((runD c (grid0.coords t) _ _ _ _ _ _ _ _ _ _ _ _ _ _ _ _ _ _ ((hcondClear t).mpr h0) (fun h => h1 ((hcondBlock t).mp h)) (fun h => h2 ((hcondOut t).mp h))).2.2.2 Set.univ _)
      isplitl [HS0]; · iexact HS0
      isplitl [HS1]; · iexact HS1
      isplitl [HS2]; · iexact HS2
      iintro ⟨⟨%e0, HS0⟩, ⟨%e1, HS1⟩, ⟨%e2, HS2⟩⟩
      isplitl [HS0 HS1 HS2]
      · isplitl [HS0]
        · unfold owns; iexists _; isplitr; swap; · iexact HS0
          ipureintro; exact View.read_writes_of_cover _ _ _ _ _ (coverD0 c _ _ _ _ _ _ _ _ _ _ _ _ _ _ _ _ _ _ _ _ _ _)
        isplitl [HS1]
        · unfold owns; iexists _; isplitr; swap; · iexact HS1
          ipureintro; exact View.read_writes_of_cover _ _ _ _ _ (coverD1 c _ _ _ _ _ _ _ _ _ _ _ _ _ _ _ _ _ _ _ _ _ _)
        · unfold owns; iexists _; isplitr; swap; · iexact HS2
          ipureintro; exact View.read_writes_of_cover _ _ _ _ _ (coverD2 c _ _ _ _ _ _ _ _ _ _ _ _ _ _ _ _ _ _ _ _ _ _)
      isplitl [Ho]; · iexact Ho
      isplitl [H0]; · icases H0 with ⟨%d0, H0⟩; iexact H0
      isplitl [H1]; · icases H1 with ⟨%d1, H1⟩; iexact H1
      isplitl [H2]; · icases H2 with ⟨%d2, H2⟩; iexact H2
      isplitl [H3]; · iexact H3
      isplitl [H4]; · iexact H4
      iexact H5
  · have hz : t.val ≠ 0 := fun e => h0 (by rw [e])
    rw [PhiS_pos m c _ _ hz]
    by_cases h1 : t.val / 8 < 4 ∨ 4 ≤ t.val % 8
    · by_cases h2 : t.val % 8 = 7
      · -- case C
        rw [show (dats m 0 c).leavesExact 3 t = owns (c : Thread nD τ) (ms3 t) fullShare ((dats m 0 c).after 3 t) from by
          unfold Dat.leavesExact; rw [liveOut3 t h2], after3]
        rw [show (dats m 0 c).leavesExact 4 t = owns (c : Thread nD τ) (ms4 t) fullShare ((dats m 0 c).after 4 t) from by
          unfold Dat.leavesExact; rw [liveOut4 t h2], after4]
        rw [show (dats m 0 c).leavesExact 5 t = owns (c : Thread nD τ) (ms5 t) fullShare ((dats m 0 c).after 5 t) from by
          unfold Dat.leavesExact; rw [liveOut5 t h2], after5]
        rw [stAt_C m c t h0 h1 h2]
        unfold resC; (try dsimp only)
        iintro ⟨⟨HS0, HS1, HS2⟩, Ho, ⟨%d0, H0⟩, ⟨%d1, H1⟩, ⟨%d2, H2⟩, ⟨%d3, H3⟩, ⟨%d4, H4⟩, ⟨%d5, H5⟩⟩
        iapply ((runC c (grid0.coords t) _ _ _ _ _ _ _ _ _ _ _ _ _ _ _ _ _ _ (fun h => h0 ((hcondClear t).mp h)) ((hcondBlock t).mpr h1) ((hcondOut t).mpr h2) (iblk m c 0 t) (iblk m c 1 t) (iblk m c 2 t) _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        iintro ⟨H0, H1, H2, ⟨%e3, H3⟩, ⟨%e4, H4⟩, ⟨%e5, H5⟩, ⟨%e0, HS0⟩, ⟨%e1, HS1⟩, ⟨%e2, HS2⟩⟩
        isplitl [HS0 HS1 HS2]
        · isplitl [HS0]
          · unfold owns; iexists _; isplitr; swap; · iexact HS0
            ipureintro; exact View.read_writes_of_cover _ _ _ _ _ (coverC0 c _ _ _ _ _ _ _ _ _ _ _ _ _ _ _ _ _ _ _ _ _ _ _ _ _ _ _ _)
          isplitl [HS1]
          · unfold owns; iexists _; isplitr; swap; · iexact HS1
            ipureintro; exact View.read_writes_of_cover _ _ _ _ _ (coverC1 c _ _ _ _ _ _ _ _ _ _ _ _ _ _ _ _ _ _ _ _ _ _ _ _ _ _ _ _)
          · unfold owns; iexists _; isplitr; swap; · iexact HS2
            ipureintro; exact View.read_writes_of_cover _ _ _ _ _ (coverC2 c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]
        · unfold owns; iexists _; isplitr; swap; · iexact H3
          ipureintro; exact View.read_writes_of_cover _ _ _ _ _ (coverC5 c _ _ _ _ _ _ _ _ _ _ _ _ _ _ _ _ _ _ _ _ _ _ _ _ _ _ _ _)
        isplitl [H4]
        · unfold owns; iexists _; isplitr; swap; · iexact H4
          ipureintro; exact View.read_writes_of_cover _ _ _ _ _ (coverC6 c _ _ _ _ _ _ _ _ _ _ _ _ _ _ _ _ _ _ _ _ _ _ _ _ _ _ _ _)
        unfold owns; iexists _; isplitr; swap; · iexact H5
        ipureintro; exact View.read_writes_of_cover _ _ _ _ _ (coverC7 c _ _ _ _ _ _ _ _ _ _ _ _ _ _ _ _ _ _ _ _ _ _ _ _ _ _ _ _)
      · -- case B
        rw [Dat.leavesExact_idle (dats m 0 c) 3 t (idleOut3 t h2) (noFlush3 t h2), Dat.leavesExact_idle (dats m 0 c) 4 t (idleOut4 t h2) (noFlush4 t h2), Dat.leavesExact_idle (dats m 0 c) 5 t (idleOut5 t h2) (noFlush5 t h2)]
        rw [stAt_B m c t h0 h1 h2]
        unfold resB; (try dsimp only)
        iintro ⟨⟨HS0, HS1, HS2⟩, Ho, ⟨%d0, H0⟩, ⟨%d1, H1⟩, ⟨%d2, H2⟩, H3, H4, H5⟩
        iapply ((runB c (grid0.coords t) _ _ _ _ _ _ _ _ _ _ _ _ _ _ _ _ _ _ (fun h => h0 ((hcondClear t).mp h)) ((hcondBlock t).mpr h1) (fun h => h2 ((hcondOut t).mp h)) (iblk m c 0 t) (iblk m c 1 t) (iblk m c 2 t) _ _ _).2.2.2 Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%e0, HS0⟩, ⟨%e1, HS1⟩, ⟨%e2, HS2⟩⟩
        isplitl [HS0 HS1 HS2]
        · isplitl [HS0]
          · unfold owns; iexists _; isplitr; swap; · iexact HS0
            ipureintro; exact View.read_writes_of_cover _ _ _ _ _ (coverB0 c _ _ _ _ _ _ _ _ _ _ _ _ _ _ _ _ _ _ _ _ _ _ _ _ _ _ _ _)
          isplitl [HS1]
          · unfold owns; iexists _; isplitr; swap; · iexact HS1
            ipureintro; exact View.read_writes_of_cover _ _ _ _ _ (coverB1 c _ _ _ _ _ _ _ _ _ _ _ _ _ _ _ _ _ _ _ _ _ _ _ _ _ _ _ _)
          · unfold owns; iexists _; isplitr; swap; · iexact HS2
            ipureintro; exact View.read_writes_of_cover _ _ _ _ _ (coverB2 c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexact H5
    · -- case E
      have h2 : ¬t.val % 8 = 7 := by omega
      rw [Dat.leavesExact_idle (dats m 0 c) 3 t (idleOut3 t h2) (noFlush3 t h2), Dat.leavesExact_idle (dats m 0 c) 4 t (idleOut4 t h2) (noFlush4 t h2), Dat.leavesExact_idle (dats m 0 c) 5 t (idleOut5 t h2) (noFlush5 t h2)]
      rw [stAt_E m c t h0 h1]
      unfold resE; (try dsimp only)
      iintro ⟨HΦ, Ho, ⟨%d0, H0⟩, ⟨%d1, H1⟩, ⟨%d2, H2⟩, H3, H4, H5⟩
      iapply (runE c (grid0.coords t) _ _ _ _ _ _ _ _ _ _ _ _ _ _ _ _ _ _ (fun h => h0 ((hcondClear t).mp h)) (fun h => h1 ((hcondBlock t).mp h)) (fun h => h2 ((hcondOut t).mp h)) Set.univ _)
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region boundary hands the kernel is the invariant before the first point. -/
theorem Phi_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem Phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl, scoped_eq]
  exact Phi_any m c _ _

end Cert.Kernel.Hand

end
-- ==== Proof.LibSharedArrays.lean ====
/-
  Arrays that several input windows of one kernel region read.

  A kernel may be handed one array through several input windows (a matrix read as a left half and a right half, each
  by its own window). The pipeline then holds that array once per window, each window at its own share of it, and the
  shares of the windows on one buffer add up to the whole. This file regroups a core's unscoped buffers that way: a
  separating conjunction over an index set is the conjunction, over the values a function takes on it, of the
  conjunctions over the fibres; the buffers behind a region's arrays, each whole at the full share, are the pipeline's
  arrays with the windows of one fibre holding their shares; so a core's unscoped buffers at contents V are the
  region's arrays at V and the rest (the form a region is entered and left in), whether or not the arrays are distinct.
  A fibre of one window holds the full share; a fibre of two windows holds the two halves of it.
  For any signature, any type of values and any pipeline configuration.
-/
import Idealize.ShloMosaic.Lib.Pipeline.Launch

noncomputable section

namespace Idealize.ShloMosaic.Pipeline

open Idealize.SL
open Idealize.SL.BI (sProp bigSep bigSep_insert bigSep_congr bigSep_sdiff_split bigSep_filter_split bigSep_singleton)
open scoped Idealize.SL.BI
open Idealize.SL.BI.BIBase Idealize.SL.BI.Laws Idealize.SL.Sem Idealize.SL.ProofMode
open Idealize.SL.RA
open Idealize.ShloMosaic.TcCoe

set_option Elab.async false

/-- A separating conjunction over s, regrouped by the value of f: over each value b that f takes on s, the
    conjunction over the members of s that f sends to b. -/
theorem bigSep_fiberwise {M : Type _} [URA M] {I J : Type _} [DecidableEq I] [DecidableEq J] (s : Finset I) (f : I → J)
    (Φ : I → sProp M) :
    bigSep s Φ = bigSep (s.image f) fun b => bigSep (s.filter fun i => f i = b) Φ := by
  classical
  generalize hT : s.image f = T
  induction T using Finset.induction_on generalizing s with
  | empty =>
    have hs : s = ∅ := Finset.image_eq_empty.mp hT
    subst hs; rfl
  | insert b T hb ih =>
    have himg : (s.filter fun i => ¬ f i = b).image f = T := by
      ext x
      constructor
      · intro hx
        obtain ⟨i, hi, rfl⟩ := Finset.mem_image.mp hx
        have hi' := Finset.mem_filter.mp hi
        have : f i ∈ insert b T := hT ▸ Finset.mem_image_of_mem f hi'.1
        exact (Finset.mem_insert.mp this).resolve_left hi'.2
      · intro hx
        have : x ∈ s.image f := hT ▸ Finset.mem_insert_of_mem hx
        obtain ⟨i, hi, rfl⟩ := Finset.mem_image.mp this
        exact Finset.mem_image.mpr ⟨i, Finset.mem_filter.mpr ⟨hi, fun e => hb (e ▸ hx)⟩, rfl⟩
    rw [bigSep_insert hb, bigSep_filter_split s (fun i => f i = b), ih _ himg]
    refine congrArg _ (bigSep_congr fun b' hb' => ?_)
    refine congrArg (fun t => bigSep t Φ) ?_
    ext i
    simp only [Finset.mem_filter]
    constructor
    · rintro ⟨⟨hi, -⟩, e⟩; exact ⟨hi, e⟩
    · rintro ⟨hi, e⟩; exact ⟨⟨hi, fun e' => hb (e' ▸ e ▸ hb')⟩, e⟩

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- What the windows on buffer b hold of it together is the whole of it: the condition under which a region's arrays
    are exactly the buffers behind them. -/
def FibreShares (cfg : Cfg sig Λ₀) (c : Dev nD) (dat : Dat τ Val Ix Name U Lvl cfg c) : Prop :=
  ∀ b ∈ Finset.univ.image (arrRef cfg.spec), ∀ g : Buf Val ((c.tc : Thread nD τ).loc b),
    ((((c.tc : Thread nD τ).loc b) ↦{fullShare} g) : sProp 𝕄)
      = bigSep (Finset.univ.filter fun w : Fin cfg.W => arrRef cfg.spec w = b) fun w => (((c.tc : Thread nD τ).loc b) ↦{dat.share w} g)

/-- The buffers behind a region's arrays, each whole at the full share at contents V, are the pipeline's arrays at V:
    every window holds its share of its array, the windows on one buffer the whole of it between them. -/
theorem arrBufs_eq_arrays (cfg : Cfg sig Λ₀) (c : Dev nD) (dat : Dat τ Val Ix Name U Lvl cfg c)
    (harr : ∀ w, (cfg.spec w).arr.IsWhole) (hfib : FibreShares cfg c dat)
    (V : (b : Ref sig .tc) → Buf Val ((c.tc : Thread nD τ).loc b))
    (F : (w : Fin cfg.W) → Buf Val ((cfg.win w).arr.view.loc (c.tc : Thread nD τ))) (hF : ∀ w, F w = V (arrRef cfg.spec w)) :
    (arrBufs cfg.spec c V : sProp 𝕄) = dat.arrays F := by
  classical
  unfold arrBufs Dat.arrays
  rw [bigSep_fiberwise Finset.univ (arrRef cfg.spec)]
  refine bigSep_congr fun b hb => ?_
  rw [hfib b hb (V b)]
  refine bigSep_congr fun w hw => ?_
  have e : arrRef cfg.spec w = b := (Finset.mem_filter.mp hw).2
  subst e
  rw [(harr w).set_eq_univ, hF]

/-- A core's unscoped buffers at contents V are a region's arrays at V and the unscoped rest, the arrays distinct or
    not: the form in which a region's arrays are taken out of the thread's buffers at its entry and put back at its
    exit. -/
theorem unscopedBufs_eq_arrays_rest (cfg : Cfg sig Λ₀) (c : Dev nD) (dat : Dat τ Val Ix Name U Lvl cfg c)
    (hun : ∀ w, (arrRef cfg.spec w).isScoped = false)
    (harr : ∀ w, (cfg.spec w).arr.IsWhole) (hfib : FibreShares cfg c dat)
    (V : (b : Ref sig .tc) → Buf Val ((c.tc : Thread nD τ).loc b))
    (F : (w : Fin cfg.W) → Buf Val ((cfg.win w).arr.view.loc (c.tc : Thread nD τ))) (hF : ∀ w, F w = V (arrRef cfg.spec w)) :
    (unscopedBufs c V : sProp 𝕄) = iprop(dat.arrays F ∗ unscopedRest cfg.spec c V) := by
  classical
  have hA : Finset.univ.image (arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  rw [← arrBufs_eq_arrays cfg c dat harr hfib V F hF]
  unfold unscopedBufs unscopedRest arrBufs
  rw [bigSep_sdiff_split hA]
  rfl

/-- EXIT with the arrays at new contents: the region's arrays at F and the unscoped rest at V are the core's unscoped
    buffers at any V' that has the arrays at F and agrees with V off them. -/
theorem unscopedBufs_of_arrays_rest (cfg : Cfg sig Λ₀) (c : Dev nD) (dat : Dat τ Val Ix Name U Lvl cfg c)
    (hun : ∀ w, (arrRef cfg.spec w).isScoped = false)
    (harr : ∀ w, (cfg.spec w).arr.IsWhole) (hfib : FibreShares cfg c dat)
    (V V' : (b : Ref sig .tc) → Buf Val ((c.tc : Thread nD τ).loc b))
    (F : (w : Fin cfg.W) → Buf Val ((cfg.win w).arr.view.loc (c.tc : Thread nD τ))) (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  rw [unscopedBufs_eq_arrays_rest cfg c dat hun harr hfib V' F hF]
  refine sep_mono .rfl (Entails.of_eq ?_)
  unfold unscopedRest
  exact bigSep_congr fun b hb => by rw [hrest b (Finset.mem_sdiff.mp hb).2]

/-- A buffer one window reads, held at the full share. -/
theorem fibre_one {ℓ : Loc nD τ sig} (g : Buf Val ℓ) {W : Nat} (S : Finset (Fin W)) (w : Fin W) (hS : S = {w})
    (q : Fin W → PosShare TreeShare) (hq : q w = fullShare) :
    ((ℓ ↦{fullShare} g) : sProp 𝕄) = bigSep S fun w' => (ℓ ↦{q w'} g) := by
  subst hS; rw [bigSep_singleton, hq]

/-- A buffer two windows read, one at each half of the full share. -/
theorem fibre_two {ℓ : Loc nD τ sig} (g : Buf Val ℓ) {W : Nat} (S : Finset (Fin W)) (w₁ w₂ : Fin W) (hne : w₁ ≠ w₂) (hS : S = {w₁, w₂})
    (q : Fin W → PosShare TreeShare) (hq₁ : q w₁ = fullShare.left) (hq₂ : q w₂ = fullShare.right) :
    ((ℓ ↦{fullShare} g) : sProp 𝕄) = bigSep S fun w' => (ℓ ↦{q w'} g) := by
  subst hS
  rw [bigSep_insert (by simpa using hne), bigSep_singleton, hq₁, hq₂]
  have h : ((ℓ ↦{fullShare} g) : sProp 𝕄) ⊣⊢ iprop((ℓ ↦{fullShare.left} g) ∗ (ℓ ↦{fullShare.right} g)) :=
    pointsTo_share (PosShare.mem_left_op_right fullShare)
  exact Idealize.SL.BI.equiv_iff.mp ⟨h.1, h.2⟩

end Idealize.ShloMosaic.Pipeline
-- ==== Proof.LibSharedTail.lean ====
/-
  The contents a kernel region leaves, when several of its windows read one array.

  After a region the core's buffers hold the region's arrays at their final contents A and every other buffer at what it
  held before. Read at a window's array this is that window's A — also when several windows share the array, provided
  the windows on one array are given the same contents (input windows, whose array the region leaves as it found it).
  For any signature, any type of values and any list of windows.
-/
import Idealize.ShloMosaic.Lib.Pipeline.FrameSuffix

noncomputable section

namespace Idealize.ShloMosaic.Pipeline

variable {nD : Nat} {τ : Topo} {sig : RefSig} {Val : EltTy → Type}

/-- The buffers after a region, read at window w's array, are w's final contents, when windows on one array agree. -/
theorem withArrays_arr_of_agree {gr : Nat} {W : Nat} (win : Fin W → WinSpec sig gr) (c : Dev nD) (V : Valuation τ sig Val)
    (A : (w : Fin W) → Buf Val ((win w).arr.view.loc (c.tc : Thread nD τ)))
    (hag : ∀ w w', arrRef win w = arrRef win w' → HEq (A w) (A w')) (w : Fin W) :
    withArrays win c V A (Proc.devRef .tc (arrRef win w)) = A w := by
  unfold withArrays
  have h : ∃ w', Proc.devRef .tc (arrRef win w') = Proc.devRef (τ := τ) .tc (arrRef win w) := ⟨w, rfl⟩
  rw [dif_pos h]
  exact eq_of_heq ((cast_heq _ _).trans (hag _ _ (Proc.devRef_injective _ h.choose_spec)))

end Idealize.ShloMosaic.Pipeline

end
-- ==== Proof.WRegion.lean ====
/-
  The launch: @main as the host operations before the region, the kernel region, the host operations after it.

  Before the region the core holds all its unscoped buffers at the host operations' results. The region takes out its
  six windows' arrays — the (1,1) bandwidth factor, the row data twice (once per row window, each window holding half
  of it), the three result arrays — and lets every other buffer bypass; the invariant holds only the three accumulators.
  At its exit the arrays come back at their final contents and, with the bypassing buffers, are again all the core's
  unscoped buffers, at the contents W1; the host operations after the region run from there. At the end the result
  buffer and the two argument arrays are read off what the core holds.
-/
import proofs.«152378_j46660524704258_2_alg».proof.Proof.WBody
import proofs.«152378_j46660524704258_2_alg».proof.Proof.LibSharedArrays
import proofs.«152378_j46660524704258_2_alg».proof.Proof.LibSharedTail
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-! ## The shares of the arrays -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The windows on one buffer hold the whole of it between them: the two row windows half of the row data each, every
    other window its array whole. -/
theorem fibres (c : Dev nD) : Pipeline.FibreShares cfg0 c (dats m 0 c) := by
  intro b hb g
  have hb' : b = main_v13 ∨ b = main_v0 ∨ b = main_v14_0 ∨ b = main_v14_1 ∨ b = main_v14_2 := by
    obtain ⟨w, -, rfl⟩ := Finset.mem_image.mp hb
    fin_cases w
    · exact Or.inl rfl
    · exact Or.inr (Or.inl rfl)
    · exact Or.inr (Or.inl rfl)
    · exact Or.inr (Or.inr (Or.inl rfl))
    · exact Or.inr (Or.inr (Or.inr (Or.inl rfl)))
    · exact Or.inr (Or.inr (Or.inr (Or.inr rfl)))
  rcases hb' with rfl | rfl | rfl | rfl | rfl
  · exact Pipeline.fibre_one g _ 0 (by decide) _ (share0 m c)
  · exact Pipeline.fibre_two g _ 1 2 (by decide) (by decide) _ (share1 m c) (share2 m c)
  · exact Pipeline.fibre_one g _ 3 (by decide) _ (share3 m c)
  · exact Pipeline.fibre_one g _ 4 (by decide) _ (share4 m c)
  · exact Pipeline.fibre_one g _ 5 (by decide) _ (share5 m c)

/-! ## What the region leaves -/

/-- An array's contents after the region, as the library computes them. -/
abbrev finalA (c : Dev nD) (w : Fin cfg0.W) : Buf (Elt F) ((cfg0.win w).arr.view.loc (c : Thread nD τ)) := (dats m 0 c).arrAt w cfg0.N

/-- The core's buffers after the region: the arrays at their final contents, every other buffer as the host operations
    before the region left it. -/
def W1 (c : Dev nD) : Valuation τ sig (Elt F) :=
  Pipeline.withArrays spec0 c (StableHlo.after hostOps0 (V₀ m c)) (finalA m c)

/-- An input window's array ends as it was found. -/
theorem finalA_in0 (c : Dev nD) : finalA m c 0 = V m c (Pipeline.arrRef spec0 0) := ((dats m 0 c).arrAt_in 0 rfl _).trans (A_eq m c 0)
theorem finalA_in1 (c : Dev nD) : finalA m c 1 = V m c (Pipeline.arrRef spec0 1) := ((dats m 0 c).arrAt_in 1 rfl _).trans (A_eq m c 1)
theorem finalA_in2 (c : Dev nD) : finalA m c 2 = V m c (Pipeline.arrRef spec0 2) := ((dats m 0 c).arrAt_in 2 rfl _).trans (A_eq m c 2)

/-- The two row windows, on one array, end at the same contents. -/
theorem finalA_agree (c : Dev nD) : ∀ w w' : Fin cfg0.W, Pipeline.arrRef spec0 w = Pipeline.arrRef spec0 w' → HEq (finalA m c w) (finalA m c w') := by
  intro w w' e
  have key : ∀ w w' : Fin 6, Pipeline.arrRef spec0 w = Pipeline.arrRef spec0 w' → w = w' ∨ (w = 1 ∧ w' = 2) ∨ (w = 2 ∧ w' = 1) := by decide +kernel
  rcases key w w' e with rfl | ⟨rfl, rfl⟩ | ⟨rfl, rfl⟩
  · exact HEq.rfl
  · exact heq_of_eq ((finalA_in1 m c).trans (finalA_in2 m c).symm)
  · exact heq_of_eq ((finalA_in2 m c).trans (finalA_in1 m c).symm)

theorem W1_arr (c : Dev nD) (w : Fin cfg0.W) : W1 m c (Proc.devRef .tc (Pipeline.arrRef spec0 w)) = finalA m c w :=
  Pipeline.withArrays_arr_of_agree spec0 c _ (finalA m c) (finalA_agree m c) w

theorem W1_rest (c : Dev nD) (b : Ref sig .tc) (hb : ∀ w, Pipeline.arrRef spec0 w ≠ b) :
    W1 m c (Proc.devRef .tc b) = StableHlo.after hostOps0 (V₀ m c) (Proc.devRef .tc b) :=
  Pipeline.withArrays_of_ne spec0 c _ _ b hb

/-! ## The host operations write only their results -/

abbrev ops0_W : List (Ref sig .tc) := [main_v0, main_v1, main_cst, main_v2, main_cst_0, main_v3, main_v4, main_cst_1, main_v5, main_cst_2, main_v6, main_cst_3, main_v7, main_v8, main_cst_4, main_v9, main_cst_5, main_v10, main_cst_6, main_v11, main_cst_7, main_v12, main_v13]
abbrev ops1_W : List (Ref sig .tc) := [main_v15, main_v16, main_cst_8, main_v17, main_v18, main_v19, main_cst_9, main_v20, main_v21, main_v22, main_cst_10, main_v23, main_cst_11, main_v24, main_cst_12, main_v25, main_cst_13, main_v26, main_cst_14, main_v27, main_cst_15, main_v28, main_cst_16, main_v29, main_v30, main_cst_17, main_v31, main_v32]
theorem hostOps0_writes : (hostOps0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide)⟩
theorem hostOps1_writes : (hostOps1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide)⟩

/-- An argument array reaches the end as launched: no host operation writes it and the region leaves it. -/
theorem end_arg0 (c : Dev nD) : StableHlo.after hostOps1 (W1 m c) (Proc.devRef .tc main_arg0) = m ((c : Thread nD τ).loc main_arg0) :=
  (StableHlo.after_of_writes_sub hostOps1 _ hostOps1_writes (by decide)).trans
    ((W1_rest m c main_arg0 (by decide)).trans (StableHlo.after_of_writes_sub hostOps0 _ hostOps0_writes (by decide)))
theorem end_arg1 (c : Dev nD) : StableHlo.after hostOps1 (W1 m c) (Proc.devRef .tc main_arg1) = m ((c : Thread nD τ).loc main_arg1) :=
  (StableHlo.after_of_writes_sub hostOps1 _ hostOps1_writes (by decide)).trans
    ((W1_rest m c main_arg1 (by decide)).trans (StableHlo.after_of_writes_sub hostOps0 _ hostOps0_writes (by decide)))

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The host operations after the region, from what the region leaves. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W1 m) R

set_option backward.isDefEq.respectTransparency.types false in
/-- THE REGION: the windows' layout, no semaphore of the kernel's own, the body obligation; entered from what the host
    operations left — the arrays into the pipeline at their shares, every other buffer bypassing —, left with the
    arrays at their final contents, which with the bypassing buffers are the core's unscoped buffers at W1. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm]
    rw [Pipeline.unscopedBufs_eq_arrays_rest cfg0 c (dats m 0 c) winFacts₀0.arr_unscoped arr_whole0 (fibres m c) (V m c) ((dats m 0 c).arrAt · 0)
      (fun w => (show (dats m 0 c).arrAt w 0 = (dats m 0 c).A w from rfl).trans (A_eq m c w))]
    iintro ⟨⟨⟨Ha, Hr⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    iintro ⟨-, -, Hr⟩
    iapply (Phi_in m c)
    iexact Hr
  hout c := by
    rw [Pipeline.ownSems0_none]
    iintro H
    isplitr; · iempintro
    isplitr; · iempintro
    iapply (Phi_out m c)
    iexact H
  hexit c := by
    iintro ⟨Ha, HO, -, HZ⟩
    imodintro
    isplitr [HO]
    · rw [show StableHlo.held (c : Thread nD τ) (Pipeline.ucRefs τ sig) (W1 m c) = unscopedBufs c (fun b => W1 m c (Proc.devRef .tc b)) from (Pipeline.unscopedBufs_held c _).symm]
      iapply (Pipeline.unscopedBufs_of_arrays_rest cfg0 c (dats m 0 c) winFacts₀0.arr_unscoped arr_whole0 (fibres m c) (V m c) (fun b => W1 m c (Proc.devRef .tc b)) (finalA m c)
        (fun w => (W1_arr m c w).symm) (fun b hb => W1_rest m c b fun w e => hb (Finset.mem_image.mpr ⟨w, Finset.mem_univ _, e⟩)))
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the run ends with: the result buffer at the host tail's term over what the region left, the two argument
    arrays as launched. -/
def QC : PUnit × MemSt nD τ sig (Elt F) → Prop := fun r =>
  ∀ c : Dev nD, r.2.mem ((c : Thread nD τ).loc main_v32) = StableHlo.after hostOps1 (W1 m c) (Proc.devRef .tc main_v32)
    ∧ r.2.mem ((c : Thread nD τ).loc main_arg0) = m ((c : Thread nD τ).loc main_arg0)
    ∧ r.2.mem ((c : Thread nD τ).loc main_arg1) = m ((c : Thread nD τ).loc main_arg1)

theorem mem_uc (b : Ref sig .tc) (hb : b.isScoped = false) : (Proc.devRef .tc b : DevRef τ sig) ∈ Pipeline.ucRefs τ sig :=
  Finset.mem_filter.mpr ⟨StableHlo.devRef_mem_tcRefs b, by simpa using hb⟩

set_option backward.isDefEq.respectTransparency.types false in
/-- At the compiled mesh, for any float values, from any memory with zero counters: every weakly fair execution of
    @main on the TensorCores terminates, nothing faulting, with the result at the host tail's term and the arguments
    unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (W1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v32) = StableHlo.after hostOps1 (W1 m c) (Proc.devRef .tc main_v32)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave %h := (SI_pointsTo_bufs_agree (qs := fun _ => fullShare) (Pipeline.ucRefs τ sig)) $$ [HSI Hh]
      · isplitl [HSI]; · iexact HSI
        iexact Hh
      imodintro
      isplitr
      · ipureintro
        exact ⟨h _ (mem_uc main_v32 rfl), (h _ (mem_uc main_arg0 rfl)).trans (end_arg0 m c), (h _ (mem_uc main_arg1 rfl)).trans (end_arg1 m c)⟩
      iexact HSI)
    (hQ := fun _ h => h)

end Cert.Kernel.Hand

end
-- ==== Proof.KConds.lean ====
/-
  The kernel body's three branch conditions, as functions of the grid point (i, j), 0 <= i, j < 8, point t = 8 i + j:
  the accumulators are cleared when j = 0; a block is computed and accumulated unless it lies in the target-source
  quadrant (i >= 4 and j < 4); the accumulators are written out when j = 7. Each is decided over the 64 points in
  closed form, and so is where the three output windows are idle (every point but j = 7).
-/
import proofs.«152378_j46660524704258_2_alg».proof.Proof.Gen.KernelIdeal.Launch
import proofs.«152378_j46660524704258_2_alg».proof.Proof.Gen.KernelIdeal.Skeleton
import proofs.«152378_j46660524704258_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulators are cleared at this point: j = 0. -/
abbrev condClear (i : grid0.Coords) : Prop := (Scalar.cmpi .ne (Scalar.extui (Scalar.cmpi .eq (BitVec.ofNat 32 (i 1).val) 0#32)) 0#32) = 1#1
theorem hcondClear : ∀ t : Fin cfg0.N, condClear (grid0.coords t) ↔ t.val % 8 = 0 :=
  (by decide +kernel : ∀ t : Fin grid0.N, condClear (grid0.coords t) ↔ t.val % 8 = 0)

/-- The block is computed at this point: i < 4 or j >= 4. -/
abbrev condBlock (i : grid0.Coords) : Prop := (Scalar.cmpi .ne (Scalar.extui (Scalar.ori (Scalar.cmpi .slt (BitVec.ofNat 32 (i 0).val) 4#32) (Scalar.cmpi .sge (BitVec.ofNat 32 (i 1).val) 4#32))) 0#32) = 1#1
theorem hcondBlock : ∀ t : Fin cfg0.N, condBlock (grid0.coords t) ↔ (t.val / 8 < 4 ∨ 4 ≤ t.val % 8) :=
  (by decide +kernel : ∀ t : Fin grid0.N, condBlock (grid0.coords t) ↔ (t.val / 8 < 4 ∨ 4 ≤ t.val % 8))

/-- The accumulators are written out at this point: j = 7. -/
abbrev condOut (i : grid0.Coords) : Prop := k0_cond3 i = 1#1
theorem hcondOut : ∀ t : Fin cfg0.N, condOut (grid0.coords t) ↔ t.val % 8 = 7 :=
  (by decide +kernel : ∀ t : Fin grid0.N, condOut (grid0.coords t) ↔ t.val % 8 = 7)

end Cert.KernelIdeal.Hand

end
-- ==== Proof.KRuns.lean ====
/-
  The kernel body run once per control case. A grid point is in one of five cases of the three branch conditions
  (cleared / block computed / written out):
    A  j = 0, block computed        : the accumulators are cleared, then the block's sum is added;
    B  0 < j < 7, block computed    : the block's sum is added to what the point before left;
    C  j = 7                        : the same, and the accumulators are copied to the output blocks;
    D  j = 0, target-source block   : the accumulators are cleared only;
    E  0 < j < 4, target-source block : nothing is touched.
  Each run takes the buffers the case touches (the three input blocks where a block is computed, the accumulators, the
  output blocks in case C) and returns them, the stored-to buffers as the list of pieces written, last store first.
-/
import proofs.«152378_j46660524704258_2_alg».proof.Proof.KConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x1 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole)

set_option maxHeartbeats 1000000 in
/-- Case A: cleared, then accumulated. -/
noncomputable def runA (hc0 : condClear i) (hc1 : condBlock i) (hc2 : ¬condOut i)
    (x0 : Vec F S1x1 .f32) (x1 x2 : Vec F S1024x64 .f32) :
    Σ' (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__rbf_kernel_eq_skeleton]; unfold cc0__rbf_kernel_skel
    simp only [k0_part1_eq_skeleton]
    unfold owns
    iintro ⟨⟨%f0, %hf0, H0⟩, ⟨%f1, %hf1, H1⟩, ⟨%f2, %hf2, H2⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    isplitl [H9]; · iexists _; iexact H9
    iexists _; iexact H10

set_option maxHeartbeats 1000000 in
/-- Case B: accumulated onto what the point before left (xs0, xs1, xs2). -/
noncomputable def runB (hc0 : ¬condClear i) (hc1 : condBlock i) (hc2 : ¬condOut i)
    (x0 : Vec F S1x1 .f32) (x1 x2 : Vec F S1024x64 .f32) (xs0 xs1 xs2 : Vec F S8x128 .f32) :
    Σ' (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__rbf_kernel_eq_skeleton]; unfold cc0__rbf_kernel_skel
    simp only [k0_part1_eq_skeleton]
    unfold owns
    iintro ⟨⟨%f0, %hf0, H0⟩, ⟨%f1, %hf1, H1⟩, ⟨%f2, %hf2, H2⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg8.eq_unread hf8; obtain rfl := harg9.eq_unread hf9; obtain rfl := harg10.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    isplitl [H9]; · iexists _; iexact H9
    iexists _; iexact H10

set_option maxHeartbeats 1000000 in
/-- Case C: accumulated onto what the point before left, then copied to the three output blocks. -/
noncomputable def runC (hc0 : ¬condClear i) (hc1 : condBlock i) (hc2 : condOut i)
    (x0 : Vec F S1x1 .f32) (x1 x2 : Vec F S1024x64 .f32) (xs0 xs1 xs2 : Vec F S8x128 .f32) :
    Σ' (L5 : List (View.Piece (Elt F) S1x8x128 .f32)) (L6 : List (View.Piece (Elt F) S1x8x128 .f32)) (L7 : List (View.Piece (Elt F) S1x8x128 .f32)) (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__rbf_kernel_eq_skeleton]; unfold cc0__rbf_kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg8.eq_unread hf8; obtain rfl := harg9.eq_unread hf9; obtain rfl := harg10.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    isplitl [H8]; · iexists _; iexact H8
    isplitl [H9]; · iexists _; iexact H9
    iexists _; iexact H10

set_option maxHeartbeats 1000000 in
/-- Case D: cleared only. -/
noncomputable def runD (hc0 : condClear i) (hc1 : ¬condBlock i) (hc2 : ¬condOut i) :
    Σ' (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop((∃ d, owns (c : Thread nD τ) arg8 fullShare d) ∗ (∃ d, owns (c : Thread nD τ) arg9 fullShare d) ∗ (∃ d, owns (c : Thread nD τ) arg10 fullShare d)
            ∗ (iprop((∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__rbf_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__rbf_kernel_eq_skeleton]; unfold cc0__rbf_kernel_skel
    simp only [k0_part1_eq_skeleton]
    unfold owns
    iintro ⟨⟨%d8, %f8, -, H8⟩, ⟨%d9, %f9, -, H9⟩, ⟨%d10, %f10, -, H10⟩, Hk⟩
    sl_exec (disch := first | exact hc0 | exact hc1 | exact hc2)
    sl_step
    iapply Hk
    isplitl [H8]; · iexists _; iexact H8
    isplitl [H9]; · iexists _; iexact H9
    iexists _; iexact H10

set_option maxHeartbeats 1000000 in
/-- Case E: nothing is touched. -/
theorem runE (hc0 : ¬condClear i) (hc1 : ¬condBlock i) (hc2 : ¬condOut i) (E : Set ℕ) (K : PUnit → sProp 𝕄) :
    (K ⟨⟩ : sProp 𝕄) ⊢ wp frame (wpE (defs₀ (F := F)) Variants.none c none) E (cc0__rbf_kernel i arg2 harg2 arg3 harg3 arg4 harg4 arg5 harg5 arg6 harg6 arg7 harg7 arg8 harg8 arg9 harg9 arg10 harg10) K := by
  simp only [cc0__rbf_kernel_eq_skeleton]; unfold cc0__rbf_kernel_skel
  iintro Hk
  sl_exec (disch := first | exact hc0 | exact hc1 | exact hc2)
  sl_step
  iexact Hk

end Cert.KernelIdeal.Hand

end
-- ==== Proof.KData.lean ====
/-
  What the accumulators and the output blocks hold after each grid point, and the pipeline's proof data.

  The region finds its arrays at the contents V the host operations before it left. A window's block at a point is
  read off its array there (iblk). Running the body's case at a point, over the point's input blocks and over what the
  point before left in the three accumulators, leaves the accumulators (and at j = 7 the output blocks) at the
  case's stored pieces read back; stAt is that recursion over the 64 points. The invariant between points holds the
  three accumulators at stAt's contents (at anything before the first point).
-/
import proofs.«152378_j46660524704258_2_alg».proof.Proof.KRuns
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the blocks -/

/-- Core c's buffers at launch, as a valuation; -/
abbrev V₀ (c : Dev nD) : Valuation τ sig (Elt F) := fun b => m (c, b)
/-- and when the region is entered: the host operations before it have run. -/
abbrev V (c : Dev nD) (b : Ref sig .tc) : Buf (Elt F) ((c : Thread nD τ).loc b) := StableHlo.after hostOps0 (V₀ m c) (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with at a point -/

abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
abbrev scM0 : Memref sig .tc .vmem S8x128 .f32 := Memref.whole cc0_scratch0
abbrev scM1 : Memref sig .tc .vmem S8x128 .f32 := Memref.whole cc0_scratch1
abbrev scM2 : Memref sig .tc .vmem S8x128 .f32 := Memref.whole cc0_scratch2
/-- Views through which an accumulator's and an output block's contents are stated. -/
abbrev VS : View sig .tc .vmem S8x128 .f32 := scM0.view
abbrev VO : View sig .tc .vmem S1x8x128 .f32 := (Memref.whole cc0_stg3_0 : Memref sig .tc .vmem S1x8x128 .f32).view

/-- A list of pieces read back over unspecified contents. -/
abbrev rdS (L : List (View.Piece (Elt F) S8x128 .f32)) : Vec F S8x128 .f32 := VS.read (Elt F) (VS.writes (Elt F) VS.junk L)
abbrev rdO (L : List (View.Piece (Elt F) S1x8x128 .f32)) : Vec F S1x8x128 .f32 := VO.read (Elt F) (VO.writes (Elt F) VO.junk L)

/-- The accumulators and output blocks after a point. -/
structure St (F : FTy → Type) [FloatOps F] where
  o3 : Vec F S1x8x128 .f32
  o4 : Vec F S1x8x128 .f32
  o5 : Vec F S1x8x128 .f32
  s0 : Vec F S8x128 .f32
  s1 : Vec F S8x128 .f32
  s2 : Vec F S8x128 .f32

variable (c : Dev nD) (i : grid0.Coords) (arg2 : Memref sig .tc .vmem S1x1 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole)

/-! ## Each case's stores cover the buffers they are stored into, and what the case leaves -/

section caseA
variable (hc0 : condClear i) (hc1 : condBlock i) (hc2 : ¬condOut i) (x0 : Vec F S1x1 .f32) (x1 x2 : Vec F S1024x64 .f32)
theorem coverA0 (y : S8x128.Idx) : ∃ pc ∈ (runA c i arg2 harg2 arg3 harg3 arg4 harg4 arg5 harg5 arg6 harg6 arg7 harg7 arg8 harg8 arg9 harg9 arg10 harg10 hc0 hc1 hc2 x0 x1 x2).1, y ∈ pc.1.set :=
  View.cover_of_tiledL _ S8x128.size (by sl_kernel_rfl) y
theorem coverA1 (y : S8x128.Idx) : ∃ pc ∈ (runA c i arg2 harg2 arg3 harg3 arg4 harg4 arg5 harg5 arg6 harg6 arg7 harg7 arg8 harg8 arg9 harg9 arg10 harg10 hc0 hc1 hc2 x0 x1 x2).2.1, y ∈ pc.1.set :=
  View.cover_of_tiledL _ S8x128.size (by sl_kernel_rfl) y
theorem coverA2 (y : S8x128.Idx) : ∃ pc ∈ (runA c i arg2 harg2 arg3 harg3 arg4 harg4 arg5 harg5 arg6 harg6 arg7 harg7 arg8 harg8 arg9 harg9 arg10 harg10 hc0 hc1 hc2 x0 x1 x2).2.2.1, y ∈ pc.1.set :=
  View.cover_of_tiledL _ S8x128.size (by sl_kernel_rfl) y
/-- What case A leaves: the accumulators at its stores read back. -/
def resA : St F :=
  ⟨(rdO []), (rdO []), (rdO []), rdS (runA c i arg2 harg2 arg3 harg3 arg4 harg4 arg5 harg5 arg6 harg6 arg7 harg7 arg8 harg8 arg9 harg9 arg10 harg10 hc0 hc1 hc2 x0 x1 x2).1, rdS (runA c i arg2 harg2 arg3 harg3 arg4 harg4 arg5 harg5 arg6 harg6 arg7 harg7 arg8 harg8 arg9 harg9 arg10 harg10 hc0 hc1 hc2 x0 x1 x2).2.1, rdS (runA c i arg2 harg2 arg3 harg3 arg4 harg4 arg5 harg5 arg6 harg6 arg7 harg7 arg8 harg8 arg9 harg9 arg10 harg10 hc0 hc1 hc2 x0 x1 x2).2.2.1⟩
end caseA

section caseB
variable (hc0 : ¬condClear i) (hc1 : condBlock i) (hc2 : ¬condOut i) (x0 : Vec F S1x1 .f32) (x1 x2 : Vec F S1024x64 .f32) (xs0 xs1 xs2 : Vec F S8x128 .f32)
theorem coverB0 (y : S8x128.Idx) : ∃ pc ∈ (runB c i arg2 harg2 arg3 harg3 arg4 harg4 arg5 harg5 arg6 harg6 arg7 harg7 arg8 harg8 arg9 harg9 arg10 harg10 hc0 hc1 hc2 x0 x1 x2 xs0 xs1 xs2).1, y ∈ pc.1.set :=
  View.cover_of_tiledL _ S8x128.size (by sl_kernel_rfl) y
theorem coverB1 (y : S8x128.Idx) : ∃ pc ∈ (runB c i arg2 harg2 arg3 harg3 arg4 harg4 arg5 harg5 arg6 harg6 arg7 harg7 arg8 harg8 arg9 harg9 arg10 harg10 hc0 hc1 hc2 x0 x1 x2 xs0 xs1 xs2).2.1, y ∈ pc.1.set :=
  View.cover_of_tiledL _ S8x128.size (by sl_kernel_rfl) y
theorem coverB2 (y : S8x128.Idx) : ∃ pc ∈ (runB c i arg2 harg2 arg3 harg3 arg4 harg4 arg5 harg5 arg6 harg6 arg7 harg7 arg8 harg8 arg9 harg9 arg10 harg10 hc0 hc1 hc2 x0 x1 x2 xs0 xs1 xs2).2.2.1, y ∈ pc.1.set :=
  View.cover_of_tiledL _ S8x128.size (by sl_kernel_rfl) y
/-- What case B leaves. -/
def resB : St F :=
  ⟨(rdO []), (rdO []), (rdO []), rdS (runB c i arg2 harg2 arg3 harg3 arg4 harg4 arg5 harg5 arg6 harg6 arg7 harg7 arg8 harg8 arg9 harg9 arg10 harg10 hc0 hc1 hc2 x0 x1 x2 xs0 xs1 xs2).1, rdS (runB c i arg2 harg2 arg3 harg3 arg4 harg4 arg5 harg5 arg6 harg6 arg7 harg7 arg8 harg8 arg9 harg9 arg10 harg10 hc0 hc1 hc2 x0 x1 x2 xs0 xs1 xs2).2.1, rdS (runB c i arg2 harg2 arg3 harg3 arg4 harg4 arg5 harg5 arg6 harg6 arg7 harg7 arg8 harg8 arg9 harg9 arg10 harg10 hc0 hc1 hc2 x0 x1 x2 xs0 xs1 xs2).2.2.1⟩
end caseB

section caseC
variable (hc0 : ¬condClear i) (hc1 : condBlock i) (hc2 : condOut i) (x0 : Vec F S1x1 .f32) (x1 x2 : Vec F S1024x64 .f32) (xs0 xs1 xs2 : Vec F S8x128 .f32)
theorem coverC5 (y : S1x8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).1, y ∈ pc.1.set :=
  View.cover_of_tiledL _ S1x8x128.size (by sl_kernel_rfl) y
theorem coverC6 (y : S1x8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.1, y ∈ pc.1.set :=
  View.cover_of_tiledL _ S1x8x128.size (by sl_kernel_rfl) y
theorem coverC7 (y : S1x8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.1, y ∈ pc.1.set :=
  View.cover_of_tiledL _ S1x8x128.size (by sl_kernel_rfl) y
theorem coverC0 (y : S8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.2.1, y ∈ pc.1.set :=
  View.cover_of_tiledL _ S8x128.size (by sl_kernel_rfl) y
theorem coverC1 (y : S8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.2.2.1, y ∈ pc.1.set :=
  View.cover_of_tiledL _ S8x128.size (by sl_kernel_rfl) y
theorem coverC2 (y : S8x128.Idx) : ∃ pc ∈ (runC c i arg2 harg2 arg3 harg3 arg4 harg4 arg5 harg5 arg6 harg6 arg7 harg7 arg8 harg8 arg9 harg9 arg10 harg10 hc0 hc1 hc2 x0 x1 x2 xs0 xs1 xs2).2.2.2.2.2.1, y ∈ pc.1.set :=
  View.cover_of_tiledL _ S8x128.size (by sl_kernel_rfl) y
/-- What case C leaves: the output blocks and the accumulators at its stores read back. -/
def resC : St F :=
  ⟨rdO (runC c i arg2 harg2 arg3 harg3 arg4 harg4 arg5 harg5 arg6 harg6 arg7 harg7 arg8 harg8 arg9 harg9 arg10 harg10 hc0 hc1 hc2 x0 x1 x2 xs0 xs1 xs2).1, rdO (runC c i arg2 harg2 arg3 harg3 arg4 harg4 arg5 harg5 arg6 harg6 arg7 harg7 arg8 harg8 arg9 harg9 arg10 harg10 hc0 hc1 hc2 x0 x1 x2 xs0 xs1 xs2).2.1, rdO (runC c i arg2 harg2 arg3 harg3 arg4 harg4 arg5 harg5 arg6 harg6 arg7 harg7 arg8 harg8 arg9 harg9 arg10 harg10 hc0 hc1 hc2 x0 x1 x2 xs0 xs1 xs2).2.2.1,
   rdS (runC c i arg2 harg2 arg3 harg3 arg4 harg4 arg5 harg5 arg6 harg6 arg7 harg7 arg8 harg8 arg9 harg9 arg10 harg10 hc0 hc1 hc2 x0 x1 x2 xs0 xs1 xs2).2.2.2.1, rdS (runC c i arg2 harg2 arg3 harg3 arg4 harg4 arg5 harg5 arg6 harg6 arg7 harg7 arg8 harg8 arg9 harg9 arg10 harg10 hc0 hc1 hc2 x0 x1 x2 xs0 xs1 xs2).2.2.2.2.1, rdS (runC c i arg2 harg2 arg3 harg3 arg4 harg4 arg5 harg5 arg6 harg6 arg7 harg7 arg8 harg8 arg9 harg9 arg10 harg10 hc0 hc1 hc2 x0 x1 x2 xs0 xs1 xs2).2.2.2.2.2.1⟩
end caseC

section caseD
variable (hc0 : condClear i) (hc1 : ¬condBlock i) (hc2 : ¬condOut i)
theorem coverD0 (y : S8x128.Idx) : ∃ pc ∈ (runD (F := F) c i arg2 harg2 arg3 harg3 arg4 harg4 arg5 harg5 arg6 harg6 arg7 harg7 arg8 harg8 arg9 harg9 arg10 harg10 hc0 hc1 hc2).1, y ∈ pc.1.set :=
  View.cover_of_tiledL _ S8x128.size (by sl_kernel_rfl) y
theorem coverD1 (y : S8x128.Idx) : ∃ pc ∈ (runD (F := F) c i arg2 harg2 arg3 harg3 arg4 harg4 arg5 harg5 arg6 harg6 arg7 harg7 arg8 harg8 arg9 harg9 arg10 harg10 hc0 hc1 hc2).2.1, y ∈ pc.1.set :=
  View.cover_of_tiledL _ S8x128.size (by sl_kernel_rfl) y
theorem coverD2 (y : S8x128.Idx) : ∃ pc ∈ (runD (F := F) c i arg2 harg2 arg3 harg3 arg4 harg4 arg5 harg5 arg6 harg6 arg7 harg7 arg8 harg8 arg9 harg9 arg10 harg10 hc0 hc1 hc2).2.2.1, y ∈ pc.1.set :=
  View.cover_of_tiledL _ S8x128.size (by sl_kernel_rfl) y
/-- What case D leaves. -/
def resD : St F :=
  ⟨(rdO []), (rdO []), (rdO []), rdS (runD (F := F) c i arg2 harg2 arg3 harg3 arg4 harg4 arg5 harg5 arg6 harg6 arg7 harg7 arg8 harg8 arg9 harg9 arg10 harg10 hc0 hc1 hc2).1, rdS (runD (F := F) c i arg2 harg2 arg3 harg3 arg4 harg4 arg5 harg5 arg6 harg6 arg7 harg7 arg8 harg8 arg9 harg9 arg10 harg10 hc0 hc1 hc2).2.1, rdS (runD (F := F) c i arg2 harg2 arg3 harg3 arg4 harg4 arg5 harg5 arg6 harg6 arg7 harg7 arg8 harg8 arg9 harg9 arg10 harg10 hc0 hc1 hc2).2.2.1⟩
end caseD

/-- What case E leaves: the accumulators as the point before left them. -/
def resE (o : St F) : St F := ⟨(rdO []), (rdO []), (rdO []), o.s0, o.s1, o.s2⟩

/-! ## Point by point -/

/-- THE ACCUMULATION: what the accumulators and output blocks hold after the body at position n — the case the
    closed forms select there, run at the point's memrefs and input blocks over what position n - 1 left. -/
def stAt (c : Dev nD) : (n : ℕ) → n < cfg0.N → St F
  | 0, hn => resA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM0 (Memref.isWhole_whole _) scM1 (Memref.isWhole_whole _) scM2 (Memref.isWhole_whole _) ((hcondClear ⟨0, hn⟩).mpr (Nat.zero_mod 8)) ((hcondBlock ⟨0, hn⟩).mpr (Or.inl (by show (0 : ℕ) / 8 < 4; decide))) (fun h => absurd ((hcondOut ⟨0, hn⟩).mp h) (by show ¬(0 : ℕ) % 8 = 7; decide)) (iblk m c 0 ⟨0, hn⟩) (iblk m c 1 ⟨0, hn⟩) (iblk m c 2 ⟨0, hn⟩)
  | n + 1, hn =>
    if h0 : (n + 1) % 8 = 0 then
      if h1 : (n + 1) / 8 < 4 ∨ 4 ≤ (n + 1) % 8 then
        resA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) ((hcondClear ⟨n + 1, hn⟩).mpr h0) ((hcondBlock ⟨n + 1, hn⟩).mpr h1) (fun h => absurd ((hcondOut ⟨n + 1, hn⟩).mp h) (by (try dsimp only); omega)) (iblk m c 0 ⟨n + 1, hn⟩) (iblk m c 1 ⟨n + 1, hn⟩) (iblk m c 2 ⟨n + 1, hn⟩)
      else
        resD c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) ((hcondClear ⟨n + 1, hn⟩).mpr h0) (fun h => h1 ((hcondBlock ⟨n + 1, hn⟩).mp h)) (fun h => absurd ((hcondOut ⟨n + 1, hn⟩).mp h) (by (try dsimp only); omega))
    else
      if h1 : (n + 1) / 8 < 4 ∨ 4 ≤ (n + 1) % 8 then
        if h2 : (n + 1) % 8 = 7 then
          resC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) (fun h => h0 ((hcondClear ⟨n + 1, hn⟩).mp h)) ((hcondBlock ⟨n + 1, hn⟩).mpr h1) ((hcondOut ⟨n + 1, hn⟩).mpr h2) (iblk m c 0 ⟨n + 1, hn⟩) (iblk m c 1 ⟨n + 1, hn⟩) (iblk m c 2 ⟨n + 1, hn⟩) (stAt c n (Nat.lt_of_succ_lt hn)).s0 (stAt c n (Nat.lt_of_succ_lt hn)).s1 (stAt c n (Nat.lt_of_succ_lt hn)).s2
        else
          resB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM0 (Memref.isWhole_whole _) scM1 (Memref.isWhole_whole _) scM2 (Memref.isWhole_whole _) (fun h => h0 ((hcondClear ⟨n + 1, hn⟩).mp h)) ((hcondBlock ⟨n + 1, hn⟩).mpr h1) (fun h => h2 ((hcondOut ⟨n + 1, hn⟩).mp h)) (iblk m c 0 ⟨n + 1, hn⟩) (iblk m c 1 ⟨n + 1, hn⟩) (iblk m c 2 ⟨n + 1, hn⟩) (stAt c n (Nat.lt_of_succ_lt hn)).s0 (stAt c n (Nat.lt_of_succ_lt hn)).s1 (stAt c n (Nat.lt_of_succ_lt hn)).s2
      else
        resE (stAt c n (Nat.lt_of_succ_lt hn))

/-- stAt at a point of case A. -/
theorem stAt_A (c : Dev nD) (t : Fin cfg0.N) (h0 : t.val % 8 = 0) (h1 : t.val / 8 < 4 ∨ 4 ≤ t.val % 8) (h2 : ¬t.val % 8 = 7) :
    stAt m c t.val t.isLt = resA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) ((hcondClear t).mpr h0) ((hcondBlock t).mpr h1) (fun h => h2 ((hcondOut t).mp h)) (iblk m c 0 t) (iblk m c 1 t) (iblk m c 2 t) := by
  obtain ⟨n, hn⟩ := t
  cases n with
  | zero => exact rfl
  | succ n => exact (dif_pos h0).trans ((dif_pos h1).trans rfl)

/-- stAt at a point of case D. -/
theorem stAt_D (c : Dev nD) (t : Fin cfg0.N) (h0 : t.val % 8 = 0) (h1 : ¬(t.val / 8 < 4 ∨ 4 ≤ t.val % 8)) (h2 : ¬t.val % 8 = 7) :
    stAt m c t.val t.isLt = resD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) ((hcondClear t).mpr h0) (fun h => h1 ((hcondBlock t).mp h)) (fun h => h2 ((hcondOut t).mp h)) := by
  obtain ⟨n, hn⟩ := t
  cases n with
  | zero => exact absurd (Or.inl (by show (0 : ℕ) / 8 < 4; decide)) h1
  | succ n => exact (dif_pos h0).trans ((dif_neg h1).trans rfl)

/-- stAt at a point of case B, over what the point before left. -/
theorem stAt_B (c : Dev nD) (t : Fin cfg0.N) (h0 : ¬t.val % 8 = 0) (h1 : t.val / 8 < 4 ∨ 4 ≤ t.val % 8) (h2 : ¬t.val % 8 = 7) :
    stAt m c t.val t.isLt = resB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((hcondClear t).mp h)) ((hcondBlock t).mpr h1) (fun h => h2 ((hcondOut t).mp h)) (iblk m c 0 t) (iblk m c 1 t) (iblk m c 2 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 := by
  obtain ⟨n, hn⟩ := t
  cases n with
  | zero => exact absurd (Nat.zero_mod 8) h0
  | succ n => exact (dif_neg h0).trans ((dif_pos h1).trans ((dif_neg h2).trans rfl))

/-- stAt at a point of case C, over what the point before left. -/
theorem stAt_C (c : Dev nD) (t : Fin cfg0.N) (h0 : ¬t.val % 8 = 0) (h1 : t.val / 8 < 4 ∨ 4 ≤ t.val % 8) (h2 : t.val % 8 = 7) :
    stAt m c t.val t.isLt = resC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((hcondClear t).mp h)) ((hcondBlock t).mpr h1) ((hcondOut t).mpr h2) (iblk m c 0 t) (iblk m c 1 t) (iblk m c 2 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 := by
  obtain ⟨n, hn⟩ := t
  cases n with
  | zero => exact absurd (Nat.zero_mod 8) h0
  | succ n => exact (dif_neg h0).trans ((dif_pos h1).trans ((dif_pos h2).trans rfl))

/-- stAt at a point of case E: what the point before left. -/
theorem stAt_E (c : Dev nD) (t : Fin cfg0.N) (h0 : ¬t.val % 8 = 0) (h1 : ¬(t.val / 8 < 4 ∨ 4 ≤ t.val % 8)) :
    stAt m c t.val t.isLt = resE (stAt m c (t.val - 1) (Nat.lt_of_le_of_lt (Nat.sub_le _ _) t.isLt)) := by
  obtain ⟨n, hn⟩ := t
  cases n with
  | zero => exact absurd (Nat.zero_mod 8) h0
  | succ n => exact (dif_neg h0).trans ((dif_neg h1).trans rfl)

/-! ## The invariant between points -/

/-- The three accumulators, each at some contents: what the region boundary hands the kernel. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

/-- Before position n: at the start the accumulators at anything; afterwards at what position n - 1 left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (stAt m c n hn).s0 ∗ owns (c : Thread nD τ) scM1 fullShare (stAt m c n hn).s1 ∗ owns (c : Thread nD τ) scM2 fullShare (stAt m c n hn).s2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (stAt m c n hn).s0 ∗ owns (c : Thread nD τ) scM1 fullShare (stAt m c n hn).s1 ∗ owns (c : Thread nD τ) scM2 fullShare (stAt m c n hn).s2) := rfl

theorem PhiS_pos (c : Dev nD) (n : ℕ) (h : n ≤ cfg0.N) (hz : n ≠ 0) :
    PhiS m c n h = iprop(owns (c : Thread nD τ) scM0 fullShare (stAt m c (n - 1) (by omega)).s0 ∗ owns (c : Thread nD τ) scM1 fullShare (stAt m c (n - 1) (by omega)).s1 ∗ owns (c : Thread nD τ) scM2 fullShare (stAt m c (n - 1) (by omega)).s2) := by
  cases n with
  | zero => exact absurd rfl hz
  | succ n => rfl

/-! ## The pipeline's proof data -/

/-- The proof data on core c: the arrays as the region finds them; after the body each input's buffer at its block, the
    outputs' at stAt; the invariant PhiS; nothing owed; the array both row windows read held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).o3
    | ⟨4, _⟩ => (stAt m c t.val t.isLt).o4
    | ⟨5, _⟩ => (stAt m c t.val t.isLt).o5
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stAt m c t.val t.isLt).o3 := by dsimp only [dats]
theorem after4 (c : Dev nD) (t : Fin cfg0.N) : (dats m 0 c).after 4 t = (stAt m c t.val t.isLt).o4 := by dsimp only [dats]
theorem after5 (c : Dev nD) (t : Fin cfg0.N) : (dats m 0 c).after 5 t = (stAt m c t.val t.isLt).o5 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.KernelIdeal.Hand

end
-- ==== Proof.KPieces.lean ====
/-
  What each case's stores leave, as values: the stored pieces read back are the body's payloads of the buffers'
  contents. The block's contribution is the payload k0_pay10 of the two row blocks and the bandwidth factor; an
  accumulator ends at its previous contents plus that contribution where its quadrant's test holds (k0_pay4/5/6), from
  the cleared contents (k0_pay1/2/3) when j = 0; at j = 7 an output block is its accumulator recast (k0_pay7/8/9).
-/
import proofs.«152378_j46660524704258_2_alg».proof.Proof.KData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The source-source test (i < 4 and j < 4) and the target-target test (i >= 4 and j >= 4), as the body computes them. -/
def selXXb (i : grid0.Coords) : BitVec 1 := Scalar.andi (Scalar.cmpi .slt (BitVec.ofNat 32 (i 0).val) 4#32) (Scalar.cmpi .slt (BitVec.ofNat 32 (i 1).val) 4#32)
def selYYb (i : grid0.Coords) : BitVec 1 := Scalar.andi (Scalar.cmpi .sge (BitVec.ofNat 32 (i 0).val) 4#32) (Scalar.cmpi .sge (BitVec.ofNat 32 (i 1).val) 4#32)

variable (c : Dev nD) (i : grid0.Coords) (arg2 : Memref sig .tc .vmem S1x1 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole)

section caseB
variable (hc0 : ¬condClear i) (hc1 : condBlock i) (hc2 : ¬condOut i) (x0 : Vec F S1x1 .f32) (x1 x2 : Vec F S1024x64 .f32) (xs0 xs1 xs2 : Vec F S8x128 .f32)
set_option maxHeartbeats 1000000 in
theorem resB_s0 : (resB c i arg2 harg2 arg3 harg3 arg4 harg4 arg5 harg5 arg6 harg6 arg7 harg7 arg8 harg8 arg9 harg9 arg10 harg10 hc0 hc1 hc2 x0 x1 x2 xs0 xs1 xs2).s0 = k0_pay4 (k0_pay10 x1 x2 x0) k0_pay11 (selXXb i) xs0 := by
  show VS.read (Elt F) (VS.writes (Elt F) VS.junk (runB c i arg2 harg2 arg3 harg3 arg4 harg4 arg5 harg5 arg6 harg6 arg7 harg7 arg8 harg8 arg9 harg9 arg10 harg10 hc0 hc1 hc2 x0 x1 x2 xs0 xs1 xs2).1) = _
  rw [View.read_writes_eq_canon _ _ _ (coverB0 c i arg2 harg2 arg3 harg3 arg4 harg4 arg5 harg5 arg6 harg6 arg7 harg7 arg8 harg8 arg9 harg9 arg10 harg10 hc0 hc1 hc2 x0 x1 x2 xs0 xs1 xs2)]
  unfold runB
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resB_s1 : (resB c i arg2 harg2 arg3 harg3 arg4 harg4 arg5 harg5 arg6 harg6 arg7 harg7 arg8 harg8 arg9 harg9 arg10 harg10 hc0 hc1 hc2 x0 x1 x2 xs0 xs1 xs2).s1 = k0_pay5 (k0_pay10 x1 x2 x0) k0_pay11 (selYYb i) xs1 := by
  show VS.read (Elt F) (VS.writes (Elt F) VS.junk (runB c i arg2 harg2 arg3 harg3 arg4 harg4 arg5 harg5 arg6 harg6 arg7 harg7 arg8 harg8 arg9 harg9 arg10 harg10 hc0 hc1 hc2 x0 x1 x2 xs0 xs1 xs2).2.1) = _
  rw [View.read_writes_eq_canon _ _ _ (coverB1 c i arg2 harg2 arg3 harg3 arg4 harg4 arg5 harg5 arg6 harg6 arg7 harg7 arg8 harg8 arg9 harg9 arg10 harg10 hc0 hc1 hc2 x0 x1 x2 xs0 xs1 xs2)]
  unfold runB
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resB_s2 : (resB c i arg2 harg2 arg3 harg3 arg4 harg4 arg5 harg5 arg6 harg6 arg7 harg7 arg8 harg8 arg9 harg9 arg10 harg10 hc0 hc1 hc2 x0 x1 x2 xs0 xs1 xs2).s2 = k0_pay6 i (k0_pay10 x1 x2 x0) k0_pay11 4#32 xs2 := by
  show VS.read (Elt F) (VS.writes (Elt F) VS.junk (runB c i arg2 harg2 arg3 harg3 arg4 harg4 arg5 harg5 arg6 harg6 arg7 harg7 arg8 harg8 arg9 harg9 arg10 harg10 hc0 hc1 hc2 x0 x1 x2 xs0 xs1 xs2).2.2.1) = _
  rw [View.read_writes_eq_canon _ _ _ (coverB2 c i arg2 harg2 arg3 harg3 arg4 harg4 arg5 harg5 arg6 harg6 arg7 harg7 arg8 harg8 arg9 harg9 arg10 harg10 hc0 hc1 hc2 x0 x1 x2 xs0 xs1 xs2)]
  unfold runB
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
end caseB

section caseC
variable (hc0 : ¬condClear i) (hc1 : condBlock i) (hc2 : condOut i) (x0 : Vec F S1x1 .f32) (x1 x2 : Vec F S1024x64 .f32) (xs0 xs1 xs2 : Vec F S8x128 .f32)
set_option maxHeartbeats 1000000 in
theorem resC_s0 : (resC c i arg2 harg2 arg3 harg3 arg4 harg4 arg5 harg5 arg6 harg6 arg7 harg7 arg8 harg8 arg9 harg9 arg10 harg10 hc0 hc1 hc2 x0 x1 x2 xs0 xs1 xs2).s0 = k0_pay4 (k0_pay10 x1 x2 x0) k0_pay11 (selXXb i) xs0 := by
  show VS.read (Elt F) (VS.writes (Elt F) VS.junk (runC c i arg2 harg2 arg3 harg3 arg4 harg4 arg5 harg5 arg6 harg6 arg7 harg7 arg8 harg8 arg9 harg9 arg10 harg10 hc0 hc1 hc2 x0 x1 x2 xs0 xs1 xs2).2.2.2.1) = _
  rw [View.read_writes_eq_canon _ _ _ (coverC0 c i arg2 harg2 arg3 harg3 arg4 harg4 arg5 harg5 arg6 harg6 arg7 harg7 arg8 harg8 arg9 harg9 arg10 harg10 hc0 hc1 hc2 x0 x1 x2 xs0 xs1 xs2)]
  unfold runC
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resC_s1 : (resC c i arg2 harg2 arg3 harg3 arg4 harg4 arg5 harg5 arg6 harg6 arg7 harg7 arg8 harg8 arg9 harg9 arg10 harg10 hc0 hc1 hc2 x0 x1 x2 xs0 xs1 xs2).s1 = k0_pay5 (k0_pay10 x1 x2 x0) k0_pay11 (selYYb i) xs1 := by
  show VS.read (Elt F) (VS.writes (Elt F) VS.junk (runC c i arg2 harg2 arg3 harg3 arg4 harg4 arg5 harg5 arg6 harg6 arg7 harg7 arg8 harg8 arg9 harg9 arg10 harg10 hc0 hc1 hc2 x0 x1 x2 xs0 xs1 xs2).2.2.2.2.1) = _
  rw [View.read_writes_eq_canon _ _ _ (coverC1 c i arg2 harg2 arg3 harg3 arg4 harg4 arg5 harg5 arg6 harg6 arg7 harg7 arg8 harg8 arg9 harg9 arg10 harg10 hc0 hc1 hc2 x0 x1 x2 xs0 xs1 xs2)]
  unfold runC
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resC_s2 : (resC c i arg2 harg2 arg3 harg3 arg4 harg4 arg5 harg5 arg6 harg6 arg7 harg7 arg8 harg8 arg9 harg9 arg10 harg10 hc0 hc1 hc2 x0 x1 x2 xs0 xs1 xs2).s2 = k0_pay6 i (k0_pay10 x1 x2 x0) k0_pay11 4#32 xs2 := by
  show VS.read (Elt F) (VS.writes (Elt F) VS.junk (runC c i arg2 harg2 arg3 harg3 arg4 harg4 arg5 harg5 arg6 harg6 arg7 harg7 arg8 harg8 arg9 harg9 arg10 harg10 hc0 hc1 hc2 x0 x1 x2 xs0 xs1 xs2).2.2.2.2.2.1) = _
  rw [View.read_writes_eq_canon _ _ _ (coverC2 c i arg2 harg2 arg3 harg3 arg4 harg4 arg5 harg5 arg6 harg6 arg7 harg7 arg8 harg8 arg9 harg9 arg10 harg10 hc0 hc1 hc2 x0 x1 x2 xs0 xs1 xs2)]
  unfold runC
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resC_o3 : (resC c i arg2 harg2 arg3 harg3 arg4 harg4 arg5 harg5 arg6 harg6 arg7 harg7 arg8 harg8 arg9 harg9 arg10 harg10 hc0 hc1 hc2 x0 x1 x2 xs0 xs1 xs2).o3 = k0_pay7 (k0_pay4 (k0_pay10 x1 x2 x0) k0_pay11 (selXXb i) xs0) := by
  show VO.read (Elt F) (VO.writes (Elt F) VO.junk (runC c i arg2 harg2 arg3 harg3 arg4 harg4 arg5 harg5 arg6 harg6 arg7 harg7 arg8 harg8 arg9 harg9 arg10 harg10 hc0 hc1 hc2 x0 x1 x2 xs0 xs1 xs2).1) = _
  rw [View.read_writes_eq_canon _ _ _ (coverC5 c i arg2 harg2 arg3 harg3 arg4 harg4 arg5 harg5 arg6 harg6 arg7 harg7 arg8 harg8 arg9 harg9 arg10 harg10 hc0 hc1 hc2 x0 x1 x2 xs0 xs1 xs2)]
  unfold runC
  dsimp only
  sl_unfold_words
  rw [View.canon_unit_zero hz3]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resC_o4 : (resC c i arg2 harg2 arg3 harg3 arg4 harg4 arg5 harg5 arg6 harg6 arg7 harg7 arg8 harg8 arg9 harg9 arg10 harg10 hc0 hc1 hc2 x0 x1 x2 xs0 xs1 xs2).o4 = k0_pay8 (k0_pay5 (k0_pay10 x1 x2 x0) k0_pay11 (selYYb i) xs1) := by
  show VO.read (Elt F) (VO.writes (Elt F) VO.junk (runC c i arg2 harg2 arg3 harg3 arg4 harg4 arg5 harg5 arg6 harg6 arg7 harg7 arg8 harg8 arg9 harg9 arg10 harg10 hc0 hc1 hc2 x0 x1 x2 xs0 xs1 xs2).2.1) = _
  rw [View.read_writes_eq_canon _ _ _ (coverC6 c i arg2 harg2 arg3 harg3 arg4 harg4 arg5 harg5 arg6 harg6 arg7 harg7 arg8 harg8 arg9 harg9 arg10 harg10 hc0 hc1 hc2 x0 x1 x2 xs0 xs1 xs2)]
  unfold runC
  dsimp only
  sl_unfold_words
  rw [View.canon_unit_zero hz3]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resC_o5 : (resC c i arg2 harg2 arg3 harg3 arg4 harg4 arg5 harg5 arg6 harg6 arg7 harg7 arg8 harg8 arg9 harg9 arg10 harg10 hc0 hc1 hc2 x0 x1 x2 xs0 xs1 xs2).o5 = k0_pay9 (k0_pay6 i (k0_pay10 x1 x2 x0) k0_pay11 4#32 xs2) := by
  show VO.read (Elt F) (VO.writes (Elt F) VO.junk (runC c i arg2 harg2 arg3 harg3 arg4 harg4 arg5 harg5 arg6 harg6 arg7 harg7 arg8 harg8 arg9 harg9 arg10 harg10 hc0 hc1 hc2 x0 x1 x2 xs0 xs1 xs2).2.2.1) = _
  rw [View.read_writes_eq_canon _ _ _ (coverC7 c i arg2 harg2 arg3 harg3 arg4 harg4 arg5 harg5 arg6 harg6 arg7 harg7 arg8 harg8 arg9 harg9 arg10 harg10 hc0 hc1 hc2 x0 x1 x2 xs0 xs1 xs2)]
  unfold runC
  dsimp only
  sl_unfold_words
  rw [View.canon_unit_zero hz3]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
end caseC

section caseA
variable (hc0 : condClear i) (hc1 : condBlock i) (hc2 : ¬condOut i) (x0 : Vec F S1x1 .f32) (x1 x2 : Vec F S1024x64 .f32)
set_option maxHeartbeats 1000000 in
theorem resA_s0 : (resA c i arg2 harg2 arg3 harg3 arg4 harg4 arg5 harg5 arg6 harg6 arg7 harg7 arg8 harg8 arg9 harg9 arg10 harg10 hc0 hc1 hc2 x0 x1 x2).s0 = k0_pay4 (k0_pay10 x1 x2 x0) k0_pay11 (selXXb i) k0_pay1 := by
  show VS.read (Elt F) (VS.writes (Elt F) VS.junk (runA c i arg2 harg2 arg3 harg3 arg4 harg4 arg5 harg5 arg6 harg6 arg7 harg7 arg8 harg8 arg9 harg9 arg10 harg10 hc0 hc1 hc2 x0 x1 x2).1) = _
  rw [View.read_writes_eq_canon _ _ _ (coverA0 c i arg2 harg2 arg3 harg3 arg4 harg4 arg5 harg5 arg6 harg6 arg7 harg7 arg8 harg8 arg9 harg9 arg10 harg10 hc0 hc1 hc2 x0 x1 x2)]
  unfold runA
  dsimp only
  sl_unfold_words
  rw [View.canon_cons_unit_zero (S := S8x128) hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resA_s1 : (resA c i arg2 harg2 arg3 harg3 arg4 harg4 arg5 harg5 arg6 harg6 arg7 harg7 arg8 harg8 arg9 harg9 arg10 harg10 hc0 hc1 hc2 x0 x1 x2).s1 = k0_pay5 (k0_pay10 x1 x2 x0) k0_pay11 (selYYb i) k0_pay2 := by
  show VS.read (Elt F) (VS.writes (Elt F) VS.junk (runA c i arg2 harg2 arg3 harg3 arg4 harg4 arg5 harg5 arg6 harg6 arg7 harg7 arg8 harg8 arg9 harg9 arg10 harg10 hc0 hc1 hc2 x0 x1 x2).2.1) = _
  rw [View.read_writes_eq_canon _ _ _ (coverA1 c i arg2 harg2 arg3 harg3 arg4 harg4 arg5 harg5 arg6 harg6 arg7 harg7 arg8 harg8 arg9 harg9 arg10 harg10 hc0 hc1 hc2 x0 x1 x2)]
  unfold runA
  dsimp only
  sl_unfold_words
  rw [View.canon_cons_unit_zero (S := S8x128) hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resA_s2 : (resA c i arg2 harg2 arg3 harg3 arg4 harg4 arg5 harg5 arg6 harg6 arg7 harg7 arg8 harg8 arg9 harg9 arg10 harg10 hc0 hc1 hc2 x0 x1 x2).s2 = k0_pay6 i (k0_pay10 x1 x2 x0) k0_pay11 4#32 k0_pay3 := by
  show VS.read (Elt F) (VS.writes (Elt F) VS.junk (runA c i arg2 harg2 arg3 harg3 arg4 harg4 arg5 harg5 arg6 harg6 arg7 harg7 arg8 harg8 arg9 harg9 arg10 harg10 hc0 hc1 hc2 x0 x1 x2).2.2.1) = _
  rw [View.read_writes_eq_canon _ _ _ (coverA2 c i arg2 harg2 arg3 harg3 arg4 harg4 arg5 harg5 arg6 harg6 arg7 harg7 arg8 harg8 arg9 harg9 arg10 harg10 hc0 hc1 hc2 x0 x1 x2)]
  unfold runA
  dsimp only
  sl_unfold_words
  rw [View.canon_cons_unit_zero (S := S8x128) hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
end caseA

section caseD
variable (hc0 : condClear i) (hc1 : ¬condBlock i) (hc2 : ¬condOut i)
set_option maxHeartbeats 1000000 in
theorem resD_s0 : (resD (F := F) c i arg2 harg2 arg3 harg3 arg4 harg4 arg5 harg5 arg6 harg6 arg7 harg7 arg8 harg8 arg9 harg9 arg10 harg10 hc0 hc1 hc2).s0 = k0_pay1 := by
  show VS.read (Elt F) (VS.writes (Elt F) VS.junk (runD (F := F) c i arg2 harg2 arg3 harg3 arg4 harg4 arg5 harg5 arg6 harg6 arg7 harg7 arg8 harg8 arg9 harg9 arg10 harg10 hc0 hc1 hc2).1) = _
  rw [View.read_writes_eq_canon _ _ _ (coverD0 c i arg2 harg2 arg3 harg3 arg4 harg4 arg5 harg5 arg6 harg6 arg7 harg7 arg8 harg8 arg9 harg9 arg10 harg10 hc0 hc1 hc2)]
  unfold runD
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resD_s1 : (resD (F := F) c i arg2 harg2 arg3 harg3 arg4 harg4 arg5 harg5 arg6 harg6 arg7 harg7 arg8 harg8 arg9 harg9 arg10 harg10 hc0 hc1 hc2).s1 = k0_pay2 := by
  show VS.read (Elt F) (VS.writes (Elt F) VS.junk (runD (F := F) c i arg2 harg2 arg3 harg3 arg4 harg4 arg5 harg5 arg6 harg6 arg7 harg7 arg8 harg8 arg9 harg9 arg10 harg10 hc0 hc1 hc2).2.1) = _
  rw [View.read_writes_eq_canon _ _ _ (coverD1 c i arg2 harg2 arg3 harg3 arg4 harg4 arg5 harg5 arg6 harg6 arg7 harg7 arg8 harg8 arg9 harg9 arg10 harg10 hc0 hc1 hc2)]
  unfold runD
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
set_option maxHeartbeats 1000000 in
theorem resD_s2 : (resD (F := F) c i arg2 harg2 arg3 harg3 arg4 harg4 arg5 harg5 arg6 harg6 arg7 harg7 arg8 harg8 arg9 harg9 arg10 harg10 hc0 hc1 hc2).s2 = k0_pay3 := by
  show VS.read (Elt F) (VS.writes (Elt F) VS.junk (runD (F := F) c i arg2 harg2 arg3 harg3 arg4 harg4 arg5 harg5 arg6 harg6 arg7 harg7 arg8 harg8 arg9 harg9 arg10 harg10 hc0 hc1 hc2).2.2.1) = _
  rw [View.read_writes_eq_canon _ _ _ (coverD2 c i arg2 harg2 arg3 harg3 arg4 harg4 arg5 harg5 arg6 harg6 arg7 harg7 arg8 harg8 arg9 harg9 arg10 harg10 hc0 hc1 hc2)]
  unfold runD
  dsimp only
  sl_unfold_words
  rw [View.canon_unit_zero hz2]
  (try simp only [View.readCov_unit_zero (S := S8x128) _ hz2, View.readAt_eq_ld, harg2.read_unread, harg3.read_unread, harg4.read_unread, harg8.read_unread, harg9.read_unread, harg10.read_unread, View.ld_unit_zero (S := S8x128) hz2, View.ld_unit_zero (S := S1024x64) hz2, View.ld_unit_zero (S := S1x1) hz2])
  (try rfl)
end caseD

end Cert.KernelIdeal.Hand

end
-- ==== Proof.KAcc1.lean ====
/-
  The body's small payloads read at an index, with floats read as exact extended reals, and the windows' blocks as
  reads of their arrays.

  An accumulator after a computed block is its previous entry plus the block's sum where the quadrant's test holds and
  plus zero where it does not; the cleared accumulators are zero; an output block's entry is its accumulator's. The three
  quadrant tests are decided over the 64 grid points t = 8 i + j: source-source is i < 4 and j < 4, target-target is
  i >= 4 and j >= 4, source-target is i < 4 and j >= 4. Row r of the first row window's block at point t is row
  (t / 8) * 1024 + r of the data, of the second row window's block row (t % 8) * 1024 + r; the (1,1) window is the whole
  (1,1) array; an output window's block at point t is row t / 8 of its (8, 8, 128) array.
-/
import proofs.«152378_j46660524704258_2_alg».proof.Proof.KPieces
import proofs.«152378_j46660524704258_2_alg».proof.Proof.RbfSpec
import proofs.«152378_j46660524704258_2_alg».proof.Proof.RbfConsts
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Proof.Rbf
open scoped BigOperators

/-! ## The quadrant tests, decided over the grid -/

/-- The source-target test (i < 4 and j >= 4), as the body computes it inside its third accumulator's payload. -/
def selXYb (i : grid0.Coords) : BitVec 1 := Scalar.andi (Scalar.cmpi .slt (BitVec.ofNat 32 (i 0).val) 4#32) (Scalar.cmpi .sge (BitVec.ofNat 32 (i 1).val) 4#32)

theorem hselXX : ∀ t : Fin cfg0.N, selXXb (grid0.coords t) = 1#1 ↔ (t.val / 8 < 4 ∧ t.val % 8 < 4) :=
  (by decide +kernel : ∀ t : Fin grid0.N, selXXb (grid0.coords t) = 1#1 ↔ (t.val / 8 < 4 ∧ t.val % 8 < 4))
theorem hselYY : ∀ t : Fin cfg0.N, selYYb (grid0.coords t) = 1#1 ↔ (4 ≤ t.val / 8 ∧ 4 ≤ t.val % 8) :=
  (by decide +kernel : ∀ t : Fin grid0.N, selYYb (grid0.coords t) = 1#1 ↔ (4 ≤ t.val / 8 ∧ 4 ≤ t.val % 8))
theorem hselXY : ∀ t : Fin cfg0.N, selXYb (grid0.coords t) = 1#1 ↔ (t.val / 8 < 4 ∧ 4 ≤ t.val % 8) :=
  (by decide +kernel : ∀ t : Fin grid0.N, selXYb (grid0.coords t) = 1#1 ↔ (t.val / 8 < 4 ∧ 4 ≤ t.val % 8))

/-! ## The small payloads at an index -/

theorem pay1_apply (j : S8x128.Idx) : k0_pay1 (F := Ideal) j = ((0 : ℝ) : EReal) := by
  unfold k0_pay1; rw [shapeCast_self]; exact ofBits_0
theorem pay2_apply (j : S8x128.Idx) : k0_pay2 (F := Ideal) j = ((0 : ℝ) : EReal) := by
  unfold k0_pay2; rw [shapeCast_self]; exact ofBits_0
theorem pay3_apply (j : S8x128.Idx) : k0_pay3 (F := Ideal) j = ((0 : ℝ) : EReal) := by
  unfold k0_pay3; rw [shapeCast_self]; exact ofBits_0
theorem pay11_apply (j : S8x128.Idx) : k0_pay11 (F := Ideal) j = ((0 : ℝ) : EReal) := by
  unfold k0_pay11; exact ofBits_0

/-- A whole-vector select on a scalar test, at an index. -/
theorem sel_apply (b : BitVec 1) (u v : S8x128.Idx → EReal) (j : S8x128.Idx) :
    (Scalar.select b u v) j = if b = 1#1 then u j else v j := by
  unfold Scalar.select
  by_cases h : b = 1#1
  · have h' : b = 1 := h
    rw [if_pos h', if_pos h]
  · have h' : ¬b = 1 := h
    rw [if_neg h', if_neg h]

theorem pay4_apply (v44 v45 : FVec Ideal S8x128 .f32) (b : BitVec 1) (v55 : Vec Ideal S8x128 .f32) (j : S8x128.Idx) :
    k0_pay4 (F := Ideal) v44 v45 b v55 j = v55 j + (if b = 1#1 then v44 j else v45 j) := by
  unfold k0_pay4; rw [shapeCast_self]
  show v55 j + (Scalar.select b v44 v45) j = _
  rw [sel_apply]
theorem pay5_apply (v44 v45 : FVec Ideal S8x128 .f32) (b : BitVec 1) (v61 : Vec Ideal S8x128 .f32) (j : S8x128.Idx) :
    k0_pay5 (F := Ideal) v44 v45 b v61 j = v61 j + (if b = 1#1 then v44 j else v45 j) := by
  unfold k0_pay5; rw [shapeCast_self]
  show v61 j + (Scalar.select b v44 v45) j = _
  rw [sel_apply]
theorem pay6_apply (i : grid0.Coords) (v44 v45 : FVec Ideal S8x128 .f32) (v67 : Vec Ideal S8x128 .f32) (j : S8x128.Idx) :
    k0_pay6 (F := Ideal) i v44 v45 4#32 v67 j = v67 j + (if selXYb i = 1#1 then v44 j else v45 j) := by
  unfold k0_pay6; rw [shapeCast_self]
  show v67 j + (Scalar.select (selXYb i) v44 v45) j = _
  rw [sel_apply]

/-- An output block's entry is its accumulator's. -/
theorem pay7_apply (v : Vec Ideal S8x128 .f32) (z : Fin 1) (a : Fin 8) (b : Fin 128) : k0_pay7 (F := Ideal) v (ix3 z a b) = v (ix2 a b) := by
  unfold k0_pay7
  refine shapeCast_apply v _ (ix3 z a b) (ix2 a b) ?_
  rw [Shape.rowMajor_val_two, Shape.rowMajor_val_three]
  have hz : z.val = 0 := by omega
  show a.val * 128 + b.val = (z.val * 8 + a.val) * 128 + b.val
  omega
theorem pay8_apply (v : Vec Ideal S8x128 .f32) (z : Fin 1) (a : Fin 8) (b : Fin 128) : k0_pay8 (F := Ideal) v (ix3 z a b) = v (ix2 a b) := by
  unfold k0_pay8
  refine shapeCast_apply v _ (ix3 z a b) (ix2 a b) ?_
  rw [Shape.rowMajor_val_two, Shape.rowMajor_val_three]
  have hz : z.val = 0 := by omega
  show a.val * 128 + b.val = (z.val * 8 + a.val) * 128 + b.val
  omega
theorem pay9_apply (v : Vec Ideal S8x128 .f32) (z : Fin 1) (a : Fin 8) (b : Fin 128) : k0_pay9 (F := Ideal) v (ix3 z a b) = v (ix2 a b) := by
  unfold k0_pay9
  refine shapeCast_apply v _ (ix3 z a b) (ix2 a b) ?_
  rw [Shape.rowMajor_val_two, Shape.rowMajor_val_three]
  have hz : z.val = 0 := by omega
  show a.val * 128 + b.val = (z.val * 8 + a.val) * 128 + b.val
  omega

/-! ## The windows' blocks -/

theorem idxw0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idxw1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem idxw2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idxw3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)
theorem idxw4 : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)
theorem idxw5 : ∀ t : Fin cfg0.N, win0_5.index t (0 : Fin 3) = t.val / 8 ∧ win0_5.index t (1 : Fin 3) = 0 ∧ win0_5.index t (2 : Fin 3) = 0 :=
  (by decide +kernel : ∀ t : Fin grid0.N, win0_5.index t (0 : Fin 3) = t.val / 8 ∧ win0_5.index t (1 : Fin 3) = 0 ∧ win0_5.index t (2 : Fin 3) = 0)

variable (m : (ℓ : Loc nD τ sig) → Buf (Elt Ideal) ℓ)

/-- The (1,1) window's block is the (1,1) array. -/
theorem iblk0_apply (c : Dev nD) (t : Fin cfg0.N) : (iblk m c 0 t : Vec Ideal S1x1 .f32) (ix2 0 0) = V m c main_v13 (ix2 0 0) := by
  unfold iblk
  rw [View.read_apply]
  show V m c main_v13 _ = V m c main_v13 _
  congr 1
  funext a
  apply Fin.ext
  match a with
  | ⟨0, _⟩ => show win0_0.index t (0 : Fin 2) * 1 + 1 * 0 = 0; rw [(idxw0 t).1]
  | ⟨1, _⟩ => show win0_0.index t (1 : Fin 2) * 1 + 1 * 0 = 0; rw [(idxw0 t).2]

/-- Row r of the first row window's block at point t is row (t / 8) * 1024 + r of the data. -/
theorem iblk1_apply (c : Dev nD) (t : Fin cfg0.N) (r : Fin 1024) (k : Fin 64) (p : Fin 8192) (hp : p.val = t.val / 8 * 1024 + r.val) :
    (iblk m c 1 t : Vec Ideal S1024x64 .f32) (ix2 r k) = V m c main_v0 (ix2 p k) := by
  unfold iblk
  rw [View.read_apply]
  show V m c main_v0 _ = V m c main_v0 _
  congr 1
  funext a
  apply Fin.ext
  match a with
  | ⟨0, _⟩ => show win0_1.index t (0 : Fin 2) * 1024 + 1 * r.val = p.val; rw [(idxw1 t).1, hp]; omega
  | ⟨1, _⟩ => show win0_1.index t (1 : Fin 2) * 64 + 1 * k.val = k.val; rw [(idxw1 t).2]; omega

/-- Row r of the second row window's block at point t is row (t % 8) * 1024 + r of the data. -/
theorem iblk2_apply (c : Dev nD) (t : Fin cfg0.N) (r : Fin 1024) (k : Fin 64) (p : Fin 8192) (hp : p.val = t.val % 8 * 1024 + r.val) :
    (iblk m c 2 t : Vec Ideal S1024x64 .f32) (ix2 r k) = V m c main_v0 (ix2 p k) := by
  unfold iblk
  rw [View.read_apply]
  show V m c main_v0 _ = V m c main_v0 _
  congr 1
  funext a
  apply Fin.ext
  match a with
  | ⟨0, _⟩ => show win0_2.index t (0 : Fin 2) * 1024 + 1 * r.val = p.val; rw [(idxw2 t).1, hp]; omega
  | ⟨1, _⟩ => show win0_2.index t (1 : Fin 2) * 64 + 1 * k.val = k.val; rw [(idxw2 t).2]; omega

end Cert.KernelIdeal.Hand

end
-- ==== Proof.KerValue.lean ====
/-
  The blocked program's arithmetic, read at the exact-real instance (a float an extended real, every operation exact,
  a change of format the identity).

  Three readings, each at an index given by coordinates.
  • The rows: the two arguments, holding rows 0 … 4095 and rows 4096 … 8191 of a real matrix X with 64 columns, laid one
    after the other along the rows, are X.
  • The bandwidth factor: the scalar handed to every block is −1 / bwKer X b0, where the bandwidth is
    (16384 · Σ_p Σ_k X(p,k)² − 2 · Σ_k (Σ_p X(p,k))²) / 67100672 / 1 floored at b0 > 0, so that every division is a
    division of reals by a real that is not zero.
  • The block payload: for two blocks of 1024 rows with real entries A and B and a real factor ninv, every entry of the
    value the block adds to its accumulators is
        Σ_r Σ_c exp (max (|A_r|² + |B_c|² − 2 ⟨A_r, B_c⟩) 0 · ninv),
    the squared norms being row sums of squares, the inner products the entries of the product of the first block with
    the transpose of the second into a zero accumulator.
-/
import proofs.«152378_j46660524704258_2_alg».proof.Proof.Gen.KernelIdeal.Skeleton
import proofs.«152378_j46660524704258_2_alg».proof.Proof.Gen.KernelIdeal.Launch
import proofs.«152378_j46660524704258_2_alg».proof.Proof.RbfSpec
import proofs.«152378_j46660524704258_2_alg».proof.Proof.RbfConsts
import proofs.«152378_j46660524704258_2_alg».proof.Proof.LibTotalSum
import proofs.«152378_j46660524704258_2_alg».proof.Proof.LibPlainMatmul
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Run

noncomputable section

namespace Cert.Proof.KerValue

open Idealize.ShloMosaic Idealize.ShloMosaic.ValueIdx
open Cert.KernelIdeal Cert.KernelIdeal.Gen Cert.Proof.Rbf
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with max. -/
theorem coe_max (x y : ℝ) : ((max x y : ℝ) : EReal) = max (x : EReal) (y : EReal) :=
  EReal.coe_strictMono.monotone.map_max

/-- The quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-! ## The rows -/

/-- The data laid out: the two arguments one after the other along the rows. -/
theorem v0_eq (V0 : Valuation τ sig (Elt Ideal)) :
    StableHlo.after (hostOps0 (F := Ideal)) V0 (Proc.devRef .tc main_v0)
      = concatenate S8192x64 0 [⟨S4096x64, V0 (Proc.devRef .tc main_arg0)⟩, ⟨S4096x64, V0 (Proc.devRef .tc main_arg1)⟩]
          concatenates_S4096x64_S4096x64_S8192x64_d0 := by
  dsimp only [hostOps0]
  after_results

/-- The two arguments laid one after the other along the rows are X. -/
theorem rows_apply (X : Fin 8192 → Fin 64 → ℝ) (V0 : Valuation τ sig (Elt Ideal))
    (h0 : ∀ (a : Fin 4096) (k : Fin 64), V0 (Proc.devRef .tc main_arg0) (ix2 a k) = ((X (lo a) k : ℝ) : EReal))
    (h1 : ∀ (a : Fin 4096) (k : Fin 64), V0 (Proc.devRef .tc main_arg1) (ix2 a k) = ((X (hi a) k : ℝ) : EReal))
    (p : Fin 8192) (k : Fin 64) :
    StableHlo.after (hostOps0 (F := Ideal)) V0 (Proc.devRef .tc main_v0) (ix2 p k) = ((X p k : ℝ) : EReal) := by
  rw [v0_eq]
  by_cases hp : p.val < 4096
  · rw [concatenate_pair_apply_left (t := S8192x64) (s₁ := S4096x64) (s₂ := S4096x64) (0 : Fin 2) _ _ _ (ix2 p k) rfl
      (ix2 (⟨p.val, hp⟩ : Fin 4096) k) (fun b => match b with | ⟨0, _⟩ => rfl | ⟨1, _⟩ => rfl)]
    rw [h0]
    rfl
  · have hp' : p.val - 4096 < 4096 := by have := p.isLt; omega
    have hcoord : ∀ b : Fin S4096x64.rank, b.cast (rfl : S4096x64.rank = S8192x64.rank) ≠ (0 : Fin 2) →
        ((ix2 (⟨p.val - 4096, hp'⟩ : Fin 4096) k : S4096x64.Idx) b).val
          = ((ix2 p k : S8192x64.Idx) (b.cast (rfl : S4096x64.rank = S8192x64.rank))).val := by
      intro b hb
      have hlt : b.val < 2 := b.isLt
      have hne : b.val ≠ 0 := fun h => hb (Fin.ext h)
      have hb1 : b = ⟨1, by decide⟩ := Fin.ext (by show b.val = 1; omega)
      subst hb1
      rfl
    rw [concatenate_pair_apply_right (t := S8192x64) (s₁ := S4096x64) (s₂ := S4096x64) (0 : Fin 2) _ _ _ (ix2 p k) rfl rfl
      (ix2 (⟨p.val - 4096, hp'⟩ : Fin 4096) k) hcoord (by show p.val - 4096 + 4096 = p.val; omega)]
    rw [h1]
    have e : hi ⟨p.val - 4096, hp'⟩ = p := Fin.ext (by show p.val - 4096 + 4096 = p.val; omega)
    rw [e]

/-! ## The bandwidth factor -/

/-- The sum of all squares, as the program forms it. -/
theorem v2_eq (V0 : Valuation τ sig (Elt Ideal)) :
    StableHlo.after (hostOps0 (F := Ideal)) V0 (Proc.devRef .tc main_v2)
      = Host.reduceAdd (mulf (StableHlo.after (hostOps0 (F := Ideal)) V0 (Proc.devRef .tc main_v0))
            (StableHlo.after (hostOps0 (F := Ideal)) V0 (Proc.devRef .tc main_v0)))
          (constant (F := Ideal) S_ .f32 0x00000000#32) reducesTo_S8192x64_S_d0_1 h_S_ := by
  rw [v0_eq]
  dsimp only [hostOps0]
  after_results

/-- The column sums, as the program forms them. -/
theorem v3_eq (V0 : Valuation τ sig (Elt Ideal)) :
    StableHlo.after (hostOps0 (F := Ideal)) V0 (Proc.devRef .tc main_v3)
      = Host.reduceAdd (StableHlo.after (hostOps0 (F := Ideal)) V0 (Proc.devRef .tc main_v0))
          (constant (F := Ideal) S_ .f32 0x00000000#32) reducesTo_S8192x64_S64_d0 h_S_ := by
  rw [v0_eq]
  dsimp only [hostOps0]
  after_results

/-- The sum of the squared column sums, as the program forms it. -/
theorem v5_eq (V0 : Valuation τ sig (Elt Ideal)) :
    StableHlo.after (hostOps0 (F := Ideal)) V0 (Proc.devRef .tc main_v5)
      = Host.reduceAdd (mulf (StableHlo.after (hostOps0 (F := Ideal)) V0 (Proc.devRef .tc main_v3))
            (StableHlo.after (hostOps0 (F := Ideal)) V0 (Proc.devRef .tc main_v3)))
          (constant (F := Ideal) S_ .f32 0x00000000#32) reducesTo_S64_S_d0 h_S_ := by
  rw [v3_eq, v0_eq]
  dsimp only [hostOps0]
  after_results

/-- The factor handed to the blocks, as the program forms it. -/
theorem v13_eq (V0 : Valuation τ sig (Elt Ideal)) :
    StableHlo.after (hostOps0 (F := Ideal)) V0 (Proc.devRef .tc main_v13)
      = shapeCast S1x1
          (Host.divf (constant (F := Ideal) S_ .f32 0xBF800000#32)
            (maximumf
              (Host.divf
                (Host.divf
                  (subf (mulf (constant (F := Ideal) S_ .f32 0x46800000#32) (StableHlo.after (hostOps0 (F := Ideal)) V0 (Proc.devRef .tc main_v2)))
                    (mulf (constant (F := Ideal) S_ .f32 0x40000000#32) (StableHlo.after (hostOps0 (F := Ideal)) V0 (Proc.devRef .tc main_v5))))
                  (constant (F := Ideal) S_ .f32 0x4C7FF800#32))
                (constant (F := Ideal) S_ .f32 0x3F800000#32))
              (constant (F := Ideal) S_ .f32 0x2B8CBCCC#32)))
          shapeCasts_S_S1x1 := by
  rw [v2_eq, v5_eq, v3_eq, v0_eq]
  dsimp only [hostOps0]
  after_results
  rfl

/-- A sum over the indices of a rank-one array is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The sum over all of the squares of an 8192 x 64 array with real entries. -/
theorem sumsq_apply (x : FVec Ideal S8192x64 .f32) (X : Fin 8192 → Fin 64 → ℝ)
    (hx : ∀ p k, x (ix2 p k) = ((X p k : ℝ) : EReal)) (i : S_.Idx) :
    Host.reduceAdd (mulf x x) (constant (F := Ideal) S_ .f32 0x00000000#32) reducesTo_S8192x64_S_d0_1 h_S_ i
      = ((∑ p, ∑ k, X p k * X p k : ℝ) : EReal) := by
  rw [Cert.LibTotalSum.total_sum, sum_idx2, coe_sum]
  refine Finset.sum_congr rfl fun p _ => ?_
  rw [coe_sum]
  refine Finset.sum_congr rfl fun k _ => ?_
  rw [mulf_apply, hx, EReal.coe_mul]

/-- The column sums of an 8192 x 64 array with real entries. -/
theorem colsum_apply (x : FVec Ideal S8192x64 .f32) (X : Fin 8192 → Fin 64 → ℝ)
    (hx : ∀ p k, x (ix2 p k) = ((X p k : ℝ) : EReal)) (k : Fin 64) :
    Host.reduceAdd x (constant (F := Ideal) S_ .f32 0x00000000#32) reducesTo_S8192x64_S64_d0 h_S_ (ix1 k)
      = ((∑ p, X p k : ℝ) : EReal) := by
  have h : S8192x64.Reduces [0] S64 := by decide
  rw [hostReduceAdd_apply]
  refine (Ideal.hostReduceAdd_single reducesTo_S8192x64_S64_d0 h x _ (ix1 k)).trans ?_
  rw [constant_apply, Ideal.ofBits_zero_f32, zero_add, coe_sum]
  refine Finset.sum_congr rfl fun (p : Fin 8192) _ => ?_
  rw [← hx p k]
  refine congrArg x ?_
  funext c
  match c with
  | ⟨0, _⟩ => exact Fin.ext rfl
  | ⟨1, _⟩ => exact Fin.ext rfl

/-- The sum of the squares of a vector of 64 reals. -/
theorem colsq_apply (y : FVec Ideal S64 .f32) (Y : Fin 64 → ℝ) (hy : ∀ k, y (ix1 k) = ((Y k : ℝ) : EReal)) (i : S_.Idx) :
    Host.reduceAdd (mulf y y) (constant (F := Ideal) S_ .f32 0x00000000#32) reducesTo_S64_S_d0 h_S_ i
      = ((∑ k, Y k * Y k : ℝ) : EReal) := by
  rw [Cert.LibTotalSum.total_sum, sum_idx1, coe_sum]
  refine Finset.sum_congr rfl fun k _ => ?_
  rw [mulf_apply, hy, EReal.coe_mul]

/-- A scalar cast to a one by one array reads the scalar. -/
theorem shapeCast_scalar_apply {α : Type} (x : S_.Idx → α) (h : S_.ShapeCasts S1x1) (j : S1x1.Idx) :
    shapeCast S1x1 x h j = x ix0 := by
  unfold shapeCast
  exact congrArg x (eq_ix0 _)

/-- Minus one over the floored mean, from the two sums: every divisor is a real that is not zero. -/
theorem ninv_val (a b : FVec Ideal S_ .f32) (A B : ℝ) (ha : a ix0 = ((A : ℝ) : EReal)) (hb : b ix0 = ((B : ℝ) : EReal))
    (j : S1x1.Idx) :
    shapeCast S1x1
        (Host.divf (constant (F := Ideal) S_ .f32 0xBF800000#32)
          (maximumf
            (Host.divf
              (Host.divf
                (subf (mulf (constant (F := Ideal) S_ .f32 0x46800000#32) a) (mulf (constant (F := Ideal) S_ .f32 0x40000000#32) b))
                (constant (F := Ideal) S_ .f32 0x4C7FF800#32))
              (constant (F := Ideal) S_ .f32 0x3F800000#32))
            (constant (F := Ideal) S_ .f32 0x2B8CBCCC#32)))
        shapeCasts_S_S1x1 j
      = ((-1 / max ((16384 * A - 2 * B) / 67100672 / 1) b0 : ℝ) : EReal) := by
  have hpos : 0 < max ((16384 * A - 2 * B) / 67100672 / 1) b0 := lt_of_lt_of_le b0_pos (le_max_right _ _)
  rw [shapeCast_scalar_apply, hostDivf_apply, maximumf_apply, hostDivf_apply, hostDivf_apply, subf_apply,
    mulf_apply, mulf_apply, constant_apply, constant_apply, constant_apply, constant_apply, constant_apply, constant_apply,
    ha, hb, ofBits_neg1, ofBits_16384, ofBits_2, ofBits_67100672, ofBits_1, ofBits_b0,
    ← EReal.coe_mul, ← EReal.coe_mul, ← EReal.coe_sub, div_coe_coe _ (67100672 : ℝ) (by norm_num),
    div_coe_coe _ (1 : ℝ) (by norm_num), ← coe_max, div_coe_coe _ _ hpos.ne']

/-- The sum of all squares. -/
theorem v2_apply (X : Fin 8192 → Fin 64 → ℝ) (V0 : Valuation τ sig (Elt Ideal))
    (h0 : ∀ (a : Fin 4096) (k : Fin 64), V0 (Proc.devRef .tc main_arg0) (ix2 a k) = ((X (lo a) k : ℝ) : EReal))
    (h1 : ∀ (a : Fin 4096) (k : Fin 64), V0 (Proc.devRef .tc main_arg1) (ix2 a k) = ((X (hi a) k : ℝ) : EReal)) (i : S_.Idx) :
    StableHlo.after (hostOps0 (F := Ideal)) V0 (Proc.devRef .tc main_v2) i
      = ((∑ p, ∑ k, X p k * X p k : ℝ) : EReal) := by
  rw [v2_eq]
  exact sumsq_apply _ X (rows_apply X V0 h0 h1) i

/-- The column sums. -/
theorem v3_apply (X : Fin 8192 → Fin 64 → ℝ) (V0 : Valuation τ sig (Elt Ideal))
    (h0 : ∀ (a : Fin 4096) (k : Fin 64), V0 (Proc.devRef .tc main_arg0) (ix2 a k) = ((X (lo a) k : ℝ) : EReal))
    (h1 : ∀ (a : Fin 4096) (k : Fin 64), V0 (Proc.devRef .tc main_arg1) (ix2 a k) = ((X (hi a) k : ℝ) : EReal)) (k : Fin 64) :
    StableHlo.after (hostOps0 (F := Ideal)) V0 (Proc.devRef .tc main_v3) (ix1 k) = ((∑ p, X p k : ℝ) : EReal) := by
  rw [v3_eq]
  exact colsum_apply _ X (rows_apply X V0 h0 h1) k

/-- The sum of the squared column sums. -/
theorem v5_apply (X : Fin 8192 → Fin 64 → ℝ) (V0 : Valuation τ sig (Elt Ideal))
    (h0 : ∀ (a : Fin 4096) (k : Fin 64), V0 (Proc.devRef .tc main_arg0) (ix2 a k) = ((X (lo a) k : ℝ) : EReal))
    (h1 : ∀ (a : Fin 4096) (k : Fin 64), V0 (Proc.devRef .tc main_arg1) (ix2 a k) = ((X (hi a) k : ℝ) : EReal)) (i : S_.Idx) :
    StableHlo.after (hostOps0 (F := Ideal)) V0 (Proc.devRef .tc main_v5) i
      = ((∑ k, (∑ p, X p k) * (∑ p, X p k) : ℝ) : EReal) := by
  rw [v5_eq]
  exact colsq_apply _ (fun k => ∑ p, X p k) (v3_apply X V0 h0 h1) i

/-- The factor handed to the blocks is minus one over the bandwidth. -/
theorem ninv_apply (X : Fin 8192 → Fin 64 → ℝ) (V0 : Valuation τ sig (Elt Ideal))
    (h0 : ∀ (a : Fin 4096) (k : Fin 64), V0 (Proc.devRef .tc main_arg0) (ix2 a k) = ((X (lo a) k : ℝ) : EReal))
    (h1 : ∀ (a : Fin 4096) (k : Fin 64), V0 (Proc.devRef .tc main_arg1) (ix2 a k) = ((X (hi a) k : ℝ) : EReal)) :
    StableHlo.after (hostOps0 (F := Ideal)) V0 (Proc.devRef .tc main_v13) (ix2 (0 : Fin 1) (0 : Fin 1))
      = ((-1 / bwKer X b0 : ℝ) : EReal) := by
  rw [v13_eq]
  exact ninv_val _ _ _ _ (v2_apply X V0 h0 h1 ix0) (v5_apply X V0 h0 h1 ix0) _

/-! ## The block payload -/

/-- A column [1024, 1] spread over the columns of a square array reads entry r at (r, c). -/
theorem bcol_apply {α : Type} (v : S1024x1.Idx → α) (r c : Fin 1024) :
    broadcastTo S1024x1024 v broadcasts_S1024x1_S1024x1024 (ix2 r c) = v (ix2 r (0 : Fin 1)) :=
  broadcastTo_apply v _ (ix2 r c) (ix2 r (0 : Fin 1)) fun ax => match ax with | ⟨0, _⟩ => rfl | ⟨1, _⟩ => rfl

/-- The same column transposed to a row and spread over the rows reads entry c at (r, c). -/
theorem brow_apply {α : Type} (v : S1024x1.Idx → α) (r c : Fin 1024) :
    broadcastTo S1024x1024 (transpose S1x1024 [1, 0] v transposes_S1024x1_p1_0_S1x1024) broadcasts_S1x1024_S1024x1024 (ix2 r c)
      = v (ix2 c (0 : Fin 1)) := by
  refine (broadcastTo_1b_ab_apply _ broadcasts_S1x1024_S1024x1024 r c).trans ?_
  exact transpose_ix2_apply v transposes_S1024x1_p1_0_S1x1024 (0 : Fin 1) c

/-- The row sums of the squares of a block, kept as a column. -/
def rowsq (x : FVec Ideal S1024x64 .f32) : FVec Ideal S1024x1 .f32 :=
  shapeCast S1024x1 (multiReduction .add [1] S1024 (mulf x x) 0x00000000#32 reduces_S1024x64_S1024 (.inl rfl) rfl)
    shapeCasts_S1024_S1024x1

theorem rowsq_apply (x : FVec Ideal S1024x64 .f32) (A : Fin 1024 → Fin 64 → ℝ)
    (hx : ∀ r k, x (ix2 r k) = ((A r k : ℝ) : EReal)) (r : Fin 1024) (u : Fin 1) :
    rowsq x (ix2 r u) = ((∑ k, A r k * A r k : ℝ) : EReal) := by
  unfold rowsq
  refine (shapeCast_apply _ shapeCasts_S1024_S1024x1 (ix2 r u) (ix1 r) ?_).trans ?_
  · rw [Shape.rowMajor_val_one, Shape.rowMajor_val_two]
    show r.val = r.val * 1 + u.val
    omega
  · refine (Ideal.multiReduction_add_single _ _ reduces_S1024x64_S1024 _ _ (ix1 r)).trans ?_
    rw [coe_sum]
    refine Finset.sum_congr rfl fun (k : Fin 64) _ => ?_
    have e : reduces_S1024x64_S1024.lift (ix1 r) k = ix2 r k := by
      funext c
      match c with
      | ⟨0, _⟩ => exact Fin.ext rfl
      | ⟨1, _⟩ => exact Fin.ext rfl
    rw [e, mulf_apply, hx, EReal.coe_mul]

/-- The product of the first block with the transpose of the second, into a zero accumulator. -/
def cross (x1 x2 : FVec Ideal S1024x64 .f32) : FVec Ideal S1024x1024 .f32 :=
  matmul dot_S1024x64_S64x1024_S1024x1024_1_0_0_1_n_n none (truncf .bf16 x1 bitsLt_bf16_f32)
    (transpose S64x1024 [1, 0] (truncf .bf16 x2 bitsLt_bf16_f32) transposes_S1024x64_p1_0_S64x1024)
    (constant S1024x1024 .f32 0x00000000#32)

theorem cross_apply (x1 x2 : FVec Ideal S1024x64 .f32) (A B : Fin 1024 → Fin 64 → ℝ)
    (h1 : ∀ r k, x1 (ix2 r k) = ((A r k : ℝ) : EReal)) (h2 : ∀ r k, x2 (ix2 r k) = ((B r k : ℝ) : EReal))
    (r c : Fin 1024) :
    cross x1 x2 (ix2 r c) = ((∑ k, A r k * B c k : ℝ) : EReal) := by
  unfold cross
  have hd : dot_S1024x64_S64x1024_S1024x1024_1_0_0_1_n_n = DotDims.plain 1024 64 1024 := rfl
  rw [hd]
  refine (matmul_plain_zero_apply 1024 64 1024 none _ _ r c).trans ?_
  rw [coe_sum]
  refine Finset.sum_congr rfl fun k _ => ?_
  rw [truncf_apply, transpose_ix2_apply, truncf_apply, h1, h2, EReal.coe_mul]

/-- The clamped squared distances of the rows of two blocks. -/
def d2 (x1 x2 : FVec Ideal S1024x64 .f32) : FVec Ideal S1024x1024 .f32 :=
  maximumf
    (subf
      (addf (broadcastTo S1024x1024 (rowsq x1) broadcasts_S1024x1_S1024x1024)
        (broadcastTo S1024x1024 (transpose S1x1024 [1, 0] (rowsq x2) transposes_S1024x1_p1_0_S1x1024)
          broadcasts_S1x1024_S1024x1024))
      (mulf (broadcast S1024x1024 (Scalar.ofBits .f32 0x40000000#32)) (cross x1 x2)))
    (broadcast S1024x1024 (Scalar.ofBits .f32 0x00000000#32))

theorem d2_apply (x1 x2 : FVec Ideal S1024x64 .f32) (A B : Fin 1024 → Fin 64 → ℝ)
    (h1 : ∀ r k, x1 (ix2 r k) = ((A r k : ℝ) : EReal)) (h2 : ∀ r k, x2 (ix2 r k) = ((B r k : ℝ) : EReal))
    (r c : Fin 1024) :
    d2 x1 x2 (ix2 r c)
      = ((max ((∑ k, A r k * A r k) + (∑ k, B c k * B c k) - 2 * ∑ k, A r k * B c k) 0 : ℝ) : EReal) := by
  have e2 : (Scalar.ofBits .f32 0x40000000#32 : Ideal .f32) = ((2 : ℝ) : EReal) := ofBits_2
  have e0 : (Scalar.ofBits .f32 0x00000000#32 : Ideal .f32) = ((0 : ℝ) : EReal) := ofBits_0
  unfold d2
  rw [maximumf_apply, subf_apply, addf_apply, mulf_apply, broadcast_apply, broadcast_apply, bcol_apply, brow_apply,
    rowsq_apply x1 A h1, rowsq_apply x2 B h2, cross_apply x1 x2 A B h1 h2, e2, e0,
    ← EReal.coe_add, ← EReal.coe_mul, ← EReal.coe_sub, ← coe_max]

/-- The kernel values of the rows of two blocks: exp of the distance times the factor. -/
def ee (x1 x2 : FVec Ideal S1024x64 .f32) (x0 : FVec Ideal S1x1 .f32) : FVec Ideal S1024x1024 .f32 :=
  exp (mulf (d2 x1 x2) (broadcast S1024x1024 (extractAt ![0, 0] x0 inpos_S1x1_p0_0)))

theorem ee_apply (x1 x2 : FVec Ideal S1024x64 .f32) (x0 : FVec Ideal S1x1 .f32) (A B : Fin 1024 → Fin 64 → ℝ) (ninv : ℝ)
    (h1 : ∀ r k, x1 (ix2 r k) = ((A r k : ℝ) : EReal)) (h2 : ∀ r k, x2 (ix2 r k) = ((B r k : ℝ) : EReal))
    (h0 : x0 (ix2 (0 : Fin 1) (0 : Fin 1)) = ((ninv : ℝ) : EReal)) (r c : Fin 1024) :
    ee x1 x2 x0 (ix2 r c)
      = ((Real.exp (max ((∑ k, A r k * A r k) + (∑ k, B c k * B c k) - 2 * ∑ k, A r k * B c k) 0 * ninv) : ℝ) : EReal) := by
  have ex : extractAt ![0, 0] x0 inpos_S1x1_p0_0 = x0 (ix2 (0 : Fin 1) (0 : Fin 1)) := by
    unfold extractAt
    refine congrArg x0 ?_
    funext a
    match a with
    | ⟨0, _⟩ => exact Fin.ext rfl
    | ⟨1, _⟩ => exact Fin.ext rfl
  unfold ee
  show Ideal.exp (mulf (d2 x1 x2) (broadcast S1024x1024 (extractAt ![0, 0] x0 inpos_S1x1_p0_0)) (ix2 r c)) = _
  rw [mulf_apply, broadcast_apply, ex, h0, d2_apply x1 x2 A B h1 h2, ← EReal.coe_mul, Ideal.exp_coe]

/-- The row sums of a square array, kept as a column. -/
def rowsum (e : FVec Ideal S1024x1024 .f32) : FVec Ideal S1024x1 .f32 :=
  shapeCast S1024x1 (multiReduction .add [1] S1024 e 0x00000000#32 reduces_S1024x1024_S1024 (.inl rfl) rfl)
    shapeCasts_S1024_S1024x1

theorem rowsum_apply (e : FVec Ideal S1024x1024 .f32) (E : Fin 1024 → Fin 1024 → ℝ)
    (he : ∀ r c, e (ix2 r c) = ((E r c : ℝ) : EReal)) (r : Fin 1024) (u : Fin 1) :
    rowsum e (ix2 r u) = ((∑ c, E r c : ℝ) : EReal) := by
  unfold rowsum
  refine (shapeCast_apply _ shapeCasts_S1024_S1024x1 (ix2 r u) (ix1 r) ?_).trans ?_
  · rw [Shape.rowMajor_val_one, Shape.rowMajor_val_two]
    show r.val = r.val * 1 + u.val
    omega
  · refine (Ideal.multiReduction_add_single _ _ reduces_S1024x1024_S1024 _ _ (ix1 r)).trans ?_
    rw [coe_sum]
    refine Finset.sum_congr rfl fun (c : Fin 1024) _ => ?_
    have e' : reduces_S1024x1024_S1024.lift (ix1 r) c = ix2 r c := by
      funext a
      match a with
      | ⟨0, _⟩ => exact Fin.ext rfl
      | ⟨1, _⟩ => exact Fin.ext rfl
    rw [e', he]

/-- The sum of a column, kept as a one by one array. -/
def total (cs : FVec Ideal S1024x1 .f32) : FVec Ideal S1x1 .f32 :=
  shapeCast S1x1
    (shapeCast S1x1 (multiReduction .add [0] S1 cs 0x00000000#32 reduces_S1024x1_S1 (.inl rfl) rfl) shapeCasts_S1_S1x1)
    shapeCasts_S1x1_S1x1

theorem total_apply (cs : FVec Ideal S1024x1 .f32) (C : Fin 1024 → ℝ)
    (hcs : ∀ r u, cs (ix2 r u) = ((C r : ℝ) : EReal)) (j : S1x1.Idx) :
    total cs j = ((∑ r, C r : ℝ) : EReal) := by
  unfold total
  rw [shapeCast_self]
  obtain ⟨p, q, rfl⟩ : ∃ (p : Fin 1) (q : Fin 1), j = ix2 p q := ⟨j 0, j 1, eq_ix2 j⟩
  refine (shapeCast_a_1a_apply _ shapeCasts_S1_S1x1 p q).trans ?_
  refine (Ideal.multiReduction_add_single _ _ reduces_S1024x1_S1 _ _ (ix1 q)).trans ?_
  rw [coe_sum]
  refine Finset.sum_congr rfl fun (r : Fin 1024) _ => ?_
  have e : reduces_S1024x1_S1.lift (ix1 q) r = ix2 r q := by
    funext a
    match a with
    | ⟨0, _⟩ => exact Fin.ext rfl
    | ⟨1, _⟩ => exact Fin.ext rfl
  rw [e, hcs]

/-- The payload is the total of the kernel values, spread over an 8 x 128 array. -/
theorem pay10_eq (x1 x2 : Vec Ideal S1024x64 .f32) (x0 : Vec Ideal S1x1 .f32) :
    k0_pay10 (F := Ideal) x1 x2 x0
      = broadcastTo S8x128
          (total (rowsum (ee (shapeCast S1024x64 x1 shapeCasts_S1024x64_S1024x64)
            (shapeCast S1024x64 x2 shapeCasts_S1024x64_S1024x64) x0)))
          broadcasts_S1x1_S8x128 := rfl

/-- Every entry of the block payload: the double sum of the kernel values of the rows of the two blocks. -/
theorem pay10_apply (x1 x2 : Vec Ideal S1024x64 .f32) (x0 : Vec Ideal S1x1 .f32) (A B : Fin 1024 → Fin 64 → ℝ) (ninv : ℝ)
    (h1 : ∀ r k, x1 (ix2 r k) = ((A r k : ℝ) : EReal)) (h2 : ∀ r k, x2 (ix2 r k) = ((B r k : ℝ) : EReal))
    (h0 : x0 (ix2 (0 : Fin 1) (0 : Fin 1)) = ((ninv : ℝ) : EReal)) (a : Fin 8) (b : Fin 128) :
    k0_pay10 (F := Ideal) x1 x2 x0 (ix2 a b)
      = ((∑ r : Fin 1024, ∑ c : Fin 1024,
          Real.exp (max ((∑ k, A r k * A r k) + (∑ k, B c k * B c k) - 2 * ∑ k, A r k * B c k) 0 * ninv) : ℝ) : EReal) := by
  rw [pay10_eq, shapeCast_self, shapeCast_self]
  refine (broadcastTo_apply _ broadcasts_S1x1_S8x128 (ix2 a b) (ix2 (0 : Fin 1) (0 : Fin 1))
    (fun ax => match ax with | ⟨0, _⟩ => rfl | ⟨1, _⟩ => rfl)).trans ?_
  exact total_apply _ _ (fun r u => rowsum_apply _ _ (fun r c => ee_apply x1 x2 x0 A B ninv h1 h2 h0 r c) r u) _

end Cert.Proof.KerValue

end
-- ==== Proof.RbfPartial.lean ====
/-
  Partial sums of eight terms.

  partAcc f j is the sum of the terms f J with J <= j.  It starts at f 0, gains the term f (j + 1) at each step
  (nothing when that term is zero), and at j = 7 it is the whole sum.
-/
import Mathlib

noncomputable section

namespace Cert.Proof.Rbf

open Finset BigOperators

/-- The terms of f up to column j. -/
def partAcc (f : Fin 8 → ℝ) (j : ℕ) : ℝ := ∑ J : Fin 8, if J.val ≤ j then f J else 0

theorem partAcc_zero (f : Fin 8 → ℝ) : partAcc f 0 = f 0 := by
  unfold partAcc
  rw [Fin.sum_univ_eight]
  simp

/-- J <= j + 1 holds exactly when J <= j or J = j + 1, and the two cases exclude each other. -/
theorem partAcc_term (f : Fin 8 → ℝ) (j : ℕ) (h : j + 1 < 8) (J : Fin 8) :
    (if J.val ≤ j + 1 then f J else 0)
      = (if J.val ≤ j then f J else 0) + (if J = ⟨j + 1, h⟩ then f J else 0) := by
  by_cases h1 : J.val ≤ j
  · have h2 : J.val ≤ j + 1 := by omega
    have h3 : J ≠ ⟨j + 1, h⟩ := fun e => by
      have : J.val = j + 1 := congrArg Fin.val e
      omega
    rw [if_pos h1, if_pos h2, if_neg h3, add_zero]
  · by_cases h4 : J.val = j + 1
    · have h2 : J.val ≤ j + 1 := by omega
      have h3 : J = ⟨j + 1, h⟩ := Fin.ext h4
      rw [if_neg h1, if_pos h2, if_pos h3, zero_add]
    · have h2 : ¬ J.val ≤ j + 1 := by omega
      have h3 : J ≠ ⟨j + 1, h⟩ := fun e => h4 (congrArg Fin.val e)
      rw [if_neg h1, if_neg h2, if_neg h3, add_zero]

theorem partAcc_succ (f : Fin 8 → ℝ) (j : ℕ) (h : j + 1 < 8) :
    partAcc f (j + 1) = partAcc f j + f ⟨j + 1, h⟩ := by
  unfold partAcc
  rw [Finset.sum_congr rfl (fun J _ => partAcc_term f j h J), Finset.sum_add_distrib,
    Finset.sum_ite_eq', if_pos (Finset.mem_univ _)]

theorem partAcc_skip (f : Fin 8 → ℝ) (j : ℕ) (h : j + 1 < 8) (hf : f ⟨j + 1, h⟩ = 0) :
    partAcc f (j + 1) = partAcc f j := by
  rw [partAcc_succ f j h, hf, add_zero]

theorem partAcc_seven (f : Fin 8 → ℝ) : partAcc f 7 = ∑ J, f J := by
  unfold partAcc
  apply Finset.sum_congr rfl
  intro J _
  have hJ : J.val ≤ 7 := by
    have := J.isLt
    omega
  rw [if_pos hJ]

end Cert.Proof.Rbf

end
-- ==== Proof.KAcc2.lean ====
/-
  The accumulators after each grid point, with floats read as exact extended reals.

  Let the data be the real matrix X and ninv the bandwidth factor. The block computed at point (I, J) contributes the
  real number blockSum X ninv I J to an accumulator when the accumulator's quadrant test holds at (I, J), and zero
  otherwise. By induction along a block row, after point (I, J) each accumulator's every entry is the partial sum of its
  quadrant's terms over the columns up to J: cleared and restarted at J = 0, carried unchanged across the skipped
  target-source blocks (whose terms are zero for all three quadrants), and complete at J = 7.
-/
import proofs.«152378_j46660524704258_2_alg».proof.Proof.KAcc1
import proofs.«152378_j46660524704258_2_alg».proof.Proof.KerValue
import proofs.«152378_j46660524704258_2_alg».proof.Proof.RbfPartial

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Proof.Rbf
open scoped BigOperators

variable (m : (ℓ : Loc nD τ sig) → Buf (Elt Ideal) ℓ) (X : Fin 8192 → Fin 64 → ℝ)

/-- On core c the two argument arrays are the source rows and the target rows of X. -/
def Reads (c : Dev nD) : Prop :=
  (∀ (a : Fin 4096) (k : Fin 64), V₀ m c (Proc.devRef .tc main_arg0) (ix2 a k) = ((X (lo a) k : ℝ) : EReal))
  ∧ (∀ (a : Fin 4096) (k : Fin 64), V₀ m c (Proc.devRef .tc main_arg1) (ix2 a k) = ((X (hi a) k : ℝ) : EReal))

/-- The bandwidth factor. -/
abbrev ninvR : ℝ := -1 / bwKer X b0

/-- Block (I, J)'s term in a quadrant's sum. -/
def term (sel : Fin 8 → Fin 8 → Prop) [∀ I J, Decidable (sel I J)] (I J : Fin 8) : ℝ :=
  if sel I J then blockSum X (ninvR X) I J else 0

variable {m X}

theorem rowsV {c : Dev nD} (h : Reads m X c) (p : Fin 8192) (k : Fin 64) : V m c main_v0 (ix2 p k) = ((X p k : ℝ) : EReal) :=
  Cert.Proof.KerValue.rows_apply X (V₀ m c) h.1 h.2 p k

theorem ninvV {c : Dev nD} (h : Reads m X c) : V m c main_v13 (ix2 0 0) = ((ninvR X : ℝ) : EReal) :=
  Cert.Proof.KerValue.ninv_apply X (V₀ m c) h.1 h.2

/-- The block computed at point t = 8 I + J: every entry of the broadcast block sum is blockSum X ninv I J. -/
theorem block_apply {c : Dev nD} (h : Reads m X c) (t : Fin cfg0.N) (I J : Fin 8) (hI : I.val = t.val / 8) (hJ : J.val = t.val % 8) (j : S8x128.Idx) :
    k0_pay10 (F := Ideal) (iblk m c 1 t) (iblk m c 2 t) (iblk m c 0 t) j = ((blockSum X (ninvR X) I J : ℝ) : EReal) := by
  obtain ⟨a, b, rfl⟩ : ∃ (a : Fin 8) (b : Fin 128), j = ix2 a b := ⟨j 0, j 1, eq_ix2 j⟩
  rw [Cert.Proof.KerValue.pay10_apply (iblk m c 1 t) (iblk m c 2 t) (iblk m c 0 t) (fun r k => X (blk I r) k) (fun r k => X (blk J r) k) (ninvR X)
    (fun r k => (iblk1_apply m c t r k (blk I r) (by show I.val * 1024 + r.val = _; rw [hI])).trans (rowsV h _ _))
    (fun r k => (iblk2_apply m c t r k (blk J r) (by show J.val * 1024 + r.val = _; rw [hJ])).trans (rowsV h _ _))
    ((iblk0_apply m c t).trans (ninvV h)) a b]
  rfl

/-! ## Partial sums at a block column -/

theorem partAcc_at_zero (f : Fin 8 → ℝ) (J : Fin 8) (hJ : J.val = 0) : partAcc f J.val = f J := by
  obtain rfl : J = 0 := Fin.ext hJ
  exact partAcc_zero f

theorem partAcc_at_succ (f : Fin 8 → ℝ) (J : Fin 8) (hJ : J.val ≠ 0) : partAcc f J.val = partAcc f (J.val - 1) + f J := by
  obtain ⟨j, hj⟩ := J
  cases j with
  | zero => exact absurd rfl hJ
  | succ j => exact partAcc_succ f j hj

/-- A masked add of a real to a real. -/
theorem add_sel (p s : ℝ) (b : BitVec 1) (P : Prop) [Decidable P] (hb : b = 1#1 ↔ P) :
    ((p : ℝ) : EReal) + (if b = 1#1 then ((s : ℝ) : EReal) else ((0 : ℝ) : EReal)) = ((p + (if P then s else 0) : ℝ) : EReal) := by
  by_cases hP : P
  · rw [if_pos (hb.mpr hP), if_pos hP, EReal.coe_add]
  · rw [if_neg (fun e => hP (hb.mp e)), if_neg hP, EReal.coe_add]

/-! ## The induction -/

set_option maxHeartbeats 4000000 in
/-- After point n = 8 I + J the three accumulators hold, at every entry, their quadrants' partial sums up to column J. -/
theorem acc_inv {c : Dev nD} (h : Reads m X c) : ∀ (n : ℕ) (hn : n < cfg0.N) (I J : Fin 8), I.val = n / 8 → J.val = n % 8 → ∀ j : S8x128.Idx,
    (stAt m c n hn).s0 j = ((partAcc (term X selXX I) J.val : ℝ) : EReal)
    ∧ (stAt m c n hn).s1 j = ((partAcc (term X selYY I) J.val : ℝ) : EReal)
    ∧ (stAt m c n hn).s2 j = ((partAcc (term X selXY I) J.val : ℝ) : EReal) := by
  intro n
  induction n using Nat.strong_induction_on with
  | _ n ih =>
    intro hn I J hI hJ j
    have hN : n < 64 := lt_of_lt_of_eq hn (show cfg0.N = 64 from N_0)
    have hbXX : selXXb (grid0.coords ⟨n, hn⟩) = 1#1 ↔ selXX I J := by
      rw [hselXX ⟨n, hn⟩]; unfold selXX; rw [hI, hJ]
    have hbYY : selYYb (grid0.coords ⟨n, hn⟩) = 1#1 ↔ selYY I J := by
      rw [hselYY ⟨n, hn⟩]; unfold selYY; rw [hI, hJ]
    have hbXY : selXYb (grid0.coords ⟨n, hn⟩) = 1#1 ↔ selXY I J := by
      rw [hselXY ⟨n, hn⟩]; unfold selXY; rw [hI, hJ]
    by_cases h0 : n % 8 = 0
    · have h2 : ¬n % 8 = 7 := by omega
      have hJ0 : J.val = 0 := by omega
      by_cases h1 : n / 8 < 4 ∨ 4 ≤ n % 8
      · -- cleared, then the block added
        have e := stAt_A m c ⟨n, hn⟩ h0 h1 h2
        rw [show stAt m c n hn = _ from e]
        refine ⟨?_, ?_, ?_⟩
        · rw [resA_s0, pay4_apply, pay1_apply, block_apply h ⟨n, hn⟩ I J hI hJ, pay11_apply, add_sel _ _ _ _ hbXX, partAcc_at_zero _ J hJ0, zero_add]; rfl
        · rw [resA_s1, pay5_apply, pay2_apply, block_apply h ⟨n, hn⟩ I J hI hJ, pay11_apply, add_sel _ _ _ _ hbYY, partAcc_at_zero _ J hJ0, zero_add]; rfl
        · rw [resA_s2, pay6_apply, pay3_apply, block_apply h ⟨n, hn⟩ I J hI hJ, pay11_apply, add_sel _ _ _ _ hbXY, partAcc_at_zero _ J hJ0, zero_add]; rfl
      · -- cleared only: a target-source block, whose terms are zero
        have e := stAt_D m c ⟨n, hn⟩ h0 h1 h2
        rw [show stAt m c n hn = _ from e]
        have hI4 : 4 ≤ I.val := by omega
        have hJ4 : J.val < 4 := by omega
        refine ⟨?_, ?_, ?_⟩
        · rw [resD_s0, pay1_apply, partAcc_at_zero _ J hJ0]; unfold term; rw [if_neg (by unfold selXX; omega)]
        · rw [resD_s1, pay2_apply, partAcc_at_zero _ J hJ0]; unfold term; rw [if_neg (by unfold selYY; omega)]
        · rw [resD_s2, pay3_apply, partAcc_at_zero _ J hJ0]; unfold term; rw [if_neg (by unfold selXY; omega)]
    · have hz : n ≠ 0 := fun e => h0 (by rw [e])
      have hJ1 : J.val ≠ 0 := by omega
      have hprev := ih (n - 1) (by omega) (Nat.lt_of_le_of_lt (Nat.sub_le _ _) hn) I ⟨J.val - 1, by omega⟩ (by omega) (by show J.val - 1 = (n - 1) % 8; omega)
      by_cases h1 : n / 8 < 4 ∨ 4 ≤ n % 8
      · by_cases h2 : n % 8 = 7
        · -- the block added, and written out
          have e := stAt_C m c ⟨n, hn⟩ h0 h1 h2
          rw [show stAt m c n hn = _ from e]
          refine ⟨?_, ?_, ?_⟩
          · rw [resC_s0, pay4_apply, (hprev j).1, block_apply h ⟨n, hn⟩ I J hI hJ, pay11_apply, add_sel _ _ _ _ hbXX, partAcc_at_succ _ J hJ1]; rfl
          · rw [resC_s1, pay5_apply, (hprev j).2.1, block_apply h ⟨n, hn⟩ I J hI hJ, pay11_apply, add_sel _ _ _ _ hbYY, partAcc_at_succ _ J hJ1]; rfl
          · rw [resC_s2, pay6_apply, (hprev j).2.2, block_apply h ⟨n, hn⟩ I J hI hJ, pay11_apply, add_sel _ _ _ _ hbXY, partAcc_at_succ _ J hJ1]; rfl
        · -- the block added
          have e := stAt_B m c ⟨n, hn⟩ h0 h1 h2
          rw [show stAt m c n hn = _ from e]
          refine ⟨?_, ?_, ?_⟩
          · rw [resB_s0, pay4_apply, (hprev j).1, block_apply h ⟨n, hn⟩ I J hI hJ, pay11_apply, add_sel _ _ _ _ hbXX, partAcc_at_succ _ J hJ1]; rfl
          · rw [resB_s1, pay5_apply, (hprev j).2.1, block_apply h ⟨n, hn⟩ I J hI hJ, pay11_apply, add_sel _ _ _ _ hbYY, partAcc_at_succ _ J hJ1]; rfl
          · rw [resB_s2, pay6_apply, (hprev j).2.2, block_apply h ⟨n, hn⟩ I J hI hJ, pay11_apply, add_sel _ _ _ _ hbXY, partAcc_at_succ _ J hJ1]; rfl
      · -- a skipped target-source block: nothing changes, and its terms are zero
        have e := stAt_E m c ⟨n, hn⟩ h0 h1
        rw [show stAt m c n hn = _ from e]
        have hI4 : 4 ≤ I.val := by omega
        have hJ4 : J.val < 4 := by omega
        refine ⟨?_, ?_, ?_⟩
        · show (stAt m c (n - 1) _).s0 j = _
          rw [(hprev j).1, partAcc_at_succ _ J hJ1]; unfold term; rw [if_neg (by unfold selXX; omega), add_zero]
        · show (stAt m c (n - 1) _).s1 j = _
          rw [(hprev j).2.1, partAcc_at_succ _ J hJ1]; unfold term; rw [if_neg (by unfold selYY; omega), add_zero]
        · show (stAt m c (n - 1) _).s2 j = _
          rw [(hprev j).2.2, partAcc_at_succ _ J hJ1]; unfold term; rw [if_neg (by unfold selXY; omega), add_zero]

end Cert.KernelIdeal.Hand

end
-- ==== Proof.KBody.lean ====
/-
  The body obligation: at every grid point, from the invariant and each window's current staging buffer at what it
  then holds, the kernel body runs to the invariant of the next point and each buffer at what the proof data says the
  body leaves. The closed forms of the three branch conditions say which of the five cases the point is in, and that
  case's run applies. The three output windows are idle (nothing stored, not written back) at every point but j = 7.
-/
import proofs.«152378_j46660524704258_2_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the windows are idle -/

theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem idleOut3 : ∀ t : Fin cfg0.N, ¬t.val % 8 = 7 → cfg0.idle 3 (grid0.coords t) = true := by decide +kernel
theorem idleOut4 : ∀ t : Fin cfg0.N, ¬t.val % 8 = 7 → cfg0.idle 4 (grid0.coords t) = true := by decide +kernel
theorem idleOut5 : ∀ t : Fin cfg0.N, ¬t.val % 8 = 7 → cfg0.idle 5 (grid0.coords t) = true := by decide +kernel
theorem liveOut3 : ∀ t : Fin cfg0.N, t.val % 8 = 7 → cfg0.idle 3 (grid0.coords t) = false := by decide +kernel
theorem liveOut4 : ∀ t : Fin cfg0.N, t.val % 8 = 7 → cfg0.idle 4 (grid0.coords t) = false := by decide +kernel
theorem liveOut5 : ∀ t : Fin cfg0.N, t.val % 8 = 7 → cfg0.idle 5 (grid0.coords t) = false := by decide +kernel
theorem noFlush3 : ∀ t : Fin cfg0.N, ¬t.val % 8 = 7 → (cfg0.win 3).flush t = false := by decide +kernel
theorem noFlush4 : ∀ t : Fin cfg0.N, ¬t.val % 8 = 7 → (cfg0.win 4).flush t = false := by decide +kernel
theorem noFlush5 : ∀ t : Fin cfg0.N, ¬t.val % 8 = 7 → (cfg0.win 5).flush t = false := by decide +kernel

/-! ## The invariant's two ends -/

/-- Whatever the invariant holds, it holds the three accumulators at something. -/
theorem Phi_any (c : Dev nD) (n : ℕ) (h : n ≤ cfg0.N) :
    PhiS m c n h ⊢ iprop((∃ d, owns (c : Thread nD τ) scM0 fullShare d) ∗ (∃ d, owns (c : Thread nD τ) scM1 fullShare d) ∗ (∃ d, owns (c : Thread nD τ) scM2 fullShare d)) := by
  cases n with
  | zero => rw [PhiS_zero m c 0 h rfl, scoped_eq]
  | succ n =>
    rw [PhiS_succ]
    iintro ⟨H0, H1, H2⟩
    isplitl [H0]; · iexists _; iexact H0
    isplitl [H1]; · iexists _; iexact H1
    iexists _; iexact H2

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  have hN : t.val < 64 := lt_of_lt_of_eq t.isLt (show cfg0.N = 64 from N_0)
  by_cases h0 : t.val % 8 = 0
  · have h2 : ¬t.val % 8 = 7 := by omega
    rw [Dat.leavesExact_idle (dats m 0 c) 3 t (idleOut3 t h2) (noFlush3 t h2), Dat.leavesExact_idle (dats m 0 c) 4 t (idleOut4 t h2) (noFlush4 t h2), Dat.leavesExact_idle (dats m 0 c) 5 t (idleOut5 t h2) (noFlush5 t h2)]
    by_cases h1 : t.val / 8 < 4 ∨ 4 ≤ t.val % 8
    · -- case A
      rw [stAt_A m c t h0 h1 h2]
      unfold resA; (try dsimp only)
      iintro ⟨HΦ, Ho, ⟨%d0, H0⟩, ⟨%d1, H1⟩, ⟨%d2, H2⟩, H3, H4, H5⟩
      ihave HS := (Phi_any m c t.val (Nat.le_of_lt t.isLt)) $$ HΦ
      icases HS with ⟨HS0, HS1, HS2⟩
      iapply ((runA c (grid0.coords t) _ _ _ _ _ _ _ _ _ _ _ _ _ _ _ _ _ _ ((hcondClear t).mpr h0) ((hcondBlock t).mpr h1) (fun h => h2 ((hcondOut t).mp h)) (iblk m c 0 t) (iblk m c 1 t) (iblk m c 2 t)).2.2.2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2]
      · isplitl [HS0]
        · unfold owns; iexists _; isplitr; swap; · iexact HS0
          ipureintro; exact View.read_writes_of_cover _ _ _ _ _ (coverA0 c _ _ _ _ _ _ _ _ _ _ _ _ _ _ _ _ _ _ _ _ _ _ _ _ _)
        isplitl [HS1]
        · unfold owns; iexists _; isplitr; swap; · iexact HS1
          ipureintro; exact View.read_writes_of_cover _ _ _ _ _ (coverA1 c _ _ _ _ _ _ _ _ _ _ _ _ _ _ _ _ _ _ _ _ _ _ _ _ _)
        · unfold owns; iexists _; isplitr; swap; · iexact HS2
          ipureintro; exact View.read_writes_of_cover _ _ _ _ _ (coverA2 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexact H5
    · -- case D
      rw [stAt_D m c t h0 h1 h2]
      unfold resD; (try dsimp only)
      iintro ⟨HΦ, Ho, H0, H1, H2, H3, H4, H5⟩
      ihave HS := (Phi_any m c t.val (Nat.le_of_lt t.isLt)) $$ HΦ
      icases HS with ⟨HS0, HS1, HS2⟩
      iapply ((runD c (grid0.coords t) _ _ _ _ _ _ _ _ _ _ _ _ _ _ _ _ _ _ ((hcondClear t).mpr h0) (fun h => h1 ((hcondBlock t).mp h)) (fun h => h2 ((hcondOut t).mp h))).2.2.2 Set.univ _)
      isplitl [HS0]; · iexact HS0
      isplitl [HS1]; · iexact HS1
      isplitl [HS2]; · iexact HS2
      iintro ⟨⟨%e0, HS0⟩, ⟨%e1, HS1⟩, ⟨%e2, HS2⟩⟩
      isplitl [HS0 HS1 HS2]
      · isplitl [HS0]
        · unfold owns; iexists _; isplitr; swap; · iexact HS0
          ipureintro; exact View.read_writes_of_cover _ _ _ _ _ (coverD0 c _ _ _ _ _ _ _ _ _ _ _ _ _ _ _ _ _ _ _ _ _ _)
        isplitl [HS1]
        · unfold owns; iexists _; isplitr; swap; · iexact HS1
          ipureintro; exact View.read_writes_of_cover _ _ _ _ _ (coverD1 c _ _ _ _ _ _ _ _ _ _ _ _ _ _ _ _ _ _ _ _ _ _)
        · unfold owns; iexists _; isplitr; swap; · iexact HS2
          ipureintro; exact View.read_writes_of_cover _ _ _ _ _ (coverD2 c _ _ _ _ _ _ _ _ _ _ _ _ _ _ _ _ _ _ _ _ _ _)
      isplitl [Ho]; · iexact Ho
      isplitl [H0]; · icases H0 with ⟨%d0, H0⟩; iexact H0
      isplitl [H1]; · icases H1 with ⟨%d1, H1⟩; iexact H1
      isplitl [H2]; · icases H2 with ⟨%d2, H2⟩; iexact H2
      isplitl [H3]; · iexact H3
      isplitl [H4]; · iexact H4
      iexact H5
  · have hz : t.val ≠ 0 := fun e => h0 (by rw [e])
    rw [PhiS_pos m c _ _ hz]
    by_cases h1 : t.val / 8 < 4 ∨ 4 ≤ t.val % 8
    · by_cases h2 : t.val % 8 = 7
      · -- case C
        rw [show (dats m 0 c).leavesExact 3 t = owns (c : Thread nD τ) (ms3 t) fullShare ((dats m 0 c).after 3 t) from by
          unfold Dat.leavesExact; rw [liveOut3 t h2], after3]
        rw [show (dats m 0 c).leavesExact 4 t = owns (c : Thread nD τ) (ms4 t) fullShare ((dats m 0 c).after 4 t) from by
          unfold Dat.leavesExact; rw [liveOut4 t h2], after4]
        rw [show (dats m 0 c).leavesExact 5 t = owns (c : Thread nD τ) (ms5 t) fullShare ((dats m 0 c).after 5 t) from by
          unfold Dat.leavesExact; rw [liveOut5 t h2], after5]
        rw [stAt_C m c t h0 h1 h2]
        unfold resC; (try dsimp only)
        iintro ⟨⟨HS0, HS1, HS2⟩, Ho, ⟨%d0, H0⟩, ⟨%d1, H1⟩, ⟨%d2, H2⟩, ⟨%d3, H3⟩, ⟨%d4, H4⟩, ⟨%d5, H5⟩⟩
        iapply ((runC c (grid0.coords t) _ _ _ _ _ _ _ _ _ _ _ _ _ _ _ _ _ _ (fun h => h0 ((hcondClear t).mp h)) ((hcondBlock t).mpr h1) ((hcondOut t).mpr h2) (iblk m c 0 t) (iblk m c 1 t) (iblk m c 2 t) _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        iintro ⟨H0, H1, H2, ⟨%e3, H3⟩, ⟨%e4, H4⟩, ⟨%e5, H5⟩, ⟨%e0, HS0⟩, ⟨%e1, HS1⟩, ⟨%e2, HS2⟩⟩
        isplitl [HS0 HS1 HS2]
        · isplitl [HS0]
          · unfold owns; iexists _; isplitr; swap; · iexact HS0
            ipureintro; exact View.read_writes_of_cover _ _ _ _ _ (coverC0 c _ _ _ _ _ _ _ _ _ _ _ _ _ _ _ _ _ _ _ _ _ _ _ _ _ _ _ _)
          isplitl [HS1]
          · unfold owns; iexists _; isplitr; swap; · iexact HS1
            ipureintro; exact View.read_writes_of_cover _ _ _ _ _ (coverC1 c _ _ _ _ _ _ _ _ _ _ _ _ _ _ _ _ _ _ _ _ _ _ _ _ _ _ _ _)
          · unfold owns; iexists _; isplitr; swap; · iexact HS2
            ipureintro; exact View.read_writes_of_cover _ _ _ _ _ (coverC2 c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]
        · unfold owns; iexists _; isplitr; swap; · iexact H3
          ipureintro; exact View.read_writes_of_cover _ _ _ _ _ (coverC5 c _ _ _ _ _ _ _ _ _ _ _ _ _ _ _ _ _ _ _ _ _ _ _ _ _ _ _ _)
        isplitl [H4]
        · unfold owns; iexists _; isplitr; swap; · iexact H4
          ipureintro; exact View.read_writes_of_cover _ _ _ _ _ (coverC6 c _ _ _ _ _ _ _ _ _ _ _ _ _ _ _ _ _ _ _ _ _ _ _ _ _ _ _ _)
        unfold owns; iexists _; isplitr; swap; · iexact H5
        ipureintro; exact View.read_writes_of_cover _ _ _ _ _ (coverC7 c _ _ _ _ _ _ _ _ _ _ _ _ _ _ _ _ _ _ _ _ _ _ _ _ _ _ _ _)
      · -- case B
        rw [Dat.leavesExact_idle (dats m 0 c) 3 t (idleOut3 t h2) (noFlush3 t h2), Dat.leavesExact_idle (dats m 0 c) 4 t (idleOut4 t h2) (noFlush4 t h2), Dat.leavesExact_idle (dats m 0 c) 5 t (idleOut5 t h2) (noFlush5 t h2)]
        rw [stAt_B m c t h0 h1 h2]
        unfold resB; (try dsimp only)
        iintro ⟨⟨HS0, HS1, HS2⟩, Ho, ⟨%d0, H0⟩, ⟨%d1, H1⟩, ⟨%d2, H2⟩, H3, H4, H5⟩
        iapply ((runB c (grid0.coords t) _ _ _ _ _ _ _ _ _ _ _ _ _ _ _ _ _ _ (fun h => h0 ((hcondClear t).mp h)) ((hcondBlock t).mpr h1) (fun h => h2 ((hcondOut t).mp h)) (iblk m c 0 t) (iblk m c 1 t) (iblk m c 2 t) _ _ _).2.2.2 Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%e0, HS0⟩, ⟨%e1, HS1⟩, ⟨%e2, HS2⟩⟩
        isplitl [HS0 HS1 HS2]
        · isplitl [HS0]
          · unfold owns; iexists _; isplitr; swap; · iexact HS0
            ipureintro; exact View.read_writes_of_cover _ _ _ _ _ (coverB0 c _ _ _ _ _ _ _ _ _ _ _ _ _ _ _ _ _ _ _ _ _ _ _ _ _ _ _ _)
          isplitl [HS1]
          · unfold owns; iexists _; isplitr; swap; · iexact HS1
            ipureintro; exact View.read_writes_of_cover _ _ _ _ _ (coverB1 c _ _ _ _ _ _ _ _ _ _ _ _ _ _ _ _ _ _ _ _ _ _ _ _ _ _ _ _)
          · unfold owns; iexists _; isplitr; swap; · iexact HS2
            ipureintro; exact View.read_writes_of_cover _ _ _ _ _ (coverB2 c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexact H5
    · -- case E
      have h2 : ¬t.val % 8 = 7 := by omega
      rw [Dat.leavesExact_idle (dats m 0 c) 3 t (idleOut3 t h2) (noFlush3 t h2), Dat.leavesExact_idle (dats m 0 c) 4 t (idleOut4 t h2) (noFlush4 t h2), Dat.leavesExact_idle (dats m 0 c) 5 t (idleOut5 t h2) (noFlush5 t h2)]
      rw [stAt_E m c t h0 h1]
      unfold resE; (try dsimp only)
      iintro ⟨HΦ, Ho, ⟨%d0, H0⟩, ⟨%d1, H1⟩, ⟨%d2, H2⟩, H3, H4, H5⟩
      iapply (runE c (grid0.coords t) _ _ _ _ _ _ _ _ _ _ _ _ _ _ _ _ _ _ (fun h => h0 ((hcondClear t).mp h)) (fun h => h1 ((hcondBlock t).mp h)) (fun h => h2 ((hcondOut t).mp h)) Set.univ _)
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region boundary hands the kernel is the invariant before the first point. -/
theorem Phi_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem Phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl, scoped_eq]
  exact Phi_any m c _ _

end Cert.KernelIdeal.Hand

end
-- ==== Proof.KRegion.lean ====
/-
  The launch: @main as the host operations before the region, the kernel region, the host operations after it.

  Before the region the core holds all its unscoped buffers at the host operations' results. The region takes out its
  six windows' arrays — the (1,1) bandwidth factor, the row data twice (once per row window, each window holding half
  of it), the three result arrays — and lets every other buffer bypass; the invariant holds only the three accumulators.
  At its exit the arrays come back at their final contents and, with the bypassing buffers, are again all the core's
  unscoped buffers, at the contents W1; the host operations after the region run from there. At the end the result
  buffer and the two argument arrays are read off what the core holds.
-/
import proofs.«152378_j46660524704258_2_alg».proof.Proof.KBody
import proofs.«152378_j46660524704258_2_alg».proof.Proof.LibSharedArrays
import proofs.«152378_j46660524704258_2_alg».proof.Proof.LibSharedTail
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-! ## The shares of the arrays -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The windows on one buffer hold the whole of it between them: the two row windows half of the row data each, every
    other window its array whole. -/
theorem fibres (c : Dev nD) : Pipeline.FibreShares cfg0 c (dats m 0 c) := by
  intro b hb g
  have hb' : b = main_v13 ∨ b = main_v0 ∨ b = main_v14_0 ∨ b = main_v14_1 ∨ b = main_v14_2 := by
    obtain ⟨w, -, rfl⟩ := Finset.mem_image.mp hb
    fin_cases w
    · exact Or.inl rfl
    · exact Or.inr (Or.inl rfl)
    · exact Or.inr (Or.inl rfl)
    · exact Or.inr (Or.inr (Or.inl rfl))
    · exact Or.inr (Or.inr (Or.inr (Or.inl rfl)))
    · exact Or.inr (Or.inr (Or.inr (Or.inr rfl)))
  rcases hb' with rfl | rfl | rfl | rfl | rfl
  · exact Pipeline.fibre_one g _ 0 (by decide) _ (share0 m c)
  · exact Pipeline.fibre_two g _ 1 2 (by decide) (by decide) _ (share1 m c) (share2 m c)
  · exact Pipeline.fibre_one g _ 3 (by decide) _ (share3 m c)
  · exact Pipeline.fibre_one g _ 4 (by decide) _ (share4 m c)
  · exact Pipeline.fibre_one g _ 5 (by decide) _ (share5 m c)

/-! ## What the region leaves -/

/-- An array's contents after the region, as the library computes them. -/
abbrev finalA (c : Dev nD) (w : Fin cfg0.W) : Buf (Elt F) ((cfg0.win w).arr.view.loc (c : Thread nD τ)) := (dats m 0 c).arrAt w cfg0.N

/-- The core's buffers after the region: the arrays at their final contents, every other buffer as the host operations
    before the region left it. -/
def W1 (c : Dev nD) : Valuation τ sig (Elt F) :=
  Pipeline.withArrays spec0 c (StableHlo.after hostOps0 (V₀ m c)) (finalA m c)

/-- An input window's array ends as it was found. -/
theorem finalA_in0 (c : Dev nD) : finalA m c 0 = V m c (Pipeline.arrRef spec0 0) := ((dats m 0 c).arrAt_in 0 rfl _).trans (A_eq m c 0)
theorem finalA_in1 (c : Dev nD) : finalA m c 1 = V m c (Pipeline.arrRef spec0 1) := ((dats m 0 c).arrAt_in 1 rfl _).trans (A_eq m c 1)
theorem finalA_in2 (c : Dev nD) : finalA m c 2 = V m c (Pipeline.arrRef spec0 2) := ((dats m 0 c).arrAt_in 2 rfl _).trans (A_eq m c 2)

/-- The two row windows, on one array, end at the same contents. -/
theorem finalA_agree (c : Dev nD) : ∀ w w' : Fin cfg0.W, Pipeline.arrRef spec0 w = Pipeline.arrRef spec0 w' → HEq (finalA m c w) (finalA m c w') := by
  intro w w' e
  have key : ∀ w w' : Fin 6, Pipeline.arrRef spec0 w = Pipeline.arrRef spec0 w' → w = w' ∨ (w = 1 ∧ w' = 2) ∨ (w = 2 ∧ w' = 1) := by decide +kernel
  rcases key w w' e with rfl | ⟨rfl, rfl⟩ | ⟨rfl, rfl⟩
  · exact HEq.rfl
  · exact heq_of_eq ((finalA_in1 m c).trans (finalA_in2 m c).symm)
  · exact heq_of_eq ((finalA_in2 m c).trans (finalA_in1 m c).symm)

theorem W1_arr (c : Dev nD) (w : Fin cfg0.W) : W1 m c (Proc.devRef .tc (Pipeline.arrRef spec0 w)) = finalA m c w :=
  Pipeline.withArrays_arr_of_agree spec0 c _ (finalA m c) (finalA_agree m c) w

theorem W1_rest (c : Dev nD) (b : Ref sig .tc) (hb : ∀ w, Pipeline.arrRef spec0 w ≠ b) :
    W1 m c (Proc.devRef .tc b) = StableHlo.after hostOps0 (V₀ m c) (Proc.devRef .tc b) :=
  Pipeline.withArrays_of_ne spec0 c _ _ b hb

/-! ## The host operations write only their results -/

abbrev ops0_W : List (Ref sig .tc) := [main_v0, main_v1, main_cst, main_v2, main_cst_0, main_v3, main_v4, main_cst_1, main_v5, main_cst_2, main_v6, main_cst_3, main_v7, main_v8, main_cst_4, main_v9, main_cst_5, main_v10, main_cst_6, main_v11, main_cst_7, main_v12, main_v13]
abbrev ops1_W : List (Ref sig .tc) := [main_v15, main_v16, main_cst_8, main_v17, main_v18, main_v19, main_cst_9, main_v20, main_v21, main_v22, main_cst_10, main_v23, main_cst_11, main_v24, main_cst_12, main_v25, main_cst_13, main_v26, main_cst_14, main_v27, main_cst_15, main_v28, main_cst_16, main_v29, main_v30, main_cst_17, main_v31, main_v32]
theorem hostOps0_writes : (hostOps0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide)⟩
theorem hostOps1_writes : (hostOps1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide)⟩

/-- An argument array reaches the end as launched: no host operation writes it and the region leaves it. -/
theorem end_arg0 (c : Dev nD) : StableHlo.after hostOps1 (W1 m c) (Proc.devRef .tc main_arg0) = m ((c : Thread nD τ).loc main_arg0) :=
  (StableHlo.after_of_writes_sub hostOps1 _ hostOps1_writes (by decide)).trans
    ((W1_rest m c main_arg0 (by decide)).trans (StableHlo.after_of_writes_sub hostOps0 _ hostOps0_writes (by decide)))
theorem end_arg1 (c : Dev nD) : StableHlo.after hostOps1 (W1 m c) (Proc.devRef .tc main_arg1) = m ((c : Thread nD τ).loc main_arg1) :=
  (StableHlo.after_of_writes_sub hostOps1 _ hostOps1_writes (by decide)).trans
    ((W1_rest m c main_arg1 (by decide)).trans (StableHlo.after_of_writes_sub hostOps0 _ hostOps0_writes (by decide)))

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The host operations after the region, from what the region leaves. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W1 m) R

set_option backward.isDefEq.respectTransparency.types false in
/-- THE REGION: the windows' layout, no semaphore of the kernel's own, the body obligation; entered from what the host
    operations left — the arrays into the pipeline at their shares, every other buffer bypassing —, left with the
    arrays at their final contents, which with the bypassing buffers are the core's unscoped buffers at W1. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm]
    rw [Pipeline.unscopedBufs_eq_arrays_rest cfg0 c (dats m 0 c) winFacts₀0.arr_unscoped arr_whole0 (fibres m c) (V m c) ((dats m 0 c).arrAt · 0)
      (fun w => (show (dats m 0 c).arrAt w 0 = (dats m 0 c).A w from rfl).trans (A_eq m c w))]
    iintro ⟨⟨⟨Ha, Hr⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    iintro ⟨-, -, Hr⟩
    iapply (Phi_in m c)
    iexact Hr
  hout c := by
    rw [Pipeline.ownSems0_none]
    iintro H
    isplitr; · iempintro
    isplitr; · iempintro
    iapply (Phi_out m c)
    iexact H
  hexit c := by
    iintro ⟨Ha, HO, -, HZ⟩
    imodintro
    isplitr [HO]
    · rw [show StableHlo.held (c : Thread nD τ) (Pipeline.ucRefs τ sig) (W1 m c) = unscopedBufs c (fun b => W1 m c (Proc.devRef .tc b)) from (Pipeline.unscopedBufs_held c _).symm]
      iapply (Pipeline.unscopedBufs_of_arrays_rest cfg0 c (dats m 0 c) winFacts₀0.arr_unscoped arr_whole0 (fibres m c) (V m c) (fun b => W1 m c (Proc.devRef .tc b)) (finalA m c)
        (fun w => (W1_arr m c w).symm) (fun b hb => W1_rest m c b fun w e => hb (Finset.mem_image.mpr ⟨w, Finset.mem_univ _, e⟩)))
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the run ends with: the result buffer at the host tail's term over what the region left, the two argument
    arrays as launched. -/
def QC : PUnit × MemSt nD τ sig (Elt F) → Prop := fun r =>
  ∀ c : Dev nD, r.2.mem ((c : Thread nD τ).loc main_v32) = StableHlo.after hostOps1 (W1 m c) (Proc.devRef .tc main_v32)
    ∧ r.2.mem ((c : Thread nD τ).loc main_arg0) = m ((c : Thread nD τ).loc main_arg0)
    ∧ r.2.mem ((c : Thread nD τ).loc main_arg1) = m ((c : Thread nD τ).loc main_arg1)

theorem mem_uc (b : Ref sig .tc) (hb : b.isScoped = false) : (Proc.devRef .tc b : DevRef τ sig) ∈ Pipeline.ucRefs τ sig :=
  Finset.mem_filter.mpr ⟨StableHlo.devRef_mem_tcRefs b, by simpa using hb⟩

set_option backward.isDefEq.respectTransparency.types false in
/-- At the compiled mesh, for any float values, from any memory with zero counters: every weakly fair execution of
    @main on the TensorCores terminates, nothing faulting, with the result at the host tail's term and the arguments
    unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (W1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v32) = StableHlo.after hostOps1 (W1 m c) (Proc.devRef .tc main_v32)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave %h := (SI_pointsTo_bufs_agree (qs := fun _ => fullShare) (Pipeline.ucRefs τ sig)) $$ [HSI Hh]
      · isplitl [HSI]; · iexact HSI
        iexact Hh
      imodintro
      isplitr
      · ipureintro
        exact ⟨h _ (mem_uc main_v32 rfl), (h _ (mem_uc main_arg0 rfl)).trans (end_arg0 m c), (h _ (mem_uc main_arg1 rfl)).trans (end_arg1 m c)⟩
      iexact HSI)
    (hQ := fun _ h => h)

end Cert.KernelIdeal.Hand

end
-- ==== Proof.KAcc3.lean ====
/-
  The three result arrays after the region, with floats read as exact extended reals.

  At the last point of block row I (J = 7) the accumulators are complete: every entry of the output block written back
  there is the whole of block row I's share of the quadrant, rowAcc X ninv sel I. The write-backs of the eight block
  rows cover the (8, 8, 128) result array, so after the region entry (I, a, b) of each result array is rowAcc of its
  quadrant at I.
-/
import proofs.«152378_j46660524704258_2_alg».proof.Proof.KAcc2
import proofs.«152378_j46660524704258_2_alg».proof.Proof.KRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Proof.Rbf
open scoped BigOperators

variable {m : (ℓ : Loc nD τ sig) → Buf (Elt Ideal) ℓ} {X : Fin 8192 → Fin 64 → ℝ}

/-- The completed partial sum is block row I's share of the quadrant. -/
theorem partAcc_full (sel : Fin 8 → Fin 8 → Prop) [∀ I J, Decidable (sel I J)] (I : Fin 8) :
    partAcc (term X sel I) 7 = rowAcc X (ninvR X) sel I := by
  rw [partAcc_seven]; rfl

/-- At j = 7 the three output blocks hold the completed sums, at every entry. -/
theorem out_apply {c : Dev nD} (h : Reads m X c) (t : Fin cfg0.N) (h7 : t.val % 8 = 7) (I : Fin 8) (hI : I.val = t.val / 8) (z : Fin 1) (a : Fin 8) (b : Fin 128) :
    (stAt m c t.val t.isLt).o3 (ix3 z a b) = ((rowAcc X (ninvR X) selXX I : ℝ) : EReal)
    ∧ (stAt m c t.val t.isLt).o4 (ix3 z a b) = ((rowAcc X (ninvR X) selYY I : ℝ) : EReal)
    ∧ (stAt m c t.val t.isLt).o5 (ix3 z a b) = ((rowAcc X (ninvR X) selXY I : ℝ) : EReal) := by
  have h0 : ¬t.val % 8 = 0 := by omega
  have h1 : t.val / 8 < 4 ∨ 4 ≤ t.val % 8 := Or.inr (by omega)
  have hs := acc_inv h t.val t.isLt I ⟨7, by decide⟩ hI (by show 7 = t.val % 8; omega) (ix2 a b)
  have e := stAt_C m c t h0 h1 h7
  rw [show stAt m c t.val t.isLt = _ from e] at hs ⊢
  rw [resC_s0, resC_s1, resC_s2] at hs
  refine ⟨?_, ?_, ?_⟩
  · rw [resC_o3, pay7_apply]; exact hs.1.trans (by rw [partAcc_full])
  · rw [resC_o4, pay8_apply]; exact hs.2.1.trans (by rw [partAcc_full])
  · rw [resC_o5, pay9_apply]; exact hs.2.2.trans (by rw [partAcc_full])

/-- A result array's contents: block row I's share of the quadrant, at every (I, a, b). -/
def G (X : Fin 8192 → Fin 64 → ℝ) (sel : Fin 8 → Fin 8 → Prop) [∀ I J, Decidable (sel I J)] : S8x8x128.Idx → EReal :=
  fun idx => ((rowAcc X (ninvR X) sel ⟨(idx 0).val, (idx 0).isLt⟩ : ℝ) : EReal)

/-- Result array 3: the write-back at point t = 8 I + 7 writes block row I's completed sum. -/
theorem flushed3_eq {c : Dev nD} (h : Reads m X c) (t : Fin cfg0.N) (hf : (cfg0.win 3).flush t = true) :
    (dats m 0 c).flushed 3 t = ((cfg0.win 3).blk t).view.read (Elt Ideal) (G X selXX) := by
  have h7 : t.val % 8 = 7 := (flush0_3 t).mp hf
  have hN : t.val < 64 := lt_of_lt_of_eq t.isLt (show cfg0.N = 64 from N_0)
  show (cfg0.win 3).cut (grid0.coords t) ((dats m 0 c).after 3 t) = _
  rw [after3]
  funext y
  obtain ⟨z, a, b, rfl⟩ : ∃ (z : Fin 1) (a : Fin 8) (b : Fin 128), y = ix3 z a b := ⟨y 0, y 1, y 2, eq_ix3 y⟩
  show (stAt m c t.val t.isLt).o3 (ix3 z a b) = G X selXX (((cfg0.win 3).blk t).view.emb (ix3 z a b))
  rw [(out_apply h t h7 ⟨t.val / 8, by omega⟩ rfl z a b).1]
  unfold G
  congr 2
  apply Fin.ext
  show t.val / 8 = win0_3.index t (0 : Fin 3) * 1 + 1 * z.val
  rw [(idxw3 t).1]; omega

/-- Every entry of result array 3 lies in the block written back at the last point of its block row. -/
theorem cover3 (i : S8x8x128.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  have hN : cfg0.N = 64 := N_0
  obtain ⟨t, ht⟩ : ∃ t : Fin cfg0.N, t.val = 8 * (i 0).val + 7 := ⟨⟨8 * (i 0).val + 7, by omega⟩, rfl⟩
  refine ⟨t, (flush0_3 t).mpr (by rw [ht]; omega), ?_⟩
  show i ∈ ((View.whole main_v14_0).slice (win0_3.rect t)).set
  rw [View.set_slice_whole, Rect.mem_set_unit]
  obtain ⟨e0, e1, e2⟩ := idxw3 t
  intro a
  match a with
  | ⟨0, _⟩ => show win0_3.index t (0 : Fin 3) * 1 ≤ (i 0).val ∧ (i 0).val < win0_3.index t (0 : Fin 3) * 1 + 1
              rw [e0, ht]; omega
  | ⟨1, _⟩ => show win0_3.index t (1 : Fin 3) * 8 ≤ (i 1).val ∧ (i 1).val < win0_3.index t (1 : Fin 3) * 8 + 8
              rw [e1]; omega
  | ⟨2, _⟩ => show win0_3.index t (2 : Fin 3) * 128 ≤ (i 2).val ∧ (i 2).val < win0_3.index t (2 : Fin 3) * 128 + 128
              rw [e2]; omega

/-- Result array 3 after the region. -/
theorem final3 {c : Dev nD} (h : Reads m X c) : finalA m c 3 = G X selXX :=
  (dats m 0 c).arrAt_eq_of_cover 3 (G X selXX) (flushed3_eq h) cover3

/-- Result array 4: the write-back at point t = 8 I + 7 writes block row I's completed sum. -/
theorem flushed4_eq {c : Dev nD} (h : Reads m X c) (t : Fin cfg0.N) (hf : (cfg0.win 4).flush t = true) :
    (dats m 0 c).flushed 4 t = ((cfg0.win 4).blk t).view.read (Elt Ideal) (G X selYY) := by
  have h7 : t.val % 8 = 7 := (flush0_4 t).mp hf
  have hN : t.val < 64 := lt_of_lt_of_eq t.isLt (show cfg0.N = 64 from N_0)
  show (cfg0.win 4).cut (grid0.coords t) ((dats m 0 c).after 4 t) = _
  rw [after4]
  funext y
  obtain ⟨z, a, b, rfl⟩ : ∃ (z : Fin 1) (a : Fin 8) (b : Fin 128), y = ix3 z a b := ⟨y 0, y 1, y 2, eq_ix3 y⟩
  show (stAt m c t.val t.isLt).o4 (ix3 z a b) = G X selYY (((cfg0.win 4).blk t).view.emb (ix3 z a b))
  rw [(out_apply h t h7 ⟨t.val / 8, by omega⟩ rfl z a b).2.1]
  unfold G
  congr 2
  apply Fin.ext
  show t.val / 8 = win0_4.index t (0 : Fin 3) * 1 + 1 * z.val
  rw [(idxw4 t).1]; omega

/-- Every entry of result array 4 lies in the block written back at the last point of its block row. -/
theorem cover4 (i : S8x8x128.Idx) : ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 128 := (i 2).isLt
  have hN : cfg0.N = 64 := N_0
  obtain ⟨t, ht⟩ : ∃ t : Fin cfg0.N, t.val = 8 * (i 0).val + 7 := ⟨⟨8 * (i 0).val + 7, by omega⟩, rfl⟩
  refine ⟨t, (flush0_4 t).mpr (by rw [ht]; omega), ?_⟩
  show i ∈ ((View.whole main_v14_1).slice (win0_4.rect t)).set
  rw [View.set_slice_whole, Rect.mem_set_unit]
  obtain ⟨e0, e1, e2⟩ := idxw4 t
  intro a
  match a with
  | ⟨0, _⟩ => show win0_4.index t (0 : Fin 3) * 1 ≤ (i 0).val ∧ (i 0).val < win0_4.index t (0 : Fin 3) * 1 + 1
              rw [e0, ht]; omega
  | ⟨1, _⟩ => show win0_4.index t (1 : Fin 3) * 8 ≤ (i 1).val ∧ (i 1).val < win0_4.index t (1 : Fin 3) * 8 + 8
              rw [e1]; omega
  | ⟨2, _⟩ => show win0_4.index t (2 : Fin 3) * 128 ≤ (i 2).val ∧ (i 2).val < win0_4.index t (2 : Fin 3) * 128 + 128
              rw [e2]; omega

/-- Result array 4 after the region. -/
theorem final4 {c : Dev nD} (h : Reads m X c) : finalA m c 4 = G X selYY :=
  (dats m 0 c).arrAt_eq_of_cover 4 (G X selYY) (flushed4_eq h) cover4

/-- Result array 5: the write-back at point t = 8 I + 7 writes block row I's completed sum. -/
theorem flushed5_eq {c : Dev nD} (h : Reads m X c) (t : Fin cfg0.N) (hf : (cfg0.win 5).flush t = true) :
    (dats m 0 c).flushed 5 t = ((cfg0.win 5).blk t).view.read (Elt Ideal) (G X selXY) := by
  have h7 : t.val % 8 = 7 := (flush0_5 t).mp hf
  have hN : t.val < 64 := lt_of_lt_of_eq t.isLt (show cfg0.N = 64 from N_0)
  show (cfg0.win 5).cut (grid0.coords t) ((dats m 0 c).after 5 t) = _
  rw [after5]
  funext y
  obtain ⟨z, a, b, rfl⟩ : ∃ (z : Fin 1) (a : Fin 8) (b : Fin 128), y = ix3 z a b := ⟨y 0, y 1, y 2, eq_ix3 y⟩
  show (stAt m c t.val t.isLt).o5 (ix3 z a b) = G X selXY (((cfg0.win 5).blk t).view.emb (ix3 z a b))
  rw [(out_apply h t h7 ⟨t.val / 8, by omega⟩ rfl z a b).2.2]
  unfold G
  congr 2
  apply Fin.ext
  show t.val / 8 = win0_5.index t (0 : Fin 3) * 1 + 1 * z.val
  rw [(idxw5 t).1]; omega

/-- Every entry of result array 5 lies in the block written back at the last point of its block row. -/
theorem cover5 (i : S8x8x128.Idx) : ∃ t : Fin cfg0.N, (cfg0.win 5).flush t = true ∧ i ∈ ((cfg0.win 5).blk t).view.set := by
  have hi0 : (i 0).val < 8 := (i 0).isLt
  have hi1 : (i 1).val < 8 := (i 1).isLt
  have hi2 : (i 2).val < 128 := (i 2).isLt
  have hN : cfg0.N = 64 := N_0
  obtain ⟨t, ht⟩ : ∃ t : Fin cfg0.N, t.val = 8 * (i 0).val + 7 := ⟨⟨8 * (i 0).val + 7, by omega⟩, rfl⟩
  refine ⟨t, (flush0_5 t).mpr (by rw [ht]; omega), ?_⟩
  show i ∈ ((View.whole main_v14_2).slice (win0_5.rect t)).set
  rw [View.set_slice_whole, Rect.mem_set_unit]
  obtain ⟨e0, e1, e2⟩ := idxw5 t
  intro a
  match a with
  | ⟨0, _⟩ => show win0_5.index t (0 : Fin 3) * 1 ≤ (i 0).val ∧ (i 0).val < win0_5.index t (0 : Fin 3) * 1 + 1
              rw [e0, ht]; omega
  | ⟨1, _⟩ => show win0_5.index t (1 : Fin 3) * 8 ≤ (i 1).val ∧ (i 1).val < win0_5.index t (1 : Fin 3) * 8 + 8
              rw [e1]; omega
  | ⟨2, _⟩ => show win0_5.index t (2 : Fin 3) * 128 ≤ (i 2).val ∧ (i 2).val < win0_5.index t (2 : Fin 3) * 128 + 128
              rw [e2]; omega

/-- Result array 5 after the region. -/
theorem final5 {c : Dev nD} (h : Reads m X c) : finalA m c 5 = G X selXY :=
  (dats m 0 c).arrAt_eq_of_cover 5 (G X selXY) (flushed5_eq h) cover5

/-- What the region leaves at the three result arrays, read at an entry. -/
theorem W1_out0 {c : Dev nD} (h : Reads m X c) (I : Fin 8) (a : Fin 8) (b : Fin 128) :
    W1 m c (Proc.devRef .tc main_v14_0) (ix3 I a b) = ((rowAcc X (ninvR X) selXX I : ℝ) : EReal) := by
  rw [show W1 m c (Proc.devRef .tc main_v14_0) = finalA m c 3 from W1_arr m c 3, final3 h]; rfl
theorem W1_out1 {c : Dev nD} (h : Reads m X c) (I : Fin 8) (a : Fin 8) (b : Fin 128) :
    W1 m c (Proc.devRef .tc main_v14_1) (ix3 I a b) = ((rowAcc X (ninvR X) selYY I : ℝ) : EReal) := by
  rw [show W1 m c (Proc.devRef .tc main_v14_1) = finalA m c 4 from W1_arr m c 4, final4 h]; rfl
theorem W1_out2 {c : Dev nD} (h : Reads m X c) (I : Fin 8) (a : Fin 8) (b : Fin 128) :
    W1 m c (Proc.devRef .tc main_v14_2) (ix3 I a b) = ((rowAcc X (ninvR X) selXY I : ℝ) : EReal) := by
  rw [show W1 m c (Proc.devRef .tc main_v14_2) = finalA m c 5 from W1_arr m c 5, final5 h]; rfl

end Cert.KernelIdeal.Hand

end
-- ==== Proof.KerTail.lean ====
/-
  The host operations after the kernel's launch, read at the exact-real instance.

  Each of the three result arrays holds eight blocks of 8 x 128 entries, every entry of block I equal to one real
  number f(I). The tail takes entry (I, 0, 0) of each block, gathers the eight into a vector, sums it from zero,
  multiplies by ten and divides by 16777216; it returns the first array's share plus the second's minus twice the
  third's: 10 · Σ f0 / 16777216 + 10 · Σ f1 / 16777216 − 2 · (10 · Σ f2 / 16777216), a real number.
-/
import proofs.«152378_j46660524704258_2_alg».proof.Proof.Gen.KernelIdeal.Launch
import proofs.«152378_j46660524704258_2_alg».proof.Proof.RbfConsts
import proofs.«152378_j46660524704258_2_alg».proof.Proof.RefValue1
import Idealize.ShloMosaic.Lib.StableHlo.Run

noncomputable section

namespace Cert.Proof.KerTail

open Idealize.ShloMosaic Idealize.ShloMosaic.ValueIdx Cert.KernelIdeal Cert.KernelIdeal.Gen Cert.Proof.Rbf Cert.Proof.RefValue
open scoped BigOperators

/-- A sum over the indices of a vector is the sum over its coordinate. -/
theorem sum_idx1 {M : Type*} [AddCommMonoid M] {n : Nat} (g : (⟨1, ![n]⟩ : Shape).Idx → M) :
    ∑ i, g i = ∑ a : Fin n, g (ix1 a) :=
  (Equiv.sum_comp (⟨fun a => ix1 a, fun i => i 0, fun _ => rfl, fun i => (eq_ix1 i).symm⟩ :
    Fin n ≃ (⟨1, ![n]⟩ : Shape).Idx) g).symm

/-- Entry (I, 0, 0) of each of the eight blocks, gathered into a vector and summed from the zero word. -/
theorem firsts_sum (o : FVec Ideal ⟨3, ![8, 8, 128]⟩ .f32) (f : Fin 8 → ℝ)
    (ho : ∀ (I : Fin 8) (a : Fin 8) (b : Fin 128), o (ix3 I a b) = ((f I : ℝ) : EReal))
    (hs : (⟨3, ![8, 8, 128]⟩ : Shape).Slices ![0, 0, 0] ⟨3, ![8, 1, 1]⟩)
    (hc : (⟨3, ![8, 1, 1]⟩ : Shape).ShapeCasts ⟨1, ![8]⟩)
    (h' : (⟨1, ![8]⟩ : Shape).ReducesTo [0] ⟨0, ![]⟩) (hu : 0 < (⟨0, ![]⟩ : Shape).numel)
    (i : (⟨0, ![]⟩ : Shape).Idx) :
    Host.reduceAdd (F := Ideal) (φ := .f32)
        (shapeCast ⟨1, ![8]⟩ (extractStridedSlice ⟨3, ![8, 1, 1]⟩ ![0, 0, 0] o hs) hc)
        (constant (F := Ideal) ⟨0, ![]⟩ .f32 0x00000000#32) h' hu i
      = ((∑ I, f I : ℝ) : EReal) := by
  rw [Cert.LibTotalSum.total_sum, sum_idx1, coe_sum]
  refine Finset.sum_congr rfl fun I _ => ?_
  rw [shapeCast_apply _ hc (ix1 I) (ix3 I (0 : Fin 1) (0 : Fin 1))
    (by rw [Shape.rowMajor_val_three, Shape.rowMajor_val_one]; show (I.val * 1 + 0) * 1 + 0 = I.val; omega)]
  rw [extractStridedSlice_apply ![0, 0, 0] o hs (ix3 I (0 : Fin 1) (0 : Fin 1)) (ix3 I (0 : Fin 8) (0 : Fin 128))
    (fun ax => by
      match ax with
      | ⟨0, _⟩ => exact (Nat.zero_add _).symm
      | ⟨1, _⟩ => rfl
      | ⟨2, _⟩ => rfl)]
  exact ho I 0 0

/-- One result array's share: the sum of the eight first entries, times ten, over 16777216. -/
def share (o : FVec Ideal S8x8x128 .f32) : FVec Ideal S_ .f32 :=
  Host.divf (mulf (constant S_ .f32 0x41200000#32)
      (Host.reduceAdd (F := Ideal) (φ := .f32)
        (shapeCast S8 (extractStridedSlice S8x1x1 ![0, 0, 0] o slices_S8x8x128_S8x1x1_0_0_0) shapeCasts_S8x1x1_S8)
        (constant S_ .f32 0x00000000#32) reducesTo_S8_S_d0 h_S_))
    (constant S_ .f32 0x4B800000#32)

/-- A share of an array whose blocks are constant at real numbers is real. -/
theorem share_apply (o : FVec Ideal S8x8x128 .f32) (f : Fin 8 → ℝ)
    (ho : ∀ (I : Fin 8) (a : Fin 8) (b : Fin 128), o (ix3 I a b) = ((f I : ℝ) : EReal)) (i : S_.Idx) :
    share o i = ((10 * (∑ I, f I) / 16777216 : ℝ) : EReal) := by
  show Ideal.div (Ideal.ofBits .f32 0x41200000#32 * Host.reduceAdd (F := Ideal) (φ := .f32)
        (shapeCast S8 (extractStridedSlice S8x1x1 ![0, 0, 0] o slices_S8x8x128_S8x1x1_0_0_0) shapeCasts_S8x1x1_S8)
        (constant S_ .f32 0x00000000#32) reducesTo_S8_S_d0 h_S_ i) (Ideal.ofBits .f32 0x4B800000#32) = _
  rw [firsts_sum o f ho, ofBits_10, ofBits_16777216, ← EReal.coe_mul, div_coe_coe _ (16777216 : ℝ) (by norm_num)]

/-- What the last buffer holds after the tail, as a term of the three result arrays. -/
theorem tail_eq (W : Valuation τ sig (Elt Ideal)) :
    StableHlo.after (hostOps1 (F := Ideal)) W (Proc.devRef .tc main_v32)
      = subf (F := Ideal) (s := S_) (φ := .f32)
          (addf (share (W (Proc.devRef .tc main_v14_0))) (share (W (Proc.devRef .tc main_v14_1))))
          (mulf (constant S_ .f32 0x40000000#32) (share (W (Proc.devRef .tc main_v14_2)))) := by
  dsimp only [hostOps1]
  after_results_simp
  rfl

/-- The tail's result is the real number 10 · Σ f0 / 16777216 + 10 · Σ f1 / 16777216 − 2 · (10 · Σ f2 / 16777216). -/
theorem tail_value (W : Valuation τ sig (Elt Ideal)) (f0 f1 f2 : Fin 8 → ℝ)
    (h0 : ∀ (I : Fin 8) (a : Fin 8) (b : Fin 128), W (Proc.devRef .tc main_v14_0) (ix3 I a b) = ((f0 I : ℝ) : EReal))
    (h1 : ∀ (I : Fin 8) (a : Fin 8) (b : Fin 128), W (Proc.devRef .tc main_v14_1) (ix3 I a b) = ((f1 I : ℝ) : EReal))
    (h2 : ∀ (I : Fin 8) (a : Fin 8) (b : Fin 128), W (Proc.devRef .tc main_v14_2) (ix3 I a b) = ((f2 I : ℝ) : EReal)) :
    StableHlo.after (hostOps1 (F := Ideal)) W (Proc.devRef .tc main_v32)
      = fun _ => ((10 * (∑ I, f0 I) / 16777216 + 10 * (∑ I, f1 I) / 16777216 - 2 * (10 * (∑ I, f2 I) / 16777216) : ℝ) : EReal) := by
  rw [tail_eq]
  funext i
  rw [subf_apply, addf_apply, mulf_apply, constant_apply, share_apply _ f0 h0, share_apply _ f1 h1, share_apply _ f2 h2,
    ofBits_2, ← EReal.coe_add, ← EReal.coe_mul, ← EReal.coe_sub]

end Cert.Proof.KerTail

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«152378_j46660524704258_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.KFinal.lean ====
/-
  The idealized kernel's result, and the precondition read.

  Under the precondition every entry of the two argument arrays is a real number, so the 8192 rows (source rows, then
  target rows) are a real matrix X. The host operations after the region slice one column out of each result array,
  sum the eight block rows' shares, scale by ten over 4096^2 and combine: with the result arrays at the block rows'
  shares of the three quadrants, the program's result is the real number mmdKer X b0.
-/
import proofs.«152378_j46660524704258_2_alg».proof.Defs
import proofs.«152378_j46660524704258_2_alg».proof.Proof.Gen.Pre_finite_inputs
import proofs.«152378_j46660524704258_2_alg».proof.Proof.KAcc3
import proofs.«152378_j46660524704258_2_alg».proof.Proof.KerTail
import proofs.«152378_j46660524704258_2_alg».proof.Proof.LibFinitePre
import Idealize.ShloMosaic.Lib.Affine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Proof.Rbf
open scoped BigOperators

variable {m : (ℓ : Loc nD τ sig) → Buf (Elt Ideal) ℓ}

/-- The precondition says the two argument arrays hold real numbers: they are the halves of a real matrix. -/
theorem reads_of_pre (hpre : Cert.Pre_KernelIdeal m) (c : Dev nD) : ∃ X : Fin 8192 → Fin 64 → ℝ, Reads m X c := by
  have h := congrFun (hpre c) ix0
  dsimp only [Cert.Pre_finite_inputs.fn] at h
  obtain ⟨ha, hb⟩ := IntOp.andi_eq_one.mp (show IntOp.andi _ _ = 1#1 from h)
  have r0 := fun i => Cert.LibFinitePre.all_real (m ((c.tc : Thread nD τ).loc main_arg0)) _ _ _ ha i
  have r1 := fun i => Cert.LibFinitePre.all_real (m ((c.tc : Thread nD τ).loc main_arg1)) _ _ _ hb i
  choose f0 hf0 using r0
  choose f1 hf1 using r1
  refine ⟨fun p k => if p.val < 4096 then f0 (ix2 (⟨p.val % 4096, Nat.mod_lt _ (by decide)⟩ : Fin 4096) k)
      else f1 (ix2 (⟨p.val % 4096, Nat.mod_lt _ (by decide)⟩ : Fin 4096) k), ?_, ?_⟩
  · intro a k
    show m ((c.tc : Thread nD τ).loc main_arg0) (ix2 a k) = _
    rw [hf0]
    have ha' : (lo a).val < 4096 := a.isLt
    have e : (⟨(lo a).val % 4096, Nat.mod_lt _ (by decide)⟩ : Fin 4096) = a := Fin.ext (Nat.mod_eq_of_lt a.isLt)
    simp only [if_pos ha', e]
  · intro a k
    show m ((c.tc : Thread nD τ).loc main_arg1) (ix2 a k) = _
    rw [hf1]
    have ha' : ¬(hi a).val < 4096 := by show ¬a.val + 4096 < 4096; omega
    have e : (⟨(hi a).val % 4096, Nat.mod_lt _ (by decide)⟩ : Fin 4096) = a :=
      Fin.ext (by show (a.val + 4096) % 4096 = a.val; rw [Nat.add_mod_right]; exact Nat.mod_eq_of_lt a.isLt)
    simp only [if_neg ha', e]

/-- The idealized kernel's result is the real number mmdKer of the data. -/
theorem kernel_value {X : Fin 8192 → Fin 64 → ℝ} {c : Dev nD} (h : Reads m X c) :
    StableHlo.after (hostOps1 (F := Ideal)) (W1 m c) (Proc.devRef .tc main_v32) = fun _ => ((mmdKer X b0 : ℝ) : EReal) := by
  rw [Cert.Proof.KerTail.tail_value (W1 m c) (fun I => rowAcc X (ninvR X) selXX I) (fun I => rowAcc X (ninvR X) selYY I) (fun I => rowAcc X (ninvR X) selXY I)
    (W1_out0 h) (W1_out1 h) (W1_out2 h)]
  rfl

end Cert.KernelIdeal.Hand

end
-- ==== Proof.lean ====
/-
  The certificate: the kernel and its reference compute one function of finite inputs.

  Both programs take two arrays of 4096 rows of 64 numbers, lay them one after the other as n = 8192 rows x_p, and
  return  mean_xx + mean_yy - 2 mean_xy,  each mean ten times the sum of exp(-|x_p - x_q|^2 / b) over a quadrant of row
  pairs divided by 4096^2, where |x_p - x_q|^2 is formed as max (|x_p|^2 + |x_q|^2 - 2 <x_p, x_q>) 0 and the bandwidth
  b is the mean off-diagonal squared distance floored at a small positive constant.

  The reference forms all n^2 distances, sums them for b, and sums each quadrant ten times over. The kernel gets the sum
  of the distances from  sum_{p,q} |x_p - x_q|^2 = 2 n sum_p |x_p|^2 - 2 |sum_p x_p|^2,  multiplies each distance by
  -1/b, and sums each quadrant as 1024 x 1024 blocks on an 8 x 8 grid: three accumulators per block row, cleared at the
  row's first block, each block's sum added to the accumulator of the quadrant the block lies in (the target-source
  blocks skipped), the accumulators written out at the row's last block and the eight rows' results added up afterwards.

  With floats read as exact extended reals and the inputs finite, every quantity is a real number, the clamp at zero is
  vacuous, and both results are the same real number (mmdKer = mmdRef).

  The three frames: the reference is a straight line of host operations; the kernel (word level and idealized, one text)
  runs as host operations, the region, host operations, the region's body run once per case of its three branch
  conditions, the two row windows sharing the one row array half each. The idealization rewrote nothing.
-/
import proofs.«152378_j46660524704258_2_alg».proof.Defs
import proofs.«152378_j46660524704258_2_alg».proof.Proof.Gen.Kernel
import proofs.«152378_j46660524704258_2_alg».proof.Proof.Gen.KernelIdeal
import proofs.«152378_j46660524704258_2_alg».proof.Proof.Gen.ReferenceIdeal
import proofs.«152378_j46660524704258_2_alg».proof.Proof.Gen.Pre_finite_inputs
import proofs.«152378_j46660524704258_2_alg».proof.Proof.RefFrame
import proofs.«152378_j46660524704258_2_alg».proof.Proof.RefValue
import proofs.«152378_j46660524704258_2_alg».proof.Proof.RbfAlgebra
import proofs.«152378_j46660524704258_2_alg».proof.Proof.WRegion
import proofs.«152378_j46660524704258_2_alg».proof.Proof.KFinal

noncomputable section

namespace Cert.Proof

open Idealize.ShloMosaic Idealize.ShloMosaic.TcCoe Idealize.SL.Sem Idealize.ShloMosaic.ValueIdx Cert.Proof.Rbf

/-- The word-level kernel runs and leaves its arguments. -/
theorem frame_k : Cert.frame_Kernel := fun m ρ _ =>
  (θ_run Cert.Kernel.defs _ _).mono (fun _ h c => ⟨(h c).2.1, (h c).2.2⟩) (Cert.Kernel.Hand.run_main (F := Bits) m ρ)

/-- The idealized kernel runs and leaves its arguments. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- From memories agreeing on the arguments both idealized programs end with the same result: the real number
    mmdKer X b0 = mmdRef X b0 of the data X the precondition makes real. -/
theorem algebraic : Cert.algebraic_KernelIdeal_ReferenceIdeal := by
  intro m ρ m' ρ' hpre hagree
  refine ⟨fun c => StableHlo.after (Cert.KernelIdeal.Gen.hostOps1 (F := Ideal)) (Cert.KernelIdeal.Hand.W1 m c) (Proc.devRef .tc Cert.KernelIdeal.main_v32),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨X, hX⟩ := Cert.KernelIdeal.Hand.reads_of_pre hpre c
  have h0 : ∀ (a : Fin 4096) (k : Fin 64), StableHlo.launchContents m' c (Proc.devRef .tc Cert.ReferenceIdeal.main_arg0) (ix2 a k) = ((X (lo a) k : ℝ) : EReal) := by
    intro a k
    show m' ((c.tc : Thread Cert.ReferenceIdeal.nD Cert.ReferenceIdeal.τ).loc Cert.ReferenceIdeal.main_arg0) (ix2 a k) = _
    rw [(hagree c).1]
    exact hX.1 a k
  have h1 : ∀ (a : Fin 4096) (k : Fin 64), StableHlo.launchContents m' c (Proc.devRef .tc Cert.ReferenceIdeal.main_arg1) (ix2 a k) = ((X (hi a) k : ℝ) : EReal) := by
    intro a k
    show m' ((c.tc : Thread Cert.ReferenceIdeal.nD Cert.ReferenceIdeal.τ).loc Cert.ReferenceIdeal.main_arg1) (ix2 a k) = _
    rw [(hagree c).2]
    exact hX.2 a k
  refine (Cert.ReferenceIdeal.Value.val5_main_v220 (StableHlo.launchContents m' c)).symm.trans ?_
  refine (Cert.Proof.RefValue.ref_value X (StableHlo.launchContents m' c) h0 h1).trans ?_
  show _ = StableHlo.after (Cert.KernelIdeal.Gen.hostOps1 (F := Ideal)) (Cert.KernelIdeal.Hand.W1 m c) (Proc.devRef .tc Cert.KernelIdeal.main_v32)
  rw [Cert.KernelIdeal.Hand.kernel_value hX, mmdKer_eq_mmdRef X b0 b0_pos]
  rfl

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
